-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v86)) (v3 : (c : Dev Cert.KernelIdeal.nD) → Buf (Elt Ideal) ((c.tc : Thread Cert.KernelIdeal.nD Cert.KernelIdeal.τ).loc Cert.KernelIdeal.main_v89)) (v4 : (c : Dev Cert.KernelIdeal.nD) → Buf (Elt Ideal) ((c.tc : Thread Cert.KernelIdeal.nD Cert.KernelIdeal.τ).loc Cert.KernelIdeal.main_v93)) (v5 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v86) = v2 c
          ∧ r.2.mem ((c.tc : Thread Cert.KernelIdeal.nD Cert.KernelIdeal.τ).loc Cert.KernelIdeal.main_v89) = v3 c
          ∧ r.2.mem ((c.tc : Thread Cert.KernelIdeal.nD Cert.KernelIdeal.τ).loc Cert.KernelIdeal.main_v93) = v4 c
          ∧ r.2.mem ((c.tc : Thread Cert.KernelIdeal.nD Cert.KernelIdeal.τ).loc Cert.KernelIdeal.main_v97) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v121) = v3 c
          ∧ r.2.mem ((c.tc : Thread Cert.ReferenceIdeal.nD Cert.ReferenceIdeal.τ).loc Cert.ReferenceIdeal.main_v137) = v4 c
          ∧ r.2.mem ((c.tc : Thread Cert.ReferenceIdeal.nD Cert.ReferenceIdeal.τ).loc Cert.ReferenceIdeal.main_v153) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg29 : FVec F S1 .f32) (main_v118 : IVec S_ 1) (main_v119 : FVec F S64x1 .f32) : IVec S_ 1 :=
  let main_cst_46 : FVec F S_ .f32 := constant S_ .f32 0x7F800000#32
  let main_v120 : FVec F S64x1 .f32 := broadcastInDim S64x1 ![] bcast_S_S64x1 main_cst_46
  let main_v121 : IVec S64x1 1 := cmpf .olt main_v119 main_v120
  let main_c_47 : IVec S_ 1 := constantI S_ 1 1#1
  let main_v122 : IVec S_ 1 := (fun x v => Host.reduce IntOp.andi x v reducesTo_S64x1_S_d0_1 h_S_) main_v121 main_c_47
  let main_v123 : IVec S_ 1 := andi main_v118 main_v122
  let main_v124 : FVec F S1 .f32 := Host.absf main_arg29
  let main_cst_48 : FVec F S_ .f32 := constant S_ .f32 0x7F800000#32
  let main_v125 : FVec F S1 .f32 := broadcastInDim S1 ![] bcast_S_S1 main_cst_48
  let main_v126 : IVec S1 1 := cmpf .olt main_v124 main_v125
  let main_c_49 : IVec S_ 1 := constantI S_ 1 1#1
  let main_v127 : IVec S_ 1 := (fun x v => Host.reduce IntOp.andi x v reducesTo_S1_S_d0 h_S_) main_v126 main_c_49
  let main_v128 : IVec S_ 1 := andi main_v123 main_v127
  main_v128

def fn_part6 {F : FTy → Type} [FloatOps F] (main_arg25 : FVec F S2 .f32) (main_arg26 : FVec F S128x64 .f32) (main_arg27 : FVec F S64 .f32) (main_arg28 : FVec F S64x1 .f32) (main_arg29 : FVec F S1 .f32) (main_v98 : IVec S_ 1) (main_v101 : IVec S64x2 1) (main_c_39 : IVec S_ 1) : IVec S_ 1 :=
  let main_v102 : IVec S_ 1 := (fun x v => Host.reduce IntOp.andi x v reducesTo_S64x2_S_d0_1 h_S_) main_v101 main_c_39
  let main_v103 : IVec S_ 1 := andi main_v98 main_v102
  let main_v104 : FVec F S2 .f32 := Host.absf main_arg25
  let main_cst_40 : FVec F S_ .f32 := constant S_ .f32 0x7F800000#32
  let main_v105 : FVec F S2 .f32 := broadcastInDim S2 ![] bcast_S_S2 main_cst_40
  let main_v106 : IVec S2 1 := cmpf .olt main_v104 main_v105
  let main_c_41 : IVec S_ 1 := constantI S_ 1 1#1
  let main_v107 : IVec S_ 1 := (fun x v => Host.reduce IntOp.andi x v reducesTo_S2_S_d0 h_S_) main_v106 main_c_41
  let main_v108 : IVec S_ 1 := andi main_v103 main_v107
  let main_v109 : FVec F S128x64 .f32 := Host.absf main_arg26
  let main_cst_42 : FVec F S_ .f32 := constant S_ .f32 0x7F800000#32
  let main_v110 : FVec F S128x64 .f32 := broadcastInDim S128x64 ![] bcast_S_S128x64 main_cst_42
  let main_v111 : IVec S128x64 1 := cmpf .olt main_v109 main_v110
  let main_c_43 : IVec S_ 1 := constantI S_ 1 1#1
  let main_v112 : IVec S_ 1 := (fun x v => Host.reduce IntOp.andi x v reducesTo_S128x64_S_d0_1 h_S_) main_v111 main_c_43
  let main_v113 : IVec S_ 1 := andi main_v108 main_v112
  let main_v114 : FVec F S64 .f32 := Host.absf main_arg27
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64x1 .f32 := Host.absf main_arg28
  fn_part7 (F := F) main_arg29 main_v118 main_v119

def fn_part5 {F : FTy → Type} [FloatOps F] (main_arg22 : FVec F S128x64 .f32) (main_arg23 : FVec F S64 .f32) (main_arg24 : FVec F S64x2 .f32) (main_arg25 : FVec F S2 .f32) (main_arg26 : FVec F S128x64 .f32) (main_arg27 : FVec F S64 .f32) (main_arg28 : FVec F S64x1 .f32) (main_arg29 : FVec F S1 .f32) (main_v83 : IVec S_ 1) (main_v84 : FVec F S2 .f32) (main_cst_32 : FVec F S_ .f32) : IVec S_ 1 :=
  let main_v85 : FVec F S2 .f32 := broadcastInDim S2 ![] bcast_S_S2 main_cst_32
  let main_v86 : IVec S2 1 := cmpf .olt main_v84 main_v85
  let main_c_33 : IVec S_ 1 := constantI S_ 1 1#1
  let main_v87 : IVec S_ 1 := (fun x v => Host.reduce IntOp.andi x v reducesTo_S2_S_d0 h_S_) main_v86 main_c_33
  let main_v88 : IVec S_ 1 := andi main_v83 main_v87
  let main_v89 : FVec F S128x64 .f32 := Host.absf main_arg22
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg23
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x2 .f32 := Host.absf main_arg24
  let main_cst_38 : FVec F S_ .f32 := constant S_ .f32 0x7F800000#32
  let main_v100 : FVec F S64x2 .f32 := broadcastInDim S64x2 ![] bcast_S_S64x2 main_cst_38
  let main_v101 : IVec S64x2 1 := cmpf .olt main_v99 main_v100
  let main_c_39 : IVec S_ 1 := constantI S_ 1 1#1
  fn_part6 (F := F) main_arg25 main_arg26 main_arg27 main_arg28 main_arg29 main_v98 main_v101 main_c_39

def fn_part4 {F : FTy → Type} [FloatOps F] (main_arg18 : FVec F S128x64 .f32) (main_arg19 : FVec F S64 .f32) (main_arg20 : FVec F S64x2 .f32) (main_arg21 : FVec F S2 .f32) (main_arg22 : FVec F S128x64 .f32) (main_arg23 : FVec F S64 .f32) (main_arg24 : FVec F S64x2 .f32) (main_arg25 : FVec F S2 .f32) (main_arg26 : FVec F S128x64 .f32) (main_arg27 : FVec F S64 .f32) (main_arg28 : FVec F S64x1 .f32) (main_arg29 : FVec F S1 .f32) (main_v63 : IVec S_ 1) (main_v67 : IVec S_ 1) : IVec S_ 1 :=
  let main_v68 : IVec S_ 1 := andi main_v63 main_v67
  let main_v69 : FVec F S128x64 .f32 := Host.absf main_arg18
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x2 .f32 := Host.absf main_arg20
  let main_cst_30 : FVec F S_ .f32 := constant S_ .f32 0x7F800000#32
  let main_v80 : FVec F S64x2 .f32 := broadcastInDim S64x2 ![] bcast_S_S64x2 main_cst_30
  let main_v81 : IVec S64x2 1 := cmpf .olt main_v79 main_v80
  let main_c_31 : IVec S_ 1 := constantI S_ 1 1#1
  let main_v82 : IVec S_ 1 := (fun x v => Host.reduce IntOp.andi x v reducesTo_S64x2_S_d0_1 h_S_) main_v81 main_c_31
  let main_v83 : IVec S_ 1 := andi main_v78 main_v82
  let main_v84 : FVec F S2 .f32 := Host.absf main_arg21
  let main_cst_32 : FVec F S_ .f32 := constant S_ .f32 0x7F800000#32
  fn_part5 (F := F) main_arg22 main_arg23 main_arg24 main_arg25 main_arg26 main_arg27 main_arg28 main_arg29 main_v83 main_v84 main_cst_32

def fn_part3 {F : FTy → Type} [FloatOps F] (main_arg15 : FVec F S128x128 .f32) (main_arg16 : FVec F S128 .f32) (main_arg17 : FVec F S128x128 .f32) (main_arg18 : FVec F S128x64 .f32) (main_arg19 : FVec F S64 .f32) (main_arg20 : FVec F S64x2 .f32) (main_arg21 : FVec F S2 .f32) (main_arg22 : FVec F S128x64 .f32) (main_arg23 : FVec F S64 .f32) (main_arg24 : FVec F S64x2 .f32) (main_arg25 : FVec F S2 .f32) (main_arg26 : FVec F S128x64 .f32) (main_arg27 : FVec F S64 .f32) (main_arg28 : FVec F S64x1 .f32) (main_arg29 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg19 main_arg20 main_arg21 main_arg22 main_arg23 main_arg24 main_arg25 main_arg26 main_arg27 main_arg28 main_arg29 main_v63 main_v67

def fn_part2 {F : FTy → Type} [FloatOps F] (main_arg11 : FVec F S64x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x64 .f32) (main_arg19 : FVec F S64 .f32) (main_arg20 : FVec F S64x2 .f32) (main_arg21 : FVec F S2 .f32) (main_arg22 : FVec F S128x64 .f32) (main_arg23 : FVec F S64 .f32) (main_arg24 : FVec F S64x2 .f32) (main_arg25 : FVec F S2 .f32) (main_arg26 : FVec F S128x64 .f32) (main_arg27 : FVec F S64 .f32) (main_arg28 : FVec F S64x1 .f32) (main_arg29 : FVec F S1 .f32) (main_v33 : IVec S_ 1) : IVec S_ 1 :=
  let main_v34 : FVec F S64x128 .f32 := Host.absf main_arg11
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_arg21 main_arg22 main_arg23 main_arg24 main_arg25 main_arg26 main_arg27 main_arg28 main_arg29 main_v48 main_v49 main_v50

def fn_part1 {F : FTy → Type} [FloatOps F] (main_arg8 : FVec F S64x128 .f32) (main_arg9 : FVec F S64x128 .f32) (main_arg10 : FVec F S128 .f32) (main_arg11 : FVec F S64x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x64 .f32) (main_arg19 : FVec F S64 .f32) (main_arg20 : FVec F S64x2 .f32) (main_arg21 : FVec F S2 .f32) (main_arg22 : FVec F S128x64 .f32) (main_arg23 : FVec F S64 .f32) (main_arg24 : FVec F S64x2 .f32) (main_arg25 : FVec F S2 .f32) (main_arg26 : FVec F S128x64 .f32) (main_arg27 : FVec F S64 .f32) (main_arg28 : FVec F S64x1 .f32) (main_arg29 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg8
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg9
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S100000x64 .f32) (main_arg1 : FVec F S50000x64 .f32) (main_arg2 : IVec S1000000 32) (main_arg3 : IVec S1000000 32) (main_arg4 : IVec S1000000 32) (main_arg5 : IVec S1000000 32) (main_arg6 : FVec F S64x128 .f32) (main_arg7 : FVec F S128 .f32) (main_arg8 : FVec F S64x128 .f32) (main_arg9 : FVec F S64x128 .f32) (main_arg10 : FVec F S128 .f32) (main_arg11 : FVec F S64x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x64 .f32) (main_arg19 : FVec F S64 .f32) (main_arg20 : FVec F S64x2 .f32) (main_arg21 : FVec F S2 .f32) (main_arg22 : FVec F S128x64 .f32) (main_arg23 : FVec F S64 .f32) (main_arg24 : FVec F S64x2 .f32) (main_arg25 : FVec F S2 .f32) (main_arg26 : FVec F S128x64 .f32) (main_arg27 : FVec F S64 .f32) (main_arg28 : FVec F S64x1 .f32) (main_arg29 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x128 .f32 := Host.absf main_arg6
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S100000x64 : Shape := ⟨2, ![100000, 64]⟩
abbrev S50000x64 : Shape := ⟨2, ![50000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S1x128 : Shape := ⟨2, ![1, 128]⟩
abbrev S50000x128 : Shape := ⟨2, ![50000, 128]⟩
abbrev S2000x64 : Shape := ⟨2, ![2000, 64]⟩
abbrev S2000x128 : Shape := ⟨2, ![2000, 128]⟩
abbrev S100000 : Shape := ⟨1, ![100000]⟩
abbrev S100000x1 : Shape := ⟨2, ![100000, 1]⟩
abbrev S100000x128 : Shape := ⟨2, ![100000, 128]⟩
abbrev S1000000x128 : Shape := ⟨2, ![1000000, 128]⟩
abbrev S1x64 : Shape := ⟨2, ![1, 64]⟩
abbrev S1x2 : Shape := ⟨2, ![1, 2]⟩
abbrev S100000x2 : Shape := ⟨2, ![100000, 2]⟩
abbrev S2000x2 : Shape := ⟨2, ![2000, 2]⟩
abbrev S50000x2 : Shape := ⟨2, ![50000, 2]⟩
abbrev S1x1 : Shape := ⟨2, ![1, 1]⟩
abbrev S2000x1 : Shape := ⟨2, ![2000, 1]⟩

abbrev nBuf : Space → Nat
  | .hbm => 152
  | .vmem => 68
  | .smem => 0
  | _ => 0

abbrev hbmTy0_0 (i : Nat) : BufTy := match i % 128 with
  | 0 => ⟨S100000x64, .f32⟩
  | 1 => ⟨S50000x64, .f32⟩
  | 2 => ⟨S1000000, .i32⟩
  | 3 => ⟨S1000000, .i32⟩
  | 4 => ⟨S1000000, .i32⟩
  | 5 => ⟨S1000000, .i32⟩
  | 6 => ⟨S64x128, .f32⟩
  | 7 => ⟨S128, .f32⟩
  | 8 => ⟨S64x128, .f32⟩
  | 9 => ⟨S64x128, .f32⟩
  | 10 => ⟨S128, .f32⟩
  | 11 => ⟨S64x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x64, .f32⟩
  | 19 => ⟨S64, .f32⟩
  | 20 => ⟨S64x2, .f32⟩
  | 21 => ⟨S2, .f32⟩
  | 22 => ⟨S128x64, .f32⟩
  | 23 => ⟨S64, .f32⟩
  | 24 => ⟨S64x2, .f32⟩
  | 25 => ⟨S2, .f32⟩
  | 26 => ⟨S128x64, .f32⟩
  | 27 => ⟨S64, .f32⟩
  | 28 => ⟨S64x1, .f32⟩
  | 29 => ⟨S1, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S_, .f32⟩
  | 40 => ⟨S50000x64, .f32⟩
  | 41 => ⟨S1000000x1, .i32⟩
  | 42 => ⟨S50000x64, .f32⟩
  | 43 => ⟨S_, .f32⟩
  | 44 => ⟨S1000000, .f32⟩
  | 45 => ⟨S_, .f32⟩
  | 46 => ⟨S50000, .f32⟩
  | 47 => ⟨S1000000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x64, .f32⟩
  | 54 => ⟨S50000x64, .f32⟩
  | 55 => ⟨S1x128, .f32⟩
  | 56 => ⟨S50000x128, .f32⟩
  | 57 => ⟨S_, .i32⟩
  | 58 => ⟨S1000000, .i32⟩
  | 59 => ⟨S1000000, .i1⟩
  | 60 => ⟨S_, .i32⟩
  | 61 => ⟨S1000000, .i32⟩
  | 62 => ⟨S1000000, .i32⟩
  | 63 => ⟨S1000000, .i32⟩
  | 64 => ⟨S1000000x1, .i32⟩
  | 65 => ⟨S1000000x64, .f32⟩
  | 66 => ⟨S_, .f32⟩
  | 67 => ⟨S100000x64, .f32⟩
  | 68 => ⟨S1000000x1, .i32⟩
  | 69 => ⟨S100000x64, .f32⟩
  | 70 => ⟨S_, .f32⟩
  | 71 => ⟨S1000000, .f32⟩
  | 72 => ⟨S_, .f32⟩
  | 73 => ⟨S100000, .f32⟩
  | 74 => ⟨S1000000x1, .i32⟩
  | 75 => ⟨S100000, .f32⟩
  | 76 => ⟨S_, .f32⟩
  | 77 => ⟨S100000, .f32⟩
  | 78 => ⟨S100000, .f32⟩
  | 79 => ⟨S100000x1, .f32⟩
  | 80 => ⟨S100000x64, .f32⟩
  | 81 => ⟨S100000x64, .f32⟩
  | 82 => ⟨S1x128, .f32⟩
  | 83 => ⟨S100000x128, .f32⟩
  | 84 => ⟨S_, .i32⟩
  | 85 => ⟨S1000000, .i32⟩
  | 86 => ⟨S1000000, .i1⟩
  | 87 => ⟨S_, .i32⟩
  | 88 => ⟨S1000000, .i32⟩
  | 89 => ⟨S1000000, .i32⟩
  | 90 => ⟨S1000000, .i32⟩
  | 91 => ⟨S1000000x1, .i32⟩
  | 92 => ⟨S1000000x128, .f32⟩
  | 93 => ⟨S_, .f32⟩
  | 94 => ⟨S50000x128, .f32⟩
  | 95 => ⟨S1000000x1, .i32⟩
  | 96 => ⟨S50000x128, .f32⟩
  | 97 => ⟨S_, .f32⟩
  | 98 => ⟨S1000000, .f32⟩
  | 99 => ⟨S_, .f32⟩
  | 100 => ⟨S50000, .f32⟩
  | 101 => ⟨S1000000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S1x128, .f32⟩
  | 110 => ⟨S50000x128, .f32⟩
  | 111 => ⟨S_, .i32⟩
  | 112 => ⟨S1000000, .i32⟩
  | 113 => ⟨S1000000, .i1⟩
  | 114 => ⟨S_, .i32⟩
  | 115 => ⟨S1000000, .i32⟩
  | 116 => ⟨S1000000, .i32⟩
  | 117 => ⟨S1000000, .i32⟩
  | 118 => ⟨S1000000x1, .i32⟩
  | 119 => ⟨S1000000x128, .f32⟩
  | 120 => ⟨S_, .f32⟩
  | 121 => ⟨S100000x128, .f32⟩
  | 122 => ⟨S1000000x1, .i32⟩
  | 123 => ⟨S100000x128, .f32⟩
  | 124 => ⟨S_, .f32⟩
  | 125 => ⟨S1000000, .f32⟩
  | 126 => ⟨S_, .f32⟩
  | 127 => ⟨S100000, .f32⟩
  | _ => ⟨S100000x64, .f32⟩

abbrev hbmTy0_1 (i : Nat) : BufTy := match i % 128 with
  | 0 => ⟨S1000000x1, .i32⟩
  | 1 => ⟨S100000, .f32⟩
  | 2 => ⟨S_, .f32⟩
  | 3 => ⟨S100000, .f32⟩
  | 4 => ⟨S100000, .f32⟩
  | 5 => ⟨S100000x1, .f32⟩
  | 6 => ⟨S100000x128, .f32⟩
  | 7 => ⟨S100000x128, .f32⟩
  | 8 => ⟨S1x128, .f32⟩
  | 9 => ⟨S100000x128, .f32⟩
  | 10 => ⟨S1x64, .f32⟩
  | 11 => ⟨S1x2, .f32⟩
  | 12 => ⟨S100000x2, .f32⟩
  | 13 => ⟨S1x64, .f32⟩
  | 14 => ⟨S1x2, .f32⟩
  | 15 => ⟨S50000x2, .f32⟩
  | 16 => ⟨S1x64, .f32⟩
  | 17 => ⟨S1x1, .f32⟩
  | 18 => ⟨S100000x1, .f32⟩
  | 19 => ⟨S100000, .f32⟩
  | 20 => ⟨S1x64, .f32⟩
  | 21 => ⟨S1x1, .f32⟩
  | 22 => ⟨S50000x1, .f32⟩
  | 23 => ⟨S50000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S2000x128, .f32⟩
  | .local _ .vmem, ⟨8, _⟩ => ⟨S2000x128, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S64x128, .f32⟩
  | .local _ .vmem, ⟨14, _⟩ => ⟨S1x128, .f32⟩
  | .local _ .vmem, ⟨15, _⟩ => ⟨S64x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S128x64, .f32⟩
  | .local _ .vmem, ⟨39, _⟩ => ⟨S1x64, .f32⟩
  | .local _ .vmem, ⟨40, _⟩ => ⟨S64x2, .f32⟩
  | .local _ .vmem, ⟨41, _⟩ => ⟨S1x2, .f32⟩
  | .local _ .vmem, ⟨42, _⟩ => ⟨S2000x2, .f32⟩
  | .local _ .vmem, ⟨43, _⟩ => ⟨S2000x2, .f32⟩
  | .local _ .vmem, ⟨44, _⟩ => ⟨S2000x128, .f32⟩
  | .local _ .vmem, ⟨45, _⟩ => ⟨S2000x128, .f32⟩
  | .local _ .vmem, ⟨46, _⟩ => ⟨S128x64, .f32⟩
  | .local _ .vmem, ⟨47, _⟩ => ⟨S1x64, .f32⟩
  | .local _ .vmem, ⟨48, _⟩ => ⟨S64x2, .f32⟩
  | .local _ .vmem, ⟨49, _⟩ => ⟨S1x2, .f32⟩
  | .local _ .vmem, ⟨50, _⟩ => ⟨S2000x2, .f32⟩
  | .local _ .vmem, ⟨51, _⟩ => ⟨S2000x2, .f32⟩
  | .local _ .vmem, ⟨52, _⟩ => ⟨S2000x128, .f32⟩
  | .local _ .vmem, ⟨53, _⟩ => ⟨S2000x128, .f32⟩
  | .local _ .vmem, ⟨54, _⟩ => ⟨S128x64, .f32⟩
  | .local _ .vmem, ⟨55, _⟩ => ⟨S1x64, .f32⟩
  | .local _ .vmem, ⟨56, _⟩ => ⟨S64x1, .f32⟩
  | .local _ .vmem, ⟨57, _⟩ => ⟨S1x1, .f32⟩
  | .local _ .vmem, ⟨58, _⟩ => ⟨S2000x1, .f32⟩
  | .local _ .vmem, ⟨59, _⟩ => ⟨S2000x1, .f32⟩
  | .local _ .vmem, ⟨60, _⟩ => ⟨S2000x128, .f32⟩
  | .local _ .vmem, ⟨61, _⟩ => ⟨S2000x128, .f32⟩
  | .local _ .vmem, ⟨62, _⟩ => ⟨S128x64, .f32⟩
  | .local _ .vmem, ⟨63, _⟩ => ⟨S1x64, .f32⟩
  | .local _ .vmem, ⟨64, _⟩ => ⟨S64x1, .f32⟩
  | .local _ .vmem, ⟨65, _⟩ => ⟨S1x1, .f32⟩
  | .local _ .vmem, ⟨66, _⟩ => ⟨S2000x1, .f32⟩
  | .local _ .vmem, ⟨67, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_cst_2 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_v21 : Ref sig .tc := ⟨.hbm, 58, rfl⟩
abbrev main_v22 : Ref sig .tc := ⟨.hbm, 59, rfl⟩
abbrev main_c_5 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_6 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_cst_7 : Ref sig .tc := ⟨.hbm, 70, rfl⟩
abbrev main_v31 : Ref sig .tc := ⟨.hbm, 71, rfl⟩
abbrev main_cst_8 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_9 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_c_10 : Ref sig .tc := ⟨.hbm, 84, rfl⟩
abbrev main_v42 : Ref sig .tc := ⟨.hbm, 85, rfl⟩
abbrev main_v43 : Ref sig .tc := ⟨.hbm, 86, rfl⟩
abbrev main_c_11 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_12 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_cst_13 : Ref sig .tc := ⟨.hbm, 97, rfl⟩
abbrev main_v52 : Ref sig .tc := ⟨.hbm, 98, rfl⟩
abbrev main_cst_14 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_cst_15 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_c_16 : Ref sig .tc := ⟨.hbm, 111, rfl⟩
abbrev main_v63 : Ref sig .tc := ⟨.hbm, 112, rfl⟩
abbrev main_v64 : Ref sig .tc := ⟨.hbm, 113, rfl⟩
abbrev main_c_17 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_18 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_cst_19 : Ref sig .tc := ⟨.hbm, 124, rfl⟩
abbrev main_v73 : Ref sig .tc := ⟨.hbm, 125, rfl⟩
abbrev main_cst_20 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_21 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg4_0 : Ref sig .tc := ⟨.vmem, 57, rfl⟩
abbrev cc6_stg5_0 : Ref sig .tc := ⟨.vmem, 58, rfl⟩
abbrev cc6_stg5_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg4_0 : Ref sig .tc := ⟨.vmem, 65, rfl⟩
abbrev cc7_stg5_0 : Ref sig .tc := ⟨.vmem, 66, rfl⟩
abbrev cc7_stg5_1 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem4_0 : DmaSem sig := 57
abbrev cc6_sem5_0 : DmaSem sig := 58
abbrev cc6_sem5_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem4_0 : DmaSem sig := 65
abbrev cc7_sem5_0 : DmaSem sig := 66
abbrev cc7_sem5_1 : DmaSem sig := 67

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x2 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x2 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x2 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x1 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S2000x1 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S2_S1x2 : S2.ShapeCasts S1x2
  inb_S128x64_S128x64_0_0 : ∀ a, (![0, 0] : Fin 2 → Nat) a + S128x64.size a ≤ S128x64.size a
  h_S128x64 : 0 < S128x64.numel
  inb_S64x2_S64x2_0_0 : ∀ a, (![0, 0] : Fin 2 → Nat) a + S64x2.size a ≤ S64x2.size a
  h_S64x2 : 0 < S64x2.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x64_S2000x64 : S1x64.Broadcasts S2000x64
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S100000x1_S100000 : S100000x1.ShapeCasts S100000
  shapeCasts_S50000x1_S50000 : S50000x1.ShapeCasts S50000
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S2000x64_S64x128_S2000x128_1_0_0_1_n_n_wf : DotDims.WF S2000x64 S64x128 S2000x128 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S2000x128_S128x128_S2000x128_1_0_0_1_n_n_wf : DotDims.WF S2000x128 S128x128 S2000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  dot_S2000x128_S128x64_S2000x64_1_0_0_1_n_n_wf : DotDims.WF S2000x128 S128x64 S2000x64 [1] [0] [0] [1] [] []
  dot_S2000x64_S64x2_S2000x2_1_0_0_1_n_n_wf : DotDims.WF S2000x64 S64x2 S2000x2 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S100000x128.size a
  hwx3_1 : ∀ i : grid3.Coords, EltTy.bits .f32 = 32 ∨ (Rect.block (s := S100000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x2.size a ≤ S64x2.size a
  hwx4_3 : ∀ i : grid4.Coords, EltTy.bits .f32 = 32 ∨ (Rect.block (s := S64x2) S64x2.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x2.size a ≤ S1x2.size a
  hwx4_4 : ∀ i : grid4.Coords, EltTy.bits .f32 = 32 ∨ (Rect.block (s := S1x2) S1x2.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x2.size a ≤ S100000x2.size a
  hwx4_5 : ∀ i : grid4.Coords, EltTy.bits .f32 = 32 ∨ (Rect.block (s := S100000x2) S2000x2.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x2.size a ≤ S64x2.size a
  hwx5_3 : ∀ i : grid5.Coords, EltTy.bits .f32 = 32 ∨ (Rect.block (s := S64x2) S64x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x2.size a ≤ S1x2.size a
  hwx5_4 : ∀ i : grid5.Coords, EltTy.bits .f32 = 32 ∨ (Rect.block (s := S1x2) S1x2.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x2.size a ≤ S50000x2.size a
  hwx5_5 : ∀ i : grid5.Coords, EltTy.bits .f32 = 32 ∨ (Rect.block (s := S50000x2) S2000x2.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x1.size a ≤ S64x1.size a
  hwx6_3 : ∀ i : grid6.Coords, EltTy.bits .f32 = 32 ∨ (Rect.block (s := S64x1) S64x1.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x1.size a ≤ S1x1.size a
  hwx6_4 : ∀ i : grid6.Coords, EltTy.bits .f32 = 32 ∨ (Rect.block (s := S1x1) S1x1.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S100000x1.size a
  hwx6_5 : ∀ i : grid6.Coords, EltTy.bits .f32 = 32 ∨ (Rect.block (s := S100000x1) S2000x1.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x64.size a ≤ S128x64.size a
  hwx7_1 : ∀ i : grid7.Coords, EltTy.bits .f32 = 32 ∨ (Rect.block (s := S128x64) S128x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x1.size a ≤ S64x1.size a
  hwx7_3 : ∀ i : grid7.Coords, EltTy.bits .f32 = 32 ∨ (Rect.block (s := S64x1) S64x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x1.size a ≤ S1x1.size a
  hwx7_4 : ∀ i : grid7.Coords, EltTy.bits .f32 = 32 ∨ (Rect.block (s := S1x1) S1x1.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x1.size a ≤ S50000x1.size a
  hwx7_5 : ∀ i : grid7.Coords, EltTy.bits .f32 = 32 ∨ (Rect.block (s := S50000x1) S2000x1.size (cc7_transform_5 i) (hinb7_5 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v18) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v83) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg18) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v84) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg20) S64x2.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v85) S1x2.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v86) S2000x2.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v62) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg22) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v87) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg24) S64x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S1x2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v89) S2000x2.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg26) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg28) S64x1.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v91) S1x1.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v92) S2000x1.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v62) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg26) S128x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v94) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg28) S64x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v95) S1x1.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v96) S2000x1.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S1000000 : Shape := ⟨1, ![1000000]⟩
abbrev S64x128 : Shape := ⟨2, ![64, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S50000 : Shape := ⟨1, ![50000]⟩
abbrev S50000x1 : Shape := ⟨2, ![50000, 1]⟩
abbrev S50000x128 : Shape := ⟨2, ![50000, 128]⟩
abbrev S1x128 : Shape := ⟨2, ![1, 128]⟩
abbrev S100000 : Shape := ⟨1, ![100000]⟩
abbrev S100000x1 : Shape := ⟨2, ![100000, 1]⟩
abbrev S100000x128 : Shape := ⟨2, ![100000, 128]⟩
abbrev S1000000x128 : Shape := ⟨2, ![1000000, 128]⟩
abbrev S1x64 : Shape := ⟨2, ![1, 64]⟩
abbrev S100000x2 : Shape := ⟨2, ![100000, 2]⟩
abbrev S1x2 : Shape := ⟨2, ![1, 2]⟩
abbrev S50000x2 : Shape := ⟨2, ![50000, 2]⟩
abbrev S1x1 : Shape := ⟨2, ![1, 1]⟩

abbrev nBuf : Space → Nat
  | .hbm => 228
  | .vmem => 0
  | .smem => 0
  | _ => 0

abbrev hbmTy0_0 (i : Nat) : BufTy := match i % 128 with
  | 0 => ⟨S100000x64, .f32⟩
  | 1 => ⟨S50000x64, .f32⟩
  | 2 => ⟨S1000000, .i32⟩
  | 3 => ⟨S1000000, .i32⟩
  | 4 => ⟨S1000000, .i32⟩
  | 5 => ⟨S1000000, .i32⟩
  | 6 => ⟨S64x128, .f32⟩
  | 7 => ⟨S128, .f32⟩
  | 8 => ⟨S64x128, .f32⟩
  | 9 => ⟨S64x128, .f32⟩
  | 10 => ⟨S128, .f32⟩
  | 11 => ⟨S64x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x64, .f32⟩
  | 19 => ⟨S64, .f32⟩
  | 20 => ⟨S64x2, .f32⟩
  | 21 => ⟨S2, .f32⟩
  | 22 => ⟨S128x64, .f32⟩
  | 23 => ⟨S64, .f32⟩
  | 24 => ⟨S64x2, .f32⟩
  | 25 => ⟨S2, .f32⟩
  | 26 => ⟨S128x64, .f32⟩
  | 27 => ⟨S64, .f32⟩
  | 28 => ⟨S64x1, .f32⟩
  | 29 => ⟨S1, .f32⟩
  | 30 => ⟨S_, .i32⟩
  | 31 => ⟨S1000000, .i32⟩
  | 32 => ⟨S1000000, .i1⟩
  | 33 => ⟨S_, .i32⟩
  | 34 => ⟨S1000000, .i32⟩
  | 35 => ⟨S1000000, .i32⟩
  | 36 => ⟨S1000000, .i32⟩
  | 37 => ⟨S1000000x1, .i32⟩
  | 38 => ⟨S1000000x64, .f32⟩
  | 39 => ⟨S_, .f32⟩
  | 40 => ⟨S50000x64, .f32⟩
  | 41 => ⟨S1000000x1, .i32⟩
  | 42 => ⟨S50000x64, .f32⟩
  | 43 => ⟨S_, .f32⟩
  | 44 => ⟨S1000000, .f32⟩
  | 45 => ⟨S_, .f32⟩
  | 46 => ⟨S50000, .f32⟩
  | 47 => ⟨S1000000x1, .i32⟩
  | 48 => ⟨S50000, .f32⟩
  | 49 => ⟨S_, .f32⟩
  | 50 => ⟨S50000, .f32⟩
  | 51 => ⟨S50000, .f32⟩
  | 52 => ⟨S50000x1, .f32⟩
  | 53 => ⟨S50000x64, .f32⟩
  | 54 => ⟨S50000x64, .f32⟩
  | 55 => ⟨S50000x128, .f32⟩
  | 56 => ⟨S1x128, .f32⟩
  | 57 => ⟨S50000x128, .f32⟩
  | 58 => ⟨S50000x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S_, .f32⟩
  | 74 => ⟨S100000x64, .f32⟩
  | 75 => ⟨S1000000x1, .i32⟩
  | 76 => ⟨S100000x64, .f32⟩
  | 77 => ⟨S_, .f32⟩
  | 78 => ⟨S1000000, .f32⟩
  | 79 => ⟨S_, .f32⟩
  | 80 => ⟨S100000, .f32⟩
  | 81 => ⟨S1000000x1, .i32⟩
  | 82 => ⟨S100000, .f32⟩
  | 83 => ⟨S_, .f32⟩
  | 84 => ⟨S100000, .f32⟩
  | 85 => ⟨S100000, .f32⟩
  | 86 => ⟨S100000x1, .f32⟩
  | 87 => ⟨S100000x64, .f32⟩
  | 88 => ⟨S100000x64, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S_, .i32⟩
  | 99 => ⟨S1000000, .i32⟩
  | 100 => ⟨S1000000, .i1⟩
  | 101 => ⟨S_, .i32⟩
  | 102 => ⟨S1000000, .i32⟩
  | 103 => ⟨S1000000, .i32⟩
  | 104 => ⟨S1000000, .i32⟩
  | 105 => ⟨S1000000x1, .i32⟩
  | 106 => ⟨S1000000x128, .f32⟩
  | 107 => ⟨S_, .f32⟩
  | 108 => ⟨S50000x128, .f32⟩
  | 109 => ⟨S1000000x1, .i32⟩
  | 110 => ⟨S50000x128, .f32⟩
  | 111 => ⟨S_, .f32⟩
  | 112 => ⟨S1000000, .f32⟩
  | 113 => ⟨S_, .f32⟩
  | 114 => ⟨S50000, .f32⟩
  | 115 => ⟨S1000000x1, .i32⟩
  | 116 => ⟨S50000, .f32⟩
  | 117 => ⟨S_, .f32⟩
  | 118 => ⟨S50000, .f32⟩
  | 119 => ⟨S50000, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S100000x64, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .i32⟩
  | 5 => ⟨S1000000, .i32⟩
  | 6 => ⟨S1000000, .i1⟩
  | 7 => ⟨S_, .i32⟩
  | 8 => ⟨S1000000, .i32⟩
  | 9 => ⟨S1000000, .i32⟩
  | 10 => ⟨S1000000, .i32⟩
  | 11 => ⟨S1000000x1, .i32⟩
  | 12 => ⟨S1000000x128, .f32⟩
  | 13 => ⟨S_, .f32⟩
  | 14 => ⟨S100000x128, .f32⟩
  | 15 => ⟨S1000000x1, .i32⟩
  | 16 => ⟨S100000x128, .f32⟩
  | 17 => ⟨S_, .f32⟩
  | 18 => ⟨S1000000, .f32⟩
  | 19 => ⟨S_, .f32⟩
  | 20 => ⟨S100000, .f32⟩
  | 21 => ⟨S1000000x1, .i32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S100000x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000x2, .f32⟩
  | 46 => ⟨S1x2, .f32⟩
  | 47 => ⟨S100000x2, .f32⟩
  | 48 => ⟨S100000x2, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S50000x64, .f32⟩
  | 55 => ⟨S50000x64, .f32⟩
  | 56 => ⟨S50000x2, .f32⟩
  | 57 => ⟨S1x2, .f32⟩
  | 58 => ⟨S50000x2, .f32⟩
  | 59 => ⟨S50000x2, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x1, .f32⟩
  | 68 => ⟨S1x1, .f32⟩
  | 69 => ⟨S100000x1, .f32⟩
  | 70 => ⟨S100000x1, .f32⟩
  | 71 => ⟨S100000x1, .f32⟩
  | 72 => ⟨S100000x1, .f32⟩
  | 73 => ⟨S_, .f32⟩
  | 74 => ⟨S100000x1, .f32⟩
  | 75 => ⟨S100000x1, .f32⟩
  | 76 => ⟨S_, .f32⟩
  | 77 => ⟨S100000x1, .f32⟩
  | 78 => ⟨S100000x1, .f32⟩
  | 79 => ⟨S100000, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x1, .f32⟩
  | 88 => ⟨S1x1, .f32⟩
  | 89 => ⟨S50000x1, .f32⟩
  | 90 => ⟨S50000x1, .f32⟩
  | 91 => ⟨S50000x1, .f32⟩
  | 92 => ⟨S50000x1, .f32⟩
  | 93 => ⟨S_, .f32⟩
  | 94 => ⟨S50000x1, .f32⟩
  | 95 => ⟨S50000x1, .f32⟩
  | 96 => ⟨S_, .f32⟩
  | 97 => ⟨S50000x1, .f32⟩
  | 98 => ⟨S50000x1, .f32⟩
  | 99 => ⟨S50000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_cst_2 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_call0_cst : Ref sig .tc := ⟨.hbm, 61, rfl⟩
abbrev main_call0_v0 : Ref sig .tc := ⟨.hbm, 62, rfl⟩
abbrev main_v25 : Ref sig .tc := ⟨.hbm, 63, rfl⟩
abbrev main_c_4 : Ref sig .tc := ⟨.hbm, 64, rfl⟩
abbrev main_v26 : Ref sig .tc := ⟨.hbm, 65, rfl⟩
abbrev main_v27 : Ref sig .tc := ⟨.hbm, 66, rfl⟩
abbrev main_c_5 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_6 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_7 : Ref sig .tc := ⟨.hbm, 77, rfl⟩
abbrev main_v36 : Ref sig .tc := ⟨.hbm, 78, rfl⟩
abbrev main_cst_8 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_9 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call1_cst : Ref sig .tc := ⟨.hbm, 95, rfl⟩
abbrev main_call1_v0 : Ref sig .tc := ⟨.hbm, 96, rfl⟩
abbrev main_v51 : Ref sig .tc := ⟨.hbm, 97, rfl⟩
abbrev main_c_10 : Ref sig .tc := ⟨.hbm, 98, rfl⟩
abbrev main_v52 : Ref sig .tc := ⟨.hbm, 99, rfl⟩
abbrev main_v53 : Ref sig .tc := ⟨.hbm, 100, rfl⟩
abbrev main_c_11 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_cst_12 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_13 : Ref sig .tc := ⟨.hbm, 111, rfl⟩
abbrev main_v62 : Ref sig .tc := ⟨.hbm, 112, rfl⟩
abbrev main_cst_14 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_cst_15 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_call2_cst : Ref sig .tc := ⟨.hbm, 129, rfl⟩
abbrev main_call2_v0 : Ref sig .tc := ⟨.hbm, 130, rfl⟩
abbrev main_v77 : Ref sig .tc := ⟨.hbm, 131, rfl⟩
abbrev main_c_16 : Ref sig .tc := ⟨.hbm, 132, rfl⟩
abbrev main_v78 : Ref sig .tc := ⟨.hbm, 133, rfl⟩
abbrev main_v79 : Ref sig .tc := ⟨.hbm, 134, rfl⟩
abbrev main_c_17 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_18 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_19 : Ref sig .tc := ⟨.hbm, 145, rfl⟩
abbrev main_v88 : Ref sig .tc := ⟨.hbm, 146, rfl⟩
abbrev main_cst_20 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_21 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_call3_cst : Ref sig .tc := ⟨.hbm, 163, rfl⟩
abbrev main_call3_v0 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_call4_cst : Ref sig .tc := ⟨.hbm, 170, rfl⟩
abbrev main_call4_v0 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_call5_cst : Ref sig .tc := ⟨.hbm, 181, rfl⟩
abbrev main_call5_v0 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_call6_cst : Ref sig .tc := ⟨.hbm, 192, rfl⟩
abbrev main_call6_v0 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_cst_22 : Ref sig .tc := ⟨.hbm, 201, rfl⟩
abbrev main_v133 : Ref sig .tc := ⟨.hbm, 202, rfl⟩
abbrev main_v134 : Ref sig .tc := ⟨.hbm, 203, rfl⟩
abbrev main_cst_23 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_v141 : Ref sig .tc := ⟨.hbm, 211, rfl⟩
abbrev main_call7_cst : Ref sig .tc := ⟨.hbm, 212, rfl⟩
abbrev main_call7_v0 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_cst_24 : Ref sig .tc := ⟨.hbm, 221, rfl⟩
abbrev main_v149 : Ref sig .tc := ⟨.hbm, 222, rfl⟩
abbrev main_v150 : Ref sig .tc := ⟨.hbm, 223, rfl⟩
abbrev main_cst_25 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S50000x1_S50000x128_0_1 : S50000x1.BroadcastsInDim S50000x128 (![0, 1] : Fin 2 → Fin S50000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S1x64_S50000x64_0_1 : S1x64.BroadcastsInDim S50000x64 (![0, 1] : Fin 2 → Fin S50000x64.rank)
  bcast_S1x2_S50000x2_0_1 : S1x2.BroadcastsInDim S50000x2 (![0, 1] : Fin 2 → Fin S50000x2.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  gather_S100000x64_S1000000x1_S1000000x64_1_0_n_n_0_1_164_wf : GatherDims.WF S100000x64 S1000000x1 S1000000x64 [1] [0] [] [0] [] 1 ![1, 64]
  scatter_S50000x64_S1000000x1_S1000000x64_1_0_0_1_wf : ScatterDims.WF S50000x64 S1000000x1 S1000000x64 [1] [0] [0] 1
  scatter_S50000_S1000000x1_S1000000_n_0_0_1_wf : ScatterDims.WF S50000 S1000000x1 S1000000 [] [0] [0] 1
  dot_S50000x64_S64x128_S50000x128_1_0_0_1_n_n_wf : DotDims.WF S50000x64 S64x128 S50000x128 [1] [0] [0] [1] [] []
  gather_S50000x64_S1000000x1_S1000000x64_1_0_n_n_0_1_164_wf : GatherDims.WF S50000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x128_S100000x128_1_0_0_1_n_n_wf : DotDims.WF S100000x64 S64x128 S100000x128 [1] [0] [0] [1] [] []
  gather_S100000x128_S1000000x1_S1000000x128_1_0_n_n_0_1_1128_wf : GatherDims.WF S100000x128 S1000000x1 S1000000x128 [1] [0] [] [0] [] 1 ![1, 128]
  scatter_S50000x128_S1000000x1_S1000000x128_1_0_0_1_wf : ScatterDims.WF S50000x128 S1000000x1 S1000000x128 [1] [0] [0] 1
  dot_S50000x128_S128x128_S50000x128_1_0_0_1_n_n_wf : DotDims.WF S50000x128 S128x128 S50000x128 [1] [0] [0] [1] [] []
  gather_S50000x128_S1000000x1_S1000000x128_1_0_n_n_0_1_1128_wf : GatherDims.WF S50000x128 S1000000x1 S1000000x128 [1] [0] [] [0] [] 1 ![1, 128]
  scatter_S100000x128_S1000000x1_S1000000x128_1_0_0_1_wf : ScatterDims.WF S100000x128 S1000000x1 S1000000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []
  dot_S50000x128_S128x64_S50000x64_1_0_0_1_n_n_wf : DotDims.WF S50000x128 S128x64 S50000x64 [1] [0] [0] [1] [] []
  dot_S50000x64_S64x2_S50000x2_1_0_0_1_n_n_wf : DotDims.WF S50000x64 S64x2 S50000x2 [1] [0] [0] [1] [] []
  dot_S100000x64_S64x1_S100000x1_1_0_0_1_n_n_wf : DotDims.WF S100000x64 S64x1 S100000x1 [1] [0] [0] [1] [] []
  dot_S50000x64_S64x1_S50000x1_1_0_0_1_n_n_wf : DotDims.WF S50000x64 S64x1 S50000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S50000x64_S1000000x1_S1000000x64_1_0_0_1 : ScatterDims S50000x64 S1000000x1 S1000000x64 where
  updateWindowDims := [1]
  insertedWindowDims := [0]
  scatterDimsToOperandDims := [0]
  indexVectorDim := 1
  wf := scatter_S50000x64_S1000000x1_S1000000x64_1_0_0_1_wf
def scatter_S50000_S1000000x1_S1000000_n_0_0_1 : ScatterDims S50000 S1000000x1 S1000000 where
  updateWindowDims := []
  insertedWindowDims := [0]
  scatterDimsToOperandDims := [0]
  indexVectorDim := 1
  wf := scatter_S50000_S1000000x1_S1000000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Sage0.lean ====
import proofs.«180647_j29807073034770_1_alg».proof.Proof.Gen.KernelIdeal.Frame
import proofs.«180647_j29807073034770_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Sage0

open Idealize.ShloMosaic Idealize.ShloMosaic.TcCoe Idealize.SL.Sem
open Idealize.ShloMosaic.ValueIdx
open scoped BigOperators

/-- Entry (r, j) of one SAGE layer: max( Σ_k mean(r,k)·Wl(k,j) + b(0,j) + Σ_k x(r,k)·Wr(k,j) , 0 ) on the extended reals. -/
def layerAt (mean x : S50000x64.Idx → EReal) (Wl : S64x128.Idx → EReal) (b : S1x128.Idx → EReal) (Wr : S64x128.Idx → EReal)
    (r : Fin 50000) (j : Fin 128) : EReal :=
  max ((∑ k : Fin 64, mean (ix2 r k) * Wl (ix2 k j)) + b (ix2 (0 : Fin 1) j) + ∑ k : Fin 64, x (ix2 r k) * Wr (ix2 k j)) 0

/-- One SAGE layer read at an index: row i0, column i1 of the result is
    max( Σ_k mean(i0,k)·Wl(k,i1) + b(0,i1) + Σ_k x(i0,k)·Wr(k,i1) , 0 ) on the extended reals. -/
def layer (mean x : S50000x64.Idx → EReal) (Wl : S64x128.Idx → EReal) (b : S1x128.Idx → EReal) (Wr : S64x128.Idx → EReal) :
    S50000x128.Idx → EReal :=
  fun i => layerAt mean x Wl b Wr ⟨(i 0).val, (i 0).isLt⟩ ⟨(i 1).val, (i 1).isLt⟩

/-! ## The reference's spelling of the layer -/

section Host

/-- The dot_general's operand indices at output index i and contraction index q: the left operand's is (i0, q),
    the right operand's is (q, i1). -/
theorem hostDot_lhs0 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x128_S50000x128_1_0_0_1_n_n.lhsBatch by decide), dif_pos (show (0 : Fin Cert.ReferenceIdeal.S50000x64.rank) ∈ Cert.ReferenceIdeal.dot_S50000x64_S64x128_S50000x128_1_0_0_1_n_n.lhsNonContracting by decide)]
  rfl
theorem hostDot_lhs1 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.lhsIdx i q 1).val = (q ⟨0, by decide⟩).val :=
  Cert.ReferenceIdeal.dot_S50000x64_S64x128_S50000x128_1_0_0_1_n_n.lhsIdx_val_of_single rfl i q
theorem hostDot_rhs0 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 0).val = (q ⟨0, by decide⟩).val :=
  Cert.ReferenceIdeal.dot_S50000x64_S64x128_S50000x128_1_0_0_1_n_n.rhsIdx_val_of_single rfl i q
theorem hostDot_rhs1 (i : Cert.ReferenceIdeal.S50000x128.Idx) (q : Cert.ReferenceIdeal.dot_S50000x64_S64x128_S50000x128_1_0_0_1_n_n.contr.Idx) :
    (Cert.ReferenceIdeal.dot_S50000x64_S64x128_S50000x128_1_0_0_1_n_n.rhsIdx i q 1).val = (i 1).val := by
  unfold DotDims.rhsIdx
  rw [dif_neg (show ¬(1 : Fin Cert.ReferenceIdeal.S64x128.rank) ∈ Cert.ReferenceIdeal.dot_S50000x64_S64x128_S50000x128_1_0_0_1_n_n.rhsBatch by decide), dif_pos (show (1 : Fin Cert.ReferenceIdeal.S64x128.rank) ∈ Cert.ReferenceIdeal.dot_S50000x64_S64x128_S50000x128_1_0_0_1_n_n.rhsNonContracting by decide)]
  rfl

/-- The host's dot_general of a [50000,64] array with a [64,128] array, read at an index: row i0 of the left
    operand against column i1 of the right one. -/
theorem hostDot_apply (l : FVec Ideal Cert.ReferenceIdeal.S50000x64 .f32) (r : FVec Ideal Cert.ReferenceIdeal.S64x128 .f32) (i : Cert.ReferenceIdeal.S50000x128.Idx) :
    Host.dotGeneral Cert.ReferenceIdeal.dot_S50000x64_S64x128_S50000x128_1_0_0_1_n_n none l r i
      = ∑ k : Fin 64, l (ix2 (⟨(i 0).val, (i 0).isLt⟩ : Fin 50000) k) * r (ix2 k (⟨(i 1).val, (i 1).isLt⟩ : Fin 128)) := by
  simp only [Host.dotGeneral]
  rw [Ideal.dotGeneral_apply, ← Equiv.sum_comp (ValueIdx.contrEquiv1 Cert.ReferenceIdeal.dot_S50000x64_S64x128_S50000x128_1_0_0_1_n_n 64 rfl rfl).symm]
  refine Finset.sum_congr rfl fun k _ => ?_
  have hk := ValueIdx.contrEquiv1_symm_val Cert.ReferenceIdeal.dot_S50000x64_S64x128_S50000x128_1_0_0_1_n_n 64 rfl rfl k
  have el : Cert.ReferenceIdeal.dot_S50000x64_S64x128_S50000x128_1_0_0_1_n_n.lhsIdx i ((ValueIdx.contrEquiv1 Cert.ReferenceIdeal.dot_S50000x64_S64x128_S50000x128_1_0_0_1_n_n 64 rfl rfl).symm k)
      = ix2 (⟨(i 0).val, (i 0).isLt⟩ : Fin 50000) k := funext fun a => Fin.ext (by
    match a with
    | ⟨0, _⟩ => exact hostDot_lhs0 _ _
    | ⟨1, _⟩ => exact (hostDot_lhs1 _ _).trans hk)
  have er : Cert.ReferenceIdeal.dot_S50000x64_S64x128_S50000x128_1_0_0_1_n_n.rhsIdx i ((ValueIdx.contrEquiv1 Cert.ReferenceIdeal.dot_S50000x64_S64x128_S50000x128_1_0_0_1_n_n 64 rfl rfl).symm k)
      = ix2 k (⟨(i 1).val, (i 1).isLt⟩ : Fin 128) := funext fun a => Fin.ext (by
    match a with
    | ⟨0, _⟩ => exact (hostDot_rhs0 _ _).trans hk
    | ⟨1, _⟩ => exact hostDot_rhs1 _ _)
  rw [el, er]

/-- The bias as the reference broadcasts it, [128] → [1,128] → [50000,128], read at an index: entry i1 of the bias. -/
theorem hostBias_apply (bl : FVec Ideal Cert.ReferenceIdeal.S128 .f32) (i : Cert.ReferenceIdeal.S50000x128.Idx) :
    broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 bl) i
      = bl (ix1 (⟨(i 1).val, (i 1).isLt⟩ : Fin 128)) := by
  generalize hy : broadcastInDim Cert.ReferenceIdeal.S1x128 ![1] Cert.ReferenceIdeal.Facts₀.bcast_S128_S1x128_1 bl = y
  rw [broadcastInDim_apply _ Cert.ReferenceIdeal.Facts₀.bcast_S1x128_S50000x128_0_1 y i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  exact broadcastInDim_apply _ Cert.ReferenceIdeal.Facts₀.bcast_S128_S1x128_1 bl _ (ix1 (⟨(i 1).val, (i 1).isLt⟩ : Fin 128)) (fun a => match a with
    | ⟨0, _⟩ => by show (i 1).val = if (128 : Nat) = 1 then 0 else (i 1).val; rw [if_neg (by decide)])

/-- The reference's zero, the scalar constant broadcast to [50000,128], read at an index. -/
theorem hostZero_apply (i : Cert.ReferenceIdeal.S50000x128.Idx) :
    broadcastInDim Cert.ReferenceIdeal.S50000x128 ![] Cert.ReferenceIdeal.Facts₀.bcast_S_S50000x128 (constant (F := Ideal) Cert.ReferenceIdeal.S_ .f32 0x00000000#32) i = 0 := by
  rw [broadcastInDim_apply _ Cert.ReferenceIdeal.Facts₀.bcast_S_S50000x128 (constant (F := Ideal) Cert.ReferenceIdeal.S_ .f32 0x00000000#32) i ix0 (fun a => a.elim0)]
  exact Ideal.ofBits_zero_f32

/-- The [128] bias reshaped to [1,128], read at (0, j): entry j of the bias. -/
theorem biasCast_apply (bl : FVec Ideal Cert.ReferenceIdeal.S128 .f32) (hb : S128.ShapeCasts S1x128) (j : Fin 128) :
    shapeCast S1x128 bl hb (ix2 (0 : Fin 1) j) = bl (ix1 j) :=
  shapeCast_apply bl hb (ix2 (0 : Fin 1) j) (ix1 j) (by
    rw [Shape.rowMajor_val_one, Shape.rowMajor_val_two]
    show j.val = 0 * 128 + j.val
    omega)

/-- The reference's own spelling of one layer is `layer`. -/
theorem host (mean x : FVec Ideal Cert.ReferenceIdeal.S50000x64 .f32) (Wl Wr : FVec Ideal Cert.ReferenceIdeal.S64x128 .f32)
    (bl : FVec Ideal Cert.ReferenceIdeal.S128 .f32) (hb : S128.ShapeCasts S1x128) :
    maximumf
      (addf
        (addf (Host.dotGeneral Cert.ReferenceIdeal.dot_S50000x64_S64x128_S50000x128_1_0_0_1_n_n none mean Wl)
              (broadcastInDim Cert.ReferenceIdeal.S50000x128 ![0, 1] Cert.ReferenceIdeal.Facts₀.bcast_S1x128_S50000x128_0_1
                (broadcastInDim Cert.ReferenceIdeal.S1x128 ![1] Cert.ReferenceIdeal.Facts₀.bcast_S128_S1x128_1 bl)))
        (Host.dotGeneral Cert.ReferenceIdeal.dot_S50000x64_S64x128_S50000x128_1_0_0_1_n_n none x Wr))
      (broadcastInDim Cert.ReferenceIdeal.S50000x128 ![] Cert.ReferenceIdeal.Facts₀.bcast_S_S50000x128 (constant Cert.ReferenceIdeal.S_ .f32 0x00000000#32))
    = layer mean x Wl (shapeCast S1x128 bl hb) Wr := by
  funext i
  rw [maximumf_apply, addf_apply, addf_apply, hostDot_apply, hostDot_apply, hostBias_apply, hostZero_apply]
  unfold layer layerAt
  rw [biasCast_apply]

end Host

/-! ## The kernel body's stored value at an index of the block -/

/-- The matmul's operand indices at output index i and contraction index q: the left operand's is (i0, q),
    the right operand's is (q, i1). -/
theorem kerDot_lhs0 (i : S2000x128.Idx) (q : Cert.KernelIdeal.dot_S2000x64_S64x128_S2000x128_1_0_0_1_n_n.contr.Idx) :
    (Cert.KernelIdeal.dot_S2000x64_S64x128_S2000x128_1_0_0_1_n_n.lhsIdx i q 0).val = (i 0).val := by
  unfold DotDims.lhsIdx
  rw [dif_neg (show ¬(0 : Fin S2000x64.rank) ∈ Cert.KernelIdeal.dot_S2000x64_S64x128_S2000x128_1_0_0_1_n_n.lhsBatch by decide), dif_pos (show (0 : Fin S2000x64.rank) ∈ Cert.KernelIdeal.dot_S2000x64_S64x128_S2000x128_1_0_0_1_n_n.lhsNonContracting by decide)]
  rfl
theorem kerDot_lhs1 (i : S2000x128.Idx) (q : Cert.KernelIdeal.dot_S2000x64_S64x128_S2000x128_1_0_0_1_n_n.contr.Idx) :
    (Cert.KernelIdeal.dot_S2000x64_S64x128_S2000x128_1_0_0_1_n_n.lhsIdx i q 1).val = (q ⟨0, by decide⟩).val :=
  Cert.KernelIdeal.dot_S2000x64_S64x128_S2000x128_1_0_0_1_n_n.lhsIdx_val_of_single rfl i q
theorem kerDot_rhs0 (i : S2000x128.Idx) (q : Cert.KernelIdeal.dot_S2000x64_S64x128_S2000x128_1_0_0_1_n_n.contr.Idx) :
    (Cert.KernelIdeal.dot_S2000x64_S64x128_S2000x128_1_0_0_1_n_n.rhsIdx i q 0).val = (q ⟨0, by decide⟩).val :=
  Cert.KernelIdeal.dot_S2000x64_S64x128_S2000x128_1_0_0_1_n_n.rhsIdx_val_of_single rfl i q
theorem kerDot_rhs1 (i : S2000x128.Idx) (q : Cert.KernelIdeal.dot_S2000x64_S64x128_S2000x128_1_0_0_1_n_n.contr.Idx) :
    (Cert.KernelIdeal.dot_S2000x64_S64x128_S2000x128_1_0_0_1_n_n.rhsIdx i q 1).val = (i 1).val := by
  unfold DotDims.rhsIdx
  rw [dif_neg (show ¬(1 : Fin S64x128.rank) ∈ Cert.KernelIdeal.dot_S2000x64_S64x128_S2000x128_1_0_0_1_n_n.rhsBatch by decide), dif_pos (show (1 : Fin S64x128.rank) ∈ Cert.KernelIdeal.dot_S2000x64_S64x128_S2000x128_1_0_0_1_n_n.rhsNonContracting by decide)]
  rfl

/-- The body's matmul of a [2000,64] block with a [64,128] block into the zero accumulator, read at (p, j):
    row p of the left block against column j of the right one. -/
theorem kerDot_apply {φ₁ φ₂ : FTy} (l : FVec Ideal S2000x64 φ₁) (r : FVec Ideal S64x128 φ₂) (p : Fin 2000) (j : Fin 128) :
    matmul Cert.KernelIdeal.dot_S2000x64_S64x128_S2000x128_1_0_0_1_n_n none l r (constant S2000x128 .f32 0x00000000#32) (ix2 p j)
      = ∑ k : Fin 64, l (ix2 p k) * r (ix2 k j) := by
  simp only [matmul]
  rw [Ideal.matmul_constant_zero_apply, ← Equiv.sum_comp (ValueIdx.contrEquiv1 Cert.KernelIdeal.dot_S2000x64_S64x128_S2000x128_1_0_0_1_n_n 64 rfl rfl).symm]
  refine Finset.sum_congr rfl fun k _ => ?_
  have hk := ValueIdx.contrEquiv1_symm_val Cert.KernelIdeal.dot_S2000x64_S64x128_S2000x128_1_0_0_1_n_n 64 rfl rfl k
  have el : Cert.KernelIdeal.dot_S2000x64_S64x128_S2000x128_1_0_0_1_n_n.lhsIdx (ix2 p j) ((ValueIdx.contrEquiv1 Cert.KernelIdeal.dot_S2000x64_S64x128_S2000x128_1_0_0_1_n_n 64 rfl rfl).symm k) = ix2 p k := funext fun a => Fin.ext (by
    match a with
    | ⟨0, _⟩ => exact kerDot_lhs0 _ _
    | ⟨1, _⟩ => exact (kerDot_lhs1 _ _).trans hk)
  have er : Cert.KernelIdeal.dot_S2000x64_S64x128_S2000x128_1_0_0_1_n_n.rhsIdx (ix2 p j) ((ValueIdx.contrEquiv1 Cert.KernelIdeal.dot_S2000x64_S64x128_S2000x128_1_0_0_1_n_n 64 rfl rfl).symm k) = ix2 k j := funext fun a => Fin.ext (by
    match a with
    | ⟨0, _⟩ => exact (kerDot_rhs0 _ _).trans hk
    | ⟨1, _⟩ => exact kerDot_rhs1 _ _)
  rw [el, er]

/-- The layer's formula on five blocks, at (p, j) of the [2000,128] block. -/
def blockAt (x0 x1 : Vec Ideal S2000x64 .f32) (x2 x4 : Vec Ideal S64x128 .f32) (x3 : Vec Ideal S1x128 .f32) (p : Fin 2000) (j : Fin 128) : EReal :=
  max ((∑ k : Fin 64, x0 (ix2 p k) * x2 (ix2 k j)) + x3 (ix2 (0 : Fin 1) j) + ∑ k : Fin 64, x1 (ix2 p k) * x4 (ix2 k j)) 0

/-- What the body stores, read at (p, j) of the [2000,128] block, from the five blocks it loads: the layer's
    formula on the blocks (the changes of float format are the identity on the extended reals). -/
theorem pay_apply (x0 x1 : Vec Ideal S2000x64 .f32) (x2 x4 : Vec Ideal S64x128 .f32) (x3 : Vec Ideal S1x128 .f32) (p : Fin 2000) (j : Fin 128) :
    Gen.k0_pay1 (F := Ideal) x0 x1 x2 x4 x3 (ix2 p j) = blockAt x0 x1 x2 x4 x3 p j := by
  unfold Gen.k0_pay1 blockAt
  rw [maximumf_apply, addf_apply, addf_apply, kerDot_apply, kerDot_apply, broadcastTo_1b_ab_apply, shapeCast_self]
  rw [shapeCast_self]
  simp only [truncf_apply, broadcast_apply, Ideal.ofBits_def, Ideal.ofBits_zero_f32]

/-- The same at any index Y of the block whose coordinates are p and j. -/
theorem pay_apply_at (x0 x1 : Vec Ideal S2000x64 .f32) (x2 x4 : Vec Ideal S64x128 .f32) (x3 : Vec Ideal S1x128 .f32) (Y : S2000x128.Idx)
    (p : Fin 2000) (j : Fin 128) (hp : (Y 0).val = p.val) (hj : (Y 1).val = j.val) :
    Gen.k0_pay1 (F := Ideal) x0 x1 x2 x4 x3 Y = blockAt x0 x1 x2 x4 x3 p j := by
  have hY : Y = ix2 p j := funext fun a => Fin.ext (by
    match a with
    | ⟨0, _⟩ => exact hp
    | ⟨1, _⟩ => exact hj)
  rw [hY]
  exact pay_apply x0 x1 x2 x4 x3 p j

/-! ## From the blocks to the array -/

theorem hz : (![0, 0] : Fin 2 → Nat) = fun _ => 0 := funext fun a => by fin_cases a <;> rfl

/-- The printed index maps, decided over the grid's 25 points: at point t the two row-tiled inputs and the output sit at
    block row t, block column 0; the two weight matrices and the bias row are one block each, at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Rows t·2000 … t·2000+1999 of the aggregated-neighbour array are the block window 0 holds at point t. -/
theorem blk0_apply (p : Fin 2000) (k : Fin 64) (q : Fin 50000) (hq : q.val = t.val * 2000 + p.val) :
    Gen.iblk0 V c 0 t (ix2 p k) = V c main_v18 (ix2 q k) := by
  show V c main_v18 (((cfg0.win 0).blk t).view.emb (ix2 p k)) = V c main_v18 (ix2 q k)
  refine congrArg (V c main_v18) (funext fun a => Fin.ext ?_)
  obtain ⟨e00, e01, -⟩ := idx_facts t
  match a with
  | ⟨0, _⟩ => show win0_0.index t (0 : Fin 2) * 2000 + 1 * p.val = q.val; omega
  | ⟨1, _⟩ => show win0_0.index t (1 : Fin 2) * 64 + 1 * k.val = k.val; omega

/-- The same rows of the destination-feature array are the block window 1 holds. -/
theorem blk1_apply (p : Fin 2000) (k : Fin 64) (q : Fin 50000) (hq : q.val = t.val * 2000 + p.val) :
    Gen.iblk0 V c 1 t (ix2 p k) = V c main_arg1 (ix2 q k) := by
  show V c main_arg1 (((cfg0.win 1).blk t).view.emb (ix2 p k)) = V c main_arg1 (ix2 q k)
  refine congrArg (V c main_arg1) (funext fun a => Fin.ext ?_)
  obtain ⟨-, -, e10, e11, -⟩ := idx_facts t
  match a with
  | ⟨0, _⟩ => show win0_1.index t (0 : Fin 2) * 2000 + 1 * p.val = q.val; omega
  | ⟨1, _⟩ => show win0_1.index t (1 : Fin 2) * 64 + 1 * k.val = k.val; omega

/-- Window 2's block is the whole left weight matrix. -/
theorem blk2_apply (k : Fin 64) (j : Fin 128) :
    Gen.iblk0 V c 2 t (ix2 k j) = V c main_arg6 (ix2 k j) := by
  show V c main_arg6 (((cfg0.win 2).blk t).view.emb (ix2 k j)) = V c main_arg6 (ix2 k j)
  refine congrArg (V c main_arg6) (funext fun a => Fin.ext ?_)
  obtain ⟨-, -, -, -, e20, e21, -⟩ := idx_facts t
  match a with
  | ⟨0, _⟩ => show win0_2.index t (0 : Fin 2) * 64 + 1 * k.val = k.val; omega
  | ⟨1, _⟩ => show win0_2.index t (1 : Fin 2) * 128 + 1 * j.val = j.val; omega

/-- Window 3's block is the whole bias row. -/
theorem blk3_apply (z : Fin 1) (j : Fin 128) :
    Gen.iblk0 V c 3 t (ix2 z j) = V c main_v19 (ix2 z j) := by
  show V c main_v19 (((cfg0.win 3).blk t).view.emb (ix2 z j)) = V c main_v19 (ix2 z j)
  refine congrArg (V c main_v19) (funext fun a => Fin.ext ?_)
  obtain ⟨-, -, -, -, -, -, e30, e31, -⟩ := idx_facts t
  match a with
  | ⟨0, _⟩ => show win0_3.index t (0 : Fin 2) * 1 + 1 * z.val = z.val; omega
  | ⟨1, _⟩ => show win0_3.index t (1 : Fin 2) * 128 + 1 * j.val = j.val; omega

/-- Window 4's block is the whole right weight matrix. -/
theorem blk4_apply (k : Fin 64) (j : Fin 128) :
    Gen.iblk0 V c 4 t (ix2 k j) = V c main_arg8 (ix2 k j) := by
  show V c main_arg8 (((cfg0.win 4).blk t).view.emb (ix2 k j)) = V c main_arg8 (ix2 k j)
  refine congrArg (V c main_arg8) (funext fun a => Fin.ext ?_)
  obtain ⟨-, -, -, -, -, -, -, -, e40, e41, -⟩ := idx_facts t
  match a with
  | ⟨0, _⟩ => show win0_4.index t (0 : Fin 2) * 64 + 1 * k.val = k.val; omega
  | ⟨1, _⟩ => show win0_4.index t (1 : Fin 2) * 128 + 1 * j.val = j.val; omega

/-- The layer's formula on the five blocks of point t, at (p, j) of the block, is the layer of the whole arrays at
    row t·2000 + p, column j. -/
theorem point_eq (p : Fin 2000) (j : Fin 128) (q : Fin 50000) (J : Fin 128) (hq : q.val = t.val * 2000 + p.val) (hJ : J.val = j.val) :
    blockAt (Gen.iblk0 V c 0 t) (Gen.iblk0 V c 1 t) (Gen.iblk0 V c 2 t) (Gen.iblk0 V c 4 t) (Gen.iblk0 V c 3 t) p j
      = layerAt (V c main_v18) (V c main_arg1) (V c main_arg6) (V c main_v19) (V c main_arg8) q J := by
  have hJj : J = j := Fin.ext hJ
  subst hJj
  unfold blockAt layerAt
  rw [blk3_apply V c t]
  refine congrArg (fun z => max z 0) (congrArg₂ (· + ·) (congrArg (· + V c main_v19 (ix2 (0 : Fin 1) J)) ?_) ?_)
  · exact Finset.sum_congr rfl fun k _ => by rw [blk0_apply V c t p k q hq, blk2_apply V c t k J]
  · exact Finset.sum_congr rfl fun k _ => by rw [blk1_apply V c t p k q hq, blk4_apply V c t k J]

/-- What point t writes back is block t of the layer of the arrays as the region finds them. -/
theorem flushed_eq :
    (Gen.dat0 (F := Ideal) V c).flushed 5 t
      = ((cfg0.win 5).blk t).view.read (Elt Ideal) (layer (V c main_v18) (V c main_arg1) (V c main_arg6) (V c main_v19) (V c main_arg8)) := by
  show (cfg0.win 5).cut (grid0.coords t) ((Gen.dat0 (F := Ideal) V c).after 5 t) = _
  rw [Gen.after0_5]
  unfold Gen.out0_5
  rw [View.canon_unit_zero hz]
  simp only [View.ld_unit_zero (S := S2000x64) hz, View.ld_unit_zero (S := S64x128) hz, View.ld_unit_zero (S := S1x128) hz]
  funext y
  have hy0 : (y 0).val < 2000 := (y 0).isLt
  have hy1 : (y 1).val < 128 := (y 1).isLt
  obtain ⟨-, -, -, -, -, -, -, -, -, -, e50, e51⟩ := idx_facts t
  have ht : t.val < 25 := t.isLt.trans_eq Gen.N_0
  have hq : ((((cfg0.win 5).blk t).view.emb y) 0).val = t.val * 2000 + (y 0).val := by
    show win0_5.index t (0 : Fin 2) * 2000 + 1 * (y 0).val = _; omega
  have hJ : ((((cfg0.win 5).blk t).view.emb y) 1).val = (y 1).val := by
    show win0_5.index t (1 : Fin 2) * 128 + 1 * (y 1).val = _; omega
  refine (pay_apply_at (Gen.iblk0 V c 0 t) (Gen.iblk0 V c 1 t) (Gen.iblk0 V c 2 t) (Gen.iblk0 V c 4 t) (Gen.iblk0 V c 3 t)
    ((cfg0.win 5).xinj (grid0.coords t) y) ⟨(y 0).val, hy0⟩ ⟨(y 1).val, hy1⟩ rfl rfl).trans ?_
  show _ = layer (V c main_v18) (V c main_arg1) (V c main_arg6) (V c main_v19) (V c main_arg8) (((cfg0.win 5).blk t).view.emb y)
  unfold layer
  exact point_eq V c t ⟨(y 0).val, hy0⟩ ⟨(y 1).val, hy1⟩ _ _ hq hJ

end Blocks

/-- An index of the output array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v20).slice (win0_5.rect t)).set ↔ _
  rw [View.set_slice_whole, Rect.mem_set_unit]
  exact Iff.rfl

/-- Every row r of the output array is in the block of point r / 2000. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := Gen.N_0
  let t : Fin cfg0.N := ⟨(i 0).val / 2000, by rw [hN]; omega⟩
  have htv : t.val = (i 0).val / 2000 := rfl
  obtain ⟨-, -, -, -, -, -, -, -, -, -, e50, e51⟩ := idx_facts t
  refine ⟨t, Gen.flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the region: the layer of the arrays as the region finds them. -/
theorem array (V : (c : Dev nD) → (b : Ref sig .tc) → Buf (Elt Ideal) ((c : Thread nD τ).loc b)) (c : Dev nD) :
    (Gen.dat0 (F := Ideal) V c).arrAt 5 cfg0.N
      = layer (V c main_v18) (V c main_arg1) (V c main_arg6) (V c main_v19) (V c main_arg8) :=
  (Gen.dat0 (F := Ideal) V c).arrAt_eq_of_cover 5 _ (fun t _ => flushed_eq V c t) cover

end Cert.KernelIdeal.Sage0

end
-- ==== Proof.Sage1.lean ====
import proofs.«180647_j29807073034770_1_alg».proof.Proof.Gen.KernelIdeal.Frame
import proofs.«180647_j29807073034770_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Sage1

open Idealize.ShloMosaic Idealize.ShloMosaic.TcCoe Idealize.SL.Sem
open Idealize.ShloMosaic.ValueIdx
open scoped BigOperators

/-- Entry (r, j) of one SAGE layer: max( Σ_k mean(r,k)·Wl(k,j) + b(0,j) + Σ_k x(r,k)·Wr(k,j) , 0 ) on the extended reals. -/
def layerAt (mean x : S100000x64.Idx → EReal) (Wl : S64x128.Idx → EReal) (b : S1x128.Idx → EReal) (Wr : S64x128.Idx → EReal)
    (r : Fin 100000) (j : Fin 128) : EReal :=
  max ((∑ k : Fin 64, mean (ix2 r k) * Wl (ix2 k j)) + b (ix2 (0 : Fin 1) j) + ∑ k : Fin 64, x (ix2 r k) * Wr (ix2 k j)) 0

/-- One SAGE layer read at an index: row i0, column i1 of the result is
    max( Σ_k mean(i0,k)·Wl(k,i1) + b(0,i1) + Σ_k x(i0,k)·Wr(k,i1) , 0 ) on the extended reals. -/
def layer (mean x : S100000x64.Idx → EReal) (Wl : S64x128.Idx → EReal) (b : S1x128.Idx → EReal) (Wr : S64x128.Idx → EReal) :
    S100000x128.Idx → EReal :=
  fun i => layerAt mean x Wl b Wr ⟨(i 0).val, (i 0).isLt⟩ ⟨(i 1).val, (i 1).isLt⟩

/-! ## The reference's spelling of the layer -/

section Host

/-- The dot_general's operand indices at output index i and contraction index q: the left operand's is (i0, q),
    the right operand's is (q, i1). -/
theorem hostDot_lhs0 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x128_S100000x128_1_0_0_1_n_n.lhsBatch by decide), dif_pos (show (0 : Fin Cert.ReferenceIdeal.S100000x64.rank) ∈ Cert.ReferenceIdeal.dot_S100000x64_S64x128_S100000x128_1_0_0_1_n_n.lhsNonContracting by decide)]
  rfl
theorem hostDot_lhs1 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.lhsIdx i q 1).val = (q ⟨0, by decide⟩).val :=
  Cert.ReferenceIdeal.dot_S100000x64_S64x128_S100000x128_1_0_0_1_n_n.lhsIdx_val_of_single rfl i q
theorem hostDot_rhs0 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 0).val = (q ⟨0, by decide⟩).val :=
  Cert.ReferenceIdeal.dot_S100000x64_S64x128_S100000x128_1_0_0_1_n_n.rhsIdx_val_of_single rfl i q
theorem hostDot_rhs1 (i : Cert.ReferenceIdeal.S100000x128.Idx) (q : Cert.ReferenceIdeal.dot_S100000x64_S64x128_S100000x128_1_0_0_1_n_n.contr.Idx) :
    (Cert.ReferenceIdeal.dot_S100000x64_S64x128_S100000x128_1_0_0_1_n_n.rhsIdx i q 1).val = (i 1).val := by
  unfold DotDims.rhsIdx
  rw [dif_neg (show ¬(1 : Fin Cert.ReferenceIdeal.S64x128.rank) ∈ Cert.ReferenceIdeal.dot_S100000x64_S64x128_S100000x128_1_0_0_1_n_n.rhsBatch by decide), dif_pos (show (1 : Fin Cert.ReferenceIdeal.S64x128.rank) ∈ Cert.ReferenceIdeal.dot_S100000x64_S64x128_S100000x128_1_0_0_1_n_n.rhsNonContracting by decide)]
  rfl

/-- The host's dot_general of a [100000,64] array with a [64,128] array, read at an index: row i0 of the left
    operand against column i1 of the right one. -/
theorem hostDot_apply (l : FVec Ideal Cert.ReferenceIdeal.S100000x64 .f32) (r : FVec Ideal Cert.ReferenceIdeal.S64x128 .f32) (i : Cert.ReferenceIdeal.S100000x128.Idx) :
    Host.dotGeneral Cert.ReferenceIdeal.dot_S100000x64_S64x128_S100000x128_1_0_0_1_n_n none l r i
      = ∑ k : Fin 64, l (ix2 (⟨(i 0).val, (i 0).isLt⟩ : Fin 100000) k) * r (ix2 k (⟨(i 1).val, (i 1).isLt⟩ : Fin 128)) := by
  simp only [Host.dotGeneral]
  rw [Ideal.dotGeneral_apply, ← Equiv.sum_comp (ValueIdx.contrEquiv1 Cert.ReferenceIdeal.dot_S100000x64_S64x128_S100000x128_1_0_0_1_n_n 64 rfl rfl).symm]
  refine Finset.sum_congr rfl fun k _ => ?_
  have hk := ValueIdx.contrEquiv1_symm_val Cert.ReferenceIdeal.dot_S100000x64_S64x128_S100000x128_1_0_0_1_n_n 64 rfl rfl k
  have el : Cert.ReferenceIdeal.dot_S100000x64_S64x128_S100000x128_1_0_0_1_n_n.lhsIdx i ((ValueIdx.contrEquiv1 Cert.ReferenceIdeal.dot_S100000x64_S64x128_S100000x128_1_0_0_1_n_n 64 rfl rfl).symm k)
      = ix2 (⟨(i 0).val, (i 0).isLt⟩ : Fin 100000) k := funext fun a => Fin.ext (by
    match a with
    | ⟨0, _⟩ => exact hostDot_lhs0 _ _
    | ⟨1, _⟩ => exact (hostDot_lhs1 _ _).trans hk)
  have er : Cert.ReferenceIdeal.dot_S100000x64_S64x128_S100000x128_1_0_0_1_n_n.rhsIdx i ((ValueIdx.contrEquiv1 Cert.ReferenceIdeal.dot_S100000x64_S64x128_S100000x128_1_0_0_1_n_n 64 rfl rfl).symm k)
      = ix2 k (⟨(i 1).val, (i 1).isLt⟩ : Fin 128) := funext fun a => Fin.ext (by
    match a with
    | ⟨0, _⟩ => exact (hostDot_rhs0 _ _).trans hk
    | ⟨1, _⟩ => exact hostDot_rhs1 _ _)
  rw [el, er]

/-- The bias as the reference broadcasts it, [128] → [1,128] → [100000,128], read at an index: entry i1 of the bias. -/
theorem hostBias_apply (bl : FVec Ideal Cert.ReferenceIdeal.S128 .f32) (i : Cert.ReferenceIdeal.S100000x128.Idx) :
    broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 bl) i
      = bl (ix1 (⟨(i 1).val, (i 1).isLt⟩ : Fin 128)) := by
  generalize hy : broadcastInDim Cert.ReferenceIdeal.S1x128 ![1] Cert.ReferenceIdeal.Facts₀.bcast_S128_S1x128_1 bl = y
  rw [broadcastInDim_apply _ Cert.ReferenceIdeal.Facts₀.bcast_S1x128_S100000x128_0_1 y i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  exact broadcastInDim_apply _ Cert.ReferenceIdeal.Facts₀.bcast_S128_S1x128_1 bl _ (ix1 (⟨(i 1).val, (i 1).isLt⟩ : Fin 128)) (fun a => match a with
    | ⟨0, _⟩ => by show (i 1).val = if (128 : Nat) = 1 then 0 else (i 1).val; rw [if_neg (by decide)])

/-- The reference's zero, the scalar constant broadcast to [100000,128], read at an index. -/
theorem hostZero_apply (i : Cert.ReferenceIdeal.S100000x128.Idx) :
    broadcastInDim Cert.ReferenceIdeal.S100000x128 ![] Cert.ReferenceIdeal.Facts₀.bcast_S_S100000x128 (constant (F := Ideal) Cert.ReferenceIdeal.S_ .f32 0x00000000#32) i = 0 := by
  rw [broadcastInDim_apply _ Cert.ReferenceIdeal.Facts₀.bcast_S_S100000x128 (constant (F := Ideal) Cert.ReferenceIdeal.S_ .f32 0x00000000#32) i ix0 (fun a => a.elim0)]
  exact Ideal.ofBits_zero_f32

/-- The [128] bias reshaped to [1,128], read at (0, j): entry j of the bias. -/
theorem biasCast_apply (bl : FVec Ideal Cert.ReferenceIdeal.S128 .f32) (hb : S128.ShapeCasts S1x128) (j : Fin 128) :
    shapeCast S1x128 bl hb (ix2 (0 : Fin 1) j) = bl (ix1 j) :=
  shapeCast_apply bl hb (ix2 (0 : Fin 1) j) (ix1 j) (by
    rw [Shape.rowMajor_val_one, Shape.rowMajor_val_two]
    show j.val = 0 * 128 + j.val
    omega)

/-- The reference's own spelling of one layer is `layer`. -/
theorem host (mean x : FVec Ideal Cert.ReferenceIdeal.S100000x64 .f32) (Wl Wr : FVec Ideal Cert.ReferenceIdeal.S64x128 .f32)
    (bl : FVec Ideal Cert.ReferenceIdeal.S128 .f32) (hb : S128.ShapeCasts S1x128) :
    maximumf
      (addf
        (addf (Host.dotGeneral Cert.ReferenceIdeal.dot_S100000x64_S64x128_S100000x128_1_0_0_1_n_n none mean Wl)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 bl)))
        (Host.dotGeneral Cert.ReferenceIdeal.dot_S100000x64_S64x128_S100000x128_1_0_0_1_n_n none x Wr))
      (broadcastInDim Cert.ReferenceIdeal.S100000x128 ![] Cert.ReferenceIdeal.Facts₀.bcast_S_S100000x128 (constant Cert.ReferenceIdeal.S_ .f32 0x00000000#32))
    = layer mean x Wl (shapeCast S1x128 bl hb) Wr := by
  funext i
  rw [maximumf_apply, addf_apply, addf_apply, hostDot_apply, hostDot_apply, hostBias_apply, hostZero_apply]
  unfold layer layerAt
  rw [biasCast_apply]

end Host

/-! ## The kernel body's stored value at an index of the block -/

/-- The matmul's operand indices at output index i and contraction index q: the left operand's is (i0, q),
    the right operand's is (q, i1). -/
theorem kerDot_lhs0 (i : S2000x128.Idx) (q : Cert.KernelIdeal.dot_S2000x64_S64x128_S2000x128_1_0_0_1_n_n.contr.Idx) :
    (Cert.KernelIdeal.dot_S2000x64_S64x128_S2000x128_1_0_0_1_n_n.lhsIdx i q 0).val = (i 0).val := by
  unfold DotDims.lhsIdx
  rw [dif_neg (show ¬(0 : Fin S2000x64.rank) ∈ Cert.KernelIdeal.dot_S2000x64_S64x128_S2000x128_1_0_0_1_n_n.lhsBatch by decide), dif_pos (show (0 : Fin S2000x64.rank) ∈ Cert.KernelIdeal.dot_S2000x64_S64x128_S2000x128_1_0_0_1_n_n.lhsNonContracting by decide)]
  rfl
theorem kerDot_lhs1 (i : S2000x128.Idx) (q : Cert.KernelIdeal.dot_S2000x64_S64x128_S2000x128_1_0_0_1_n_n.contr.Idx) :
    (Cert.KernelIdeal.dot_S2000x64_S64x128_S2000x128_1_0_0_1_n_n.lhsIdx i q 1).val = (q ⟨0, by decide⟩).val :=
  Cert.KernelIdeal.dot_S2000x64_S64x128_S2000x128_1_0_0_1_n_n.lhsIdx_val_of_single rfl i q
theorem kerDot_rhs0 (i : S2000x128.Idx) (q : Cert.KernelIdeal.dot_S2000x64_S64x128_S2000x128_1_0_0_1_n_n.contr.Idx) :
    (Cert.KernelIdeal.dot_S2000x64_S64x128_S2000x128_1_0_0_1_n_n.rhsIdx i q 0).val = (q ⟨0, by decide⟩).val :=
  Cert.KernelIdeal.dot_S2000x64_S64x128_S2000x128_1_0_0_1_n_n.rhsIdx_val_of_single rfl i q
theorem kerDot_rhs1 (i : S2000x128.Idx) (q : Cert.KernelIdeal.dot_S2000x64_S64x128_S2000x128_1_0_0_1_n_n.contr.Idx) :
    (Cert.KernelIdeal.dot_S2000x64_S64x128_S2000x128_1_0_0_1_n_n.rhsIdx i q 1).val = (i 1).val := by
  unfold DotDims.rhsIdx
  rw [dif_neg (show ¬(1 : Fin S64x128.rank) ∈ Cert.KernelIdeal.dot_S2000x64_S64x128_S2000x128_1_0_0_1_n_n.rhsBatch by decide), dif_pos (show (1 : Fin S64x128.rank) ∈ Cert.KernelIdeal.dot_S2000x64_S64x128_S2000x128_1_0_0_1_n_n.rhsNonContracting by decide)]
  rfl

/-- The body's matmul of a [2000,64] block with a [64,128] block into the zero accumulator, read at (p, j):
    row p of the left block against column j of the right one. -/
theorem kerDot_apply {φ₁ φ₂ : FTy} (l : FVec Ideal S2000x64 φ₁) (r : FVec Ideal S64x128 φ₂) (p : Fin 2000) (j : Fin 128) :
    matmul Cert.KernelIdeal.dot_S2000x64_S64x128_S2000x128_1_0_0_1_n_n none l r (constant S2000x128 .f32 0x00000000#32) (ix2 p j)
      = ∑ k : Fin 64, l (ix2 p k) * r (ix2 k j) := by
  simp only [matmul]
  rw [Ideal.matmul_constant_zero_apply, ← Equiv.sum_comp (ValueIdx.contrEquiv1 Cert.KernelIdeal.dot_S2000x64_S64x128_S2000x128_1_0_0_1_n_n 64 rfl rfl).symm]
  refine Finset.sum_congr rfl fun k _ => ?_
  have hk := ValueIdx.contrEquiv1_symm_val Cert.KernelIdeal.dot_S2000x64_S64x128_S2000x128_1_0_0_1_n_n 64 rfl rfl k
  have el : Cert.KernelIdeal.dot_S2000x64_S64x128_S2000x128_1_0_0_1_n_n.lhsIdx (ix2 p j) ((ValueIdx.contrEquiv1 Cert.KernelIdeal.dot_S2000x64_S64x128_S2000x128_1_0_0_1_n_n 64 rfl rfl).symm k) = ix2 p k := funext fun a => Fin.ext (by
    match a with
    | ⟨0, _⟩ => exact kerDot_lhs0 _ _
    | ⟨1, _⟩ => exact (kerDot_lhs1 _ _).trans hk)
  have er : Cert.KernelIdeal.dot_S2000x64_S64x128_S2000x128_1_0_0_1_n_n.rhsIdx (ix2 p j) ((ValueIdx.contrEquiv1 Cert.KernelIdeal.dot_S2000x64_S64x128_S2000x128_1_0_0_1_n_n 64 rfl rfl).symm k) = ix2 k j := funext fun a => Fin.ext (by
    match a with
    | ⟨0, _⟩ => exact (kerDot_rhs0 _ _).trans hk
    | ⟨1, _⟩ => exact kerDot_rhs1 _ _)
  rw [el, er]

/-- The layer's formula on five blocks, at (p, j) of the [2000,128] block. -/
def blockAt (x0 x1 : Vec Ideal S2000x64 .f32) (x2 x4 : Vec Ideal S64x128 .f32) (x3 : Vec Ideal S1x128 .f32) (p : Fin 2000) (j : Fin 128) : EReal :=
  max ((∑ k : Fin 64, x0 (ix2 p k) * x2 (ix2 k j)) + x3 (ix2 (0 : Fin 1) j) + ∑ k : Fin 64, x1 (ix2 p k) * x4 (ix2 k j)) 0

/-- What the body stores, read at (p, j) of the [2000,128] block, from the five blocks it loads: the layer's
    formula on the blocks (the changes of float format are the identity on the extended reals). -/
theorem pay_apply (x0 x1 : Vec Ideal S2000x64 .f32) (x2 x4 : Vec Ideal S64x128 .f32) (x3 : Vec Ideal S1x128 .f32) (p : Fin 2000) (j : Fin 128) :
    Gen.k1_pay1 (F := Ideal) x0 x1 x2 x4 x3 (ix2 p j) = blockAt x0 x1 x2 x4 x3 p j := by
  unfold Gen.k1_pay1 blockAt
  rw [maximumf_apply, addf_apply, addf_apply, kerDot_apply, kerDot_apply, broadcastTo_1b_ab_apply, shapeCast_self]
  rw [shapeCast_self]
  simp only [truncf_apply, broadcast_apply, Ideal.ofBits_def, Ideal.ofBits_zero_f32]

/-- The same at any index Y of the block whose coordinates are p and j. -/
theorem pay_apply_at (x0 x1 : Vec Ideal S2000x64 .f32) (x2 x4 : Vec Ideal S64x128 .f32) (x3 : Vec Ideal S1x128 .f32) (Y : S2000x128.Idx)
    (p : Fin 2000) (j : Fin 128) (hp : (Y 0).val = p.val) (hj : (Y 1).val = j.val) :
    Gen.k1_pay1 (F := Ideal) x0 x1 x2 x4 x3 Y = blockAt x0 x1 x2 x4 x3 p j := by
  have hY : Y = ix2 p j := funext fun a => Fin.ext (by
    match a with
    | ⟨0, _⟩ => exact hp
    | ⟨1, _⟩ => exact hj)
  rw [hY]
  exact pay_apply x0 x1 x2 x4 x3 p j

/-! ## From the blocks to the array -/

theorem hz : (![0, 0] : Fin 2 → Nat) = fun _ => 0 := funext fun a => by fin_cases a <;> rfl

/-- The printed index maps, decided over the grid's 50 points: at point t the two row-tiled inputs and the output sit at
    block row t, block column 0; the two weight matrices and the bias row are one block each, at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- Rows t·2000 … t·2000+1999 of the aggregated-neighbour array are the block window 0 holds at point t. -/
theorem blk0_apply (p : Fin 2000) (k : Fin 64) (q : Fin 100000) (hq : q.val = t.val * 2000 + p.val) :
    Gen.iblk1 V c 0 t (ix2 p k) = V c main_v39 (ix2 q k) := by
  show V c main_v39 (((cfg1.win 0).blk t).view.emb (ix2 p k)) = V c main_v39 (ix2 q k)
  refine congrArg (V c main_v39) (funext fun a => Fin.ext ?_)
  obtain ⟨e00, e01, -⟩ := idx_facts t
  match a with
  | ⟨0, _⟩ => show win1_0.index t (0 : Fin 2) * 2000 + 1 * p.val = q.val; omega
  | ⟨1, _⟩ => show win1_0.index t (1 : Fin 2) * 64 + 1 * k.val = k.val; omega

/-- The same rows of the destination-feature array are the block window 1 holds. -/
theorem blk1_apply (p : Fin 2000) (k : Fin 64) (q : Fin 100000) (hq : q.val = t.val * 2000 + p.val) :
    Gen.iblk1 V c 1 t (ix2 p k) = V c main_arg0 (ix2 q k) := by
  show V c main_arg0 (((cfg1.win 1).blk t).view.emb (ix2 p k)) = V c main_arg0 (ix2 q k)
  refine congrArg (V c main_arg0) (funext fun a => Fin.ext ?_)
  obtain ⟨-, -, e10, e11, -⟩ := idx_facts t
  match a with
  | ⟨0, _⟩ => show win1_1.index t (0 : Fin 2) * 2000 + 1 * p.val = q.val; omega
  | ⟨1, _⟩ => show win1_1.index t (1 : Fin 2) * 64 + 1 * k.val = k.val; omega

/-- Window 2's block is the whole left weight matrix. -/
theorem blk2_apply (k : Fin 64) (j : Fin 128) :
    Gen.iblk1 V c 2 t (ix2 k j) = V c main_arg9 (ix2 k j) := by
  show V c main_arg9 (((cfg1.win 2).blk t).view.emb (ix2 k j)) = V c main_arg9 (ix2 k j)
  refine congrArg (V c main_arg9) (funext fun a => Fin.ext ?_)
  obtain ⟨-, -, -, -, e20, e21, -⟩ := idx_facts t
  match a with
  | ⟨0, _⟩ => show win1_2.index t (0 : Fin 2) * 64 + 1 * k.val = k.val; omega
  | ⟨1, _⟩ => show win1_2.index t (1 : Fin 2) * 128 + 1 * j.val = j.val; omega

/-- Window 3's block is the whole bias row. -/
theorem blk3_apply (z : Fin 1) (j : Fin 128) :
    Gen.iblk1 V c 3 t (ix2 z j) = V c main_v40 (ix2 z j) := by
  show V c main_v40 (((cfg1.win 3).blk t).view.emb (ix2 z j)) = V c main_v40 (ix2 z j)
  refine congrArg (V c main_v40) (funext fun a => Fin.ext ?_)
  obtain ⟨-, -, -, -, -, -, e30, e31, -⟩ := idx_facts t
  match a with
  | ⟨0, _⟩ => show win1_3.index t (0 : Fin 2) * 1 + 1 * z.val = z.val; omega
  | ⟨1, _⟩ => show win1_3.index t (1 : Fin 2) * 128 + 1 * j.val = j.val; omega

/-- Window 4's block is the whole right weight matrix. -/
theorem blk4_apply (k : Fin 64) (j : Fin 128) :
    Gen.iblk1 V c 4 t (ix2 k j) = V c main_arg11 (ix2 k j) := by
  show V c main_arg11 (((cfg1.win 4).blk t).view.emb (ix2 k j)) = V c main_arg11 (ix2 k j)
  refine congrArg (V c main_arg11) (funext fun a => Fin.ext ?_)
  obtain ⟨-, -, -, -, -, -, -, -, e40, e41, -⟩ := idx_facts t
  match a with
  | ⟨0, _⟩ => show win1_4.index t (0 : Fin 2) * 64 + 1 * k.val = k.val; omega
  | ⟨1, _⟩ => show win1_4.index t (1 : Fin 2) * 128 + 1 * j.val = j.val; omega

/-- The layer's formula on the five blocks of point t, at (p, j) of the block, is the layer of the whole arrays at
    row t·2000 + p, column j. -/
theorem point_eq (p : Fin 2000) (j : Fin 128) (q : Fin 100000) (J : Fin 128) (hq : q.val = t.val * 2000 + p.val) (hJ : J.val = j.val) :
    blockAt (Gen.iblk1 V c 0 t) (Gen.iblk1 V c 1 t) (Gen.iblk1 V c 2 t) (Gen.iblk1 V c 4 t) (Gen.iblk1 V c 3 t) p j
      = layerAt (V c main_v39) (V c main_arg0) (V c main_arg9) (V c main_v40) (V c main_arg11) q J := by
  have hJj : J = j := Fin.ext hJ
  subst hJj
  unfold blockAt layerAt
  rw [blk3_apply V c t]
  refine congrArg (fun z => max z 0) (congrArg₂ (· + ·) (congrArg (· + V c main_v40 (ix2 (0 : Fin 1) J)) ?_) ?_)
  · exact Finset.sum_congr rfl fun k _ => by rw [blk0_apply V c t p k q hq, blk2_apply V c t k J]
  · exact Finset.sum_congr rfl fun k _ => by rw [blk1_apply V c t p k q hq, blk4_apply V c t k J]

/-- What point t writes back is block t of the layer of the arrays as the region finds them. -/
theorem flushed_eq :
    (Gen.dat1 (F := Ideal) V c).flushed 5 t
      = ((cfg1.win 5).blk t).view.read (Elt Ideal) (layer (V c main_v39) (V c main_arg0) (V c main_arg9) (V c main_v40) (V c main_arg11)) := by
  show (cfg1.win 5).cut (grid1.coords t) ((Gen.dat1 (F := Ideal) V c).after 5 t) = _
  rw [Gen.after1_5]
  unfold Gen.out1_5
  rw [View.canon_unit_zero hz]
  simp only [View.ld_unit_zero (S := S2000x64) hz, View.ld_unit_zero (S := S64x128) hz, View.ld_unit_zero (S := S1x128) hz]
  funext y
  have hy0 : (y 0).val < 2000 := (y 0).isLt
  have hy1 : (y 1).val < 128 := (y 1).isLt
  obtain ⟨-, -, -, -, -, -, -, -, -, -, e50, e51⟩ := idx_facts t
  have ht : t.val < 50 := t.isLt.trans_eq Gen.N_1
  have hq : ((((cfg1.win 5).blk t).view.emb y) 0).val = t.val * 2000 + (y 0).val := by
    show win1_5.index t (0 : Fin 2) * 2000 + 1 * (y 0).val = _; omega
  have hJ : ((((cfg1.win 5).blk t).view.emb y) 1).val = (y 1).val := by
    show win1_5.index t (1 : Fin 2) * 128 + 1 * (y 1).val = _; omega
  refine (pay_apply_at (Gen.iblk1 V c 0 t) (Gen.iblk1 V c 1 t) (Gen.iblk1 V c 2 t) (Gen.iblk1 V c 4 t) (Gen.iblk1 V c 3 t)
    ((cfg1.win 5).xinj (grid1.coords t) y) ⟨(y 0).val, hy0⟩ ⟨(y 1).val, hy1⟩ rfl rfl).trans ?_
  show _ = layer (V c main_v39) (V c main_arg0) (V c main_arg9) (V c main_v40) (V c main_arg11) (((cfg1.win 5).blk t).view.emb y)
  unfold layer
  exact point_eq V c t ⟨(y 0).val, hy0⟩ ⟨(y 1).val, hy1⟩ _ _ hq hJ

end Blocks

/-- An index of the output array is in point t's block iff each coordinate is in the block's range on its axis. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v41).slice (win1_5.rect t)).set ↔ _
  rw [View.set_slice_whole, Rect.mem_set_unit]
  exact Iff.rfl

/-- Every row r of the output array is in the block of point r / 2000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 50 := Gen.N_1
  let t : Fin cfg1.N := ⟨(i 0).val / 2000, by rw [hN]; omega⟩
  have htv : t.val = (i 0).val / 2000 := rfl
  obtain ⟨-, -, -, -, -, -, -, -, -, -, e50, e51⟩ := idx_facts t
  refine ⟨t, Gen.flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the region: the layer of the arrays as the region finds them. -/
theorem array (V : (c : Dev nD) → (b : Ref sig .tc) → Buf (Elt Ideal) ((c : Thread nD τ).loc b)) (c : Dev nD) :
    (Gen.dat1 (F := Ideal) V c).arrAt 5 cfg1.N
      = layer (V c main_v39) (V c main_arg0) (V c main_arg9) (V c main_v40) (V c main_arg11) :=
  (Gen.dat1 (F := Ideal) V c).arrAt_eq_of_cover 5 _ (fun t _ => flushed_eq V c t) cover

end Cert.KernelIdeal.Sage1

end
-- ==== Proof.Sage2.lean ====
import proofs.«180647_j29807073034770_1_alg».proof.Proof.Gen.KernelIdeal.Frame
import proofs.«180647_j29807073034770_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Sage2

open Idealize.ShloMosaic Idealize.ShloMosaic.TcCoe Idealize.SL.Sem
open Idealize.ShloMosaic.ValueIdx
open scoped BigOperators

/-- Entry (r, j) of one SAGE layer: max( Σ_k mean(r,k)·Wl(k,j) + b(0,j) + Σ_k x(r,k)·Wr(k,j) , 0 ) on the extended reals. -/
def layerAt (mean x : S50000x128.Idx → EReal) (Wl : S128x128.Idx → EReal) (b : S1x128.Idx → EReal) (Wr : S128x128.Idx → EReal)
    (r : Fin 50000) (j : Fin 128) : EReal :=
  max ((∑ k : Fin 128, mean (ix2 r k) * Wl (ix2 k j)) + b (ix2 (0 : Fin 1) j) + ∑ k : Fin 128, x (ix2 r k) * Wr (ix2 k j)) 0

/-- One SAGE layer read at an index: row i0, column i1 of the result is
    max( Σ_k mean(i0,k)·Wl(k,i1) + b(0,i1) + Σ_k x(i0,k)·Wr(k,i1) , 0 ) on the extended reals. -/
def layer (mean x : S50000x128.Idx → EReal) (Wl : S128x128.Idx → EReal) (b : S1x128.Idx → EReal) (Wr : S128x128.Idx → EReal) :
    S50000x128.Idx → EReal :=
  fun i => layerAt mean x Wl b Wr ⟨(i 0).val, (i 0).isLt⟩ ⟨(i 1).val, (i 1).isLt⟩

/-! ## The reference's spelling of the layer -/

section Host

/-- The dot_general's operand indices at output index i and contraction index q: the left operand's is (i0, q),
    the right operand's is (q, i1). -/
theorem hostDot_lhs0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem hostDot_lhs1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem hostDot_rhs0 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem hostDot_rhs1 (i : Cert.ReferenceIdeal.S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- The host's dot_general of a [50000,128] array with a [128,128] array, read at an index: row i0 of the left
    operand against column i1 of the right one. -/
theorem hostDot_apply (l : FVec Ideal Cert.ReferenceIdeal.S50000x128 .f32) (r : FVec Ideal Cert.ReferenceIdeal.S128x128 .f32) (i : Cert.ReferenceIdeal.S50000x128.Idx) :
    Host.dotGeneral Cert.ReferenceIdeal.dot_S50000x128_S128x128_S50000x128_1_0_0_1_n_n none l r i
      = ∑ k : Fin 128, l (ix2 (⟨(i 0).val, (i 0).isLt⟩ : Fin 50000) k) * r (ix2 k (⟨(i 1).val, (i 1).isLt⟩ : Fin 128)) := by
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx i ((ValueIdx.contrEquiv1 Cert.ReferenceIdeal.dot_S50000x128_S128x128_S50000x128_1_0_0_1_n_n 128 rfl rfl).symm k)
      = ix2 (⟨(i 0).val, (i 0).isLt⟩ : Fin 50000) k := funext fun a => Fin.ext (by
    match a with
    | ⟨0, _⟩ => exact hostDot_lhs0 _ _
    | ⟨1, _⟩ => exact (hostDot_lhs1 _ _).trans hk)
  have er : Cert.ReferenceIdeal.dot_S50000x128_S128x128_S50000x128_1_0_0_1_n_n.rhsIdx i ((ValueIdx.contrEquiv1 Cert.ReferenceIdeal.dot_S50000x128_S128x128_S50000x128_1_0_0_1_n_n 128 rfl rfl).symm k)
      = ix2 k (⟨(i 1).val, (i 1).isLt⟩ : Fin 128) := funext fun a => Fin.ext (by
    match a with
    | ⟨0, _⟩ => exact (hostDot_rhs0 _ _).trans hk
    | ⟨1, _⟩ => exact hostDot_rhs1 _ _)
  rw [el, er]

/-- The bias as the reference broadcasts it, [128] → [1,128] → [50000,128], read at an index: entry i1 of the bias. -/
theorem hostBias_apply (bl : FVec Ideal Cert.ReferenceIdeal.S128 .f32) (i : Cert.ReferenceIdeal.S50000x128.Idx) :
    broadcastInDim Cert.ReferenceIdeal.S50000x128 ![0, 1] Cert.ReferenceIdeal.Facts₀.bcast_S1x128_S50000x128_0_1
        (broadcastInDim Cert.ReferenceIdeal.S1x128 ![1] Cert.ReferenceIdeal.Facts₀.bcast_S128_S1x128_1 bl) i
      = bl (ix1 (⟨(i 1).val, (i 1).isLt⟩ : Fin 128)) := by
  generalize hy : broadcastInDim Cert.ReferenceIdeal.S1x128 ![1] Cert.ReferenceIdeal.Facts₀.bcast_S128_S1x128_1 bl = y
  rw [broadcastInDim_apply _ Cert.ReferenceIdeal.Facts₀.bcast_S1x128_S50000x128_0_1 y i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  exact broadcastInDim_apply _ Cert.ReferenceIdeal.Facts₀.bcast_S128_S1x128_1 bl _ (ix1 (⟨(i 1).val, (i 1).isLt⟩ : Fin 128)) (fun a => match a with
    | ⟨0, _⟩ => by show (i 1).val = if (128 : Nat) = 1 then 0 else (i 1).val; rw [if_neg (by decide)])

/-- The reference's zero, the scalar constant broadcast to [50000,128], read at an index. -/
theorem hostZero_apply (i : Cert.ReferenceIdeal.S50000x128.Idx) :
    broadcastInDim Cert.ReferenceIdeal.S50000x128 ![] Cert.ReferenceIdeal.Facts₀.bcast_S_S50000x128 (constant (F := Ideal) Cert.ReferenceIdeal.S_ .f32 0x00000000#32) i = 0 := by
  rw [broadcastInDim_apply _ Cert.ReferenceIdeal.Facts₀.bcast_S_S50000x128 (constant (F := Ideal) Cert.ReferenceIdeal.S_ .f32 0x00000000#32) i ix0 (fun a => a.elim0)]
  exact Ideal.ofBits_zero_f32

/-- The [128] bias reshaped to [1,128], read at (0, j): entry j of the bias. -/
theorem biasCast_apply (bl : FVec Ideal Cert.ReferenceIdeal.S128 .f32) (hb : S128.ShapeCasts S1x128) (j : Fin 128) :
    shapeCast S1x128 bl hb (ix2 (0 : Fin 1) j) = bl (ix1 j) :=
  shapeCast_apply bl hb (ix2 (0 : Fin 1) j) (ix1 j) (by
    rw [Shape.rowMajor_val_one, Shape.rowMajor_val_two]
    show j.val = 0 * 128 + j.val
    omega)

/-- The reference's own spelling of one layer is `layer`. -/
theorem host (mean x : FVec Ideal Cert.ReferenceIdeal.S50000x128 .f32) (Wl Wr : FVec Ideal Cert.ReferenceIdeal.S128x128 .f32)
    (bl : FVec Ideal Cert.ReferenceIdeal.S128 .f32) (hb : S128.ShapeCasts S1x128) :
    maximumf
      (addf
        (addf (Host.dotGeneral Cert.ReferenceIdeal.dot_S50000x128_S128x128_S50000x128_1_0_0_1_n_n none mean Wl)
              (broadcastInDim Cert.ReferenceIdeal.S50000x128 ![0, 1] Cert.ReferenceIdeal.Facts₀.bcast_S1x128_S50000x128_0_1
                (broadcastInDim Cert.ReferenceIdeal.S1x128 ![1] Cert.ReferenceIdeal.Facts₀.bcast_S128_S1x128_1 bl)))
        (Host.dotGeneral Cert.ReferenceIdeal.dot_S50000x128_S128x128_S50000x128_1_0_0_1_n_n none x Wr))
      (broadcastInDim Cert.ReferenceIdeal.S50000x128 ![] Cert.ReferenceIdeal.Facts₀.bcast_S_S50000x128 (constant Cert.ReferenceIdeal.S_ .f32 0x00000000#32))
    = layer mean x Wl (shapeCast S1x128 bl hb) Wr := by
  funext i
  rw [maximumf_apply, addf_apply, addf_apply, hostDot_apply, hostDot_apply, hostBias_apply, hostZero_apply]
  unfold layer layerAt
  rw [biasCast_apply]

end Host

/-! ## The kernel body's stored value at an index of the block -/

/-- The matmul's operand indices at output index i and contraction index q: the left operand's is (i0, q),
    the right operand's is (q, i1). -/
theorem kerDot_lhs0 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
theorem kerDot_lhs1 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem kerDot_rhs0 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem kerDot_rhs1 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- The body's matmul of a [2000,128] block with a [128,128] block into the zero accumulator, read at (p, j):
    row p of the left block against column j of the right one. -/
theorem kerDot_apply {φ₁ φ₂ : FTy} (l : FVec Ideal S2000x128 φ₁) (r : FVec Ideal S128x128 φ₂) (p : Fin 2000) (j : Fin 128) :
    matmul Cert.KernelIdeal.dot_S2000x128_S128x128_S2000x128_1_0_0_1_n_n none l r (constant S2000x128 .f32 0x00000000#32) (ix2 p j)
      = ∑ k : Fin 128, l (ix2 p k) * r (ix2 k j) := by
  simp only [matmul]
  rw [Ideal.matmul_constant_zero_apply, ← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p j) ((ValueIdx.contrEquiv1 Cert.KernelIdeal.dot_S2000x128_S128x128_S2000x128_1_0_0_1_n_n 128 rfl rfl).symm k) = ix2 p k := funext fun a => Fin.ext (by
    match a with
    | ⟨0, _⟩ => exact kerDot_lhs0 _ _
    | ⟨1, _⟩ => exact (kerDot_lhs1 _ _).trans hk)
  have er : Cert.KernelIdeal.dot_S2000x128_S128x128_S2000x128_1_0_0_1_n_n.rhsIdx (ix2 p j) ((ValueIdx.contrEquiv1 Cert.KernelIdeal.dot_S2000x128_S128x128_S2000x128_1_0_0_1_n_n 128 rfl rfl).symm k) = ix2 k j := funext fun a => Fin.ext (by
    match a with
    | ⟨0, _⟩ => exact (kerDot_rhs0 _ _).trans hk
    | ⟨1, _⟩ => exact kerDot_rhs1 _ _)
  rw [el, er]

/-- The layer's formula on five blocks, at (p, j) of the [2000,128] block. -/
def blockAt (x0 x1 : Vec Ideal S2000x128 .f32) (x2 x4 : Vec Ideal S128x128 .f32) (x3 : Vec Ideal S1x128 .f32) (p : Fin 2000) (j : Fin 128) : EReal :=
  max ((∑ k : Fin 128, x0 (ix2 p k) * x2 (ix2 k j)) + x3 (ix2 (0 : Fin 1) j) + ∑ k : Fin 128, x1 (ix2 p k) * x4 (ix2 k j)) 0

/-- What the body stores, read at (p, j) of the [2000,128] block, from the five blocks it loads: the layer's
    formula on the blocks (the changes of float format are the identity on the extended reals). -/
theorem pay_apply (x0 x1 : Vec Ideal S2000x128 .f32) (x2 x4 : Vec Ideal S128x128 .f32) (x3 : Vec Ideal S1x128 .f32) (p : Fin 2000) (j : Fin 128) :
    Gen.k2_pay1 (F := Ideal) x0 x1 x2 x4 x3 (ix2 p j) = blockAt x0 x1 x2 x4 x3 p j := by
  unfold Gen.k2_pay1 blockAt
  rw [maximumf_apply, addf_apply, addf_apply, kerDot_apply, kerDot_apply, broadcastTo_1b_ab_apply, shapeCast_self]
  rw [shapeCast_self]
  rw [shapeCast_self]
  simp only [truncf_apply, broadcast_apply, Ideal.ofBits_def, Ideal.ofBits_zero_f32]

/-- The same at any index Y of the block whose coordinates are p and j. -/
theorem pay_apply_at (x0 x1 : Vec Ideal S2000x128 .f32) (x2 x4 : Vec Ideal S128x128 .f32) (x3 : Vec Ideal S1x128 .f32) (Y : S2000x128.Idx)
    (p : Fin 2000) (j : Fin 128) (hp : (Y 0).val = p.val) (hj : (Y 1).val = j.val) :
    Gen.k2_pay1 (F := Ideal) x0 x1 x2 x4 x3 Y = blockAt x0 x1 x2 x4 x3 p j := by
  have hY : Y = ix2 p j := funext fun a => Fin.ext (by
    match a with
    | ⟨0, _⟩ => exact hp
    | ⟨1, _⟩ => exact hj)
  rw [hY]
  exact pay_apply x0 x1 x2 x4 x3 p j

/-! ## From the blocks to the array -/

theorem hz : (![0, 0] : Fin 2 → Nat) = fun _ => 0 := funext fun a => by fin_cases a <;> rfl

/-- The printed index maps, decided over the grid's 25 points: at point t the two row-tiled inputs and the output sit at
    block row t, block column 0; the two weight matrices and the bias row are one block each, at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- Rows t·2000 … t·2000+1999 of the aggregated-neighbour array are the block window 0 holds at point t. -/
theorem blk0_apply (p : Fin 2000) (k : Fin 128) (q : Fin 50000) (hq : q.val = t.val * 2000 + p.val) :
    Gen.iblk2 V c 0 t (ix2 p k) = V c main_v60 (ix2 q k) := by
  show V c main_v60 (((cfg2.win 0).blk t).view.emb (ix2 p k)) = V c main_v60 (ix2 q k)
  refine congrArg (V c main_v60) (funext fun a => Fin.ext ?_)
  obtain ⟨e00, e01, -⟩ := idx_facts t
  match a with
  | ⟨0, _⟩ => show win2_0.index t (0 : Fin 2) * 2000 + 1 * p.val = q.val; omega
  | ⟨1, _⟩ => show win2_0.index t (1 : Fin 2) * 128 + 1 * k.val = k.val; omega

/-- The same rows of the destination-feature array are the block window 1 holds. -/
theorem blk1_apply (p : Fin 2000) (k : Fin 128) (q : Fin 50000) (hq : q.val = t.val * 2000 + p.val) :
    Gen.iblk2 V c 1 t (ix2 p k) = V c main_v20 (ix2 q k) := by
  show V c main_v20 (((cfg2.win 1).blk t).view.emb (ix2 p k)) = V c main_v20 (ix2 q k)
  refine congrArg (V c main_v20) (funext fun a => Fin.ext ?_)
  obtain ⟨-, -, e10, e11, -⟩ := idx_facts t
  match a with
  | ⟨0, _⟩ => show win2_1.index t (0 : Fin 2) * 2000 + 1 * p.val = q.val; omega
  | ⟨1, _⟩ => show win2_1.index t (1 : Fin 2) * 128 + 1 * k.val = k.val; omega

/-- Window 2's block is the whole left weight matrix. -/
theorem blk2_apply (k : Fin 128) (j : Fin 128) :
    Gen.iblk2 V c 2 t (ix2 k j) = V c main_arg12 (ix2 k j) := by
  show V c main_arg12 (((cfg2.win 2).blk t).view.emb (ix2 k j)) = V c main_arg12 (ix2 k j)
  refine congrArg (V c main_arg12) (funext fun a => Fin.ext ?_)
  obtain ⟨-, -, -, -, e20, e21, -⟩ := idx_facts t
  match a with
  | ⟨0, _⟩ => show win2_2.index t (0 : Fin 2) * 128 + 1 * k.val = k.val; omega
  | ⟨1, _⟩ => show win2_2.index t (1 : Fin 2) * 128 + 1 * j.val = j.val; omega

/-- Window 3's block is the whole bias row. -/
theorem blk3_apply (z : Fin 1) (j : Fin 128) :
    Gen.iblk2 V c 3 t (ix2 z j) = V c main_v61 (ix2 z j) := by
  show V c main_v61 (((cfg2.win 3).blk t).view.emb (ix2 z j)) = V c main_v61 (ix2 z j)
  refine congrArg (V c main_v61) (funext fun a => Fin.ext ?_)
  obtain ⟨-, -, -, -, -, -, e30, e31, -⟩ := idx_facts t
  match a with
  | ⟨0, _⟩ => show win2_3.index t (0 : Fin 2) * 1 + 1 * z.val = z.val; omega
  | ⟨1, _⟩ => show win2_3.index t (1 : Fin 2) * 128 + 1 * j.val = j.val; omega

/-- Window 4's block is the whole right weight matrix. -/
theorem blk4_apply (k : Fin 128) (j : Fin 128) :
    Gen.iblk2 V c 4 t (ix2 k j) = V c main_arg14 (ix2 k j) := by
  show V c main_arg14 (((cfg2.win 4).blk t).view.emb (ix2 k j)) = V c main_arg14 (ix2 k j)
  refine congrArg (V c main_arg14) (funext fun a => Fin.ext ?_)
  obtain ⟨-, -, -, -, -, -, -, -, e40, e41, -⟩ := idx_facts t
  match a with
  | ⟨0, _⟩ => show win2_4.index t (0 : Fin 2) * 128 + 1 * k.val = k.val; omega
  | ⟨1, _⟩ => show win2_4.index t (1 : Fin 2) * 128 + 1 * j.val = j.val; omega

/-- The layer's formula on the five blocks of point t, at (p, j) of the block, is the layer of the whole arrays at
    row t·2000 + p, column j. -/
theorem point_eq (p : Fin 2000) (j : Fin 128) (q : Fin 50000) (J : Fin 128) (hq : q.val = t.val * 2000 + p.val) (hJ : J.val = j.val) :
    blockAt (Gen.iblk2 V c 0 t) (Gen.iblk2 V c 1 t) (Gen.iblk2 V c 2 t) (Gen.iblk2 V c 4 t) (Gen.iblk2 V c 3 t) p j
      = layerAt (V c main_v60) (V c main_v20) (V c main_arg12) (V c main_v61) (V c main_arg14) q J := by
  have hJj : J = j := Fin.ext hJ
  subst hJj
  unfold blockAt layerAt
  rw [blk3_apply V c t]
  refine congrArg (fun z => max z 0) (congrArg₂ (· + ·) (congrArg (· + V c main_v61 (ix2 (0 : Fin 1) J)) ?_) ?_)
  · exact Finset.sum_congr rfl fun k _ => by rw [blk0_apply V c t p k q hq, blk2_apply V c t k J]
  · exact Finset.sum_congr rfl fun k _ => by rw [blk1_apply V c t p k q hq, blk4_apply V c t k J]

/-- What point t writes back is block t of the layer of the arrays as the region finds them. -/
theorem flushed_eq :
    (Gen.dat2 (F := Ideal) V c).flushed 5 t
      = ((cfg2.win 5).blk t).view.read (Elt Ideal) (layer (V c main_v60) (V c main_v20) (V c main_arg12) (V c main_v61) (V c main_arg14)) := by
  show (cfg2.win 5).cut (grid2.coords t) ((Gen.dat2 (F := Ideal) V c).after 5 t) = _
  rw [Gen.after2_5]
  unfold Gen.out2_5
  rw [View.canon_unit_zero hz]
  simp only [View.ld_unit_zero (S := S2000x128) hz, View.ld_unit_zero (S := S128x128) hz, View.ld_unit_zero (S := S1x128) hz]
  funext y
  have hy0 : (y 0).val < 2000 := (y 0).isLt
  have hy1 : (y 1).val < 128 := (y 1).isLt
  obtain ⟨-, -, -, -, -, -, -, -, -, -, e50, e51⟩ := idx_facts t
  have ht : t.val < 25 := t.isLt.trans_eq Gen.N_2
  have hq : ((((cfg2.win 5).blk t).view.emb y) 0).val = t.val * 2000 + (y 0).val := by
    show win2_5.index t (0 : Fin 2) * 2000 + 1 * (y 0).val = _; omega
  have hJ : ((((cfg2.win 5).blk t).view.emb y) 1).val = (y 1).val := by
    show win2_5.index t (1 : Fin 2) * 128 + 1 * (y 1).val = _; omega
  refine (pay_apply_at (Gen.iblk2 V c 0 t) (Gen.iblk2 V c 1 t) (Gen.iblk2 V c 2 t) (Gen.iblk2 V c 4 t) (Gen.iblk2 V c 3 t)
    ((cfg2.win 5).xinj (grid2.coords t) y) ⟨(y 0).val, hy0⟩ ⟨(y 1).val, hy1⟩ rfl rfl).trans ?_
  show _ = layer (V c main_v60) (V c main_v20) (V c main_arg12) (V c main_v61) (V c main_arg14) (((cfg2.win 5).blk t).view.emb y)
  unfold layer
  exact point_eq V c t ⟨(y 0).val, hy0⟩ ⟨(y 1).val, hy1⟩ _ _ hq hJ

end Blocks

/-- An index of the output array is in point t's block iff each coordinate is in the block's range on its axis. -/
theorem mem_blk (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v62).slice (win2_5.rect t)).set ↔ _
  rw [View.set_slice_whole, Rect.mem_set_unit]
  exact Iff.rfl

/-- Every row r of the output array is in the block of point r / 2000. -/
theorem cover (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := Gen.N_2
  let t : Fin cfg2.N := ⟨(i 0).val / 2000, by rw [hN]; omega⟩
  have htv : t.val = (i 0).val / 2000 := rfl
  obtain ⟨-, -, -, -, -, -, -, -, -, -, e50, e51⟩ := idx_facts t
  refine ⟨t, Gen.flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- The output array after the region: the layer of the arrays as the region finds them. -/
theorem array (V : (c : Dev nD) → (b : Ref sig .tc) → Buf (Elt Ideal) ((c : Thread nD τ).loc b)) (c : Dev nD) :
    (Gen.dat2 (F := Ideal) V c).arrAt 5 cfg2.N
      = layer (V c main_v60) (V c main_v20) (V c main_arg12) (V c main_v61) (V c main_arg14) :=
  (Gen.dat2 (F := Ideal) V c).arrAt_eq_of_cover 5 _ (fun t _ => flushed_eq V c t) cover

end Cert.KernelIdeal.Sage2

end
-- ==== Proof.Sage3.lean ====
import proofs.«180647_j29807073034770_1_alg».proof.Proof.Gen.KernelIdeal.Frame
import proofs.«180647_j29807073034770_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Sage3

open Idealize.ShloMosaic Idealize.ShloMosaic.TcCoe Idealize.SL.Sem
open Idealize.ShloMosaic.ValueIdx
open scoped BigOperators

/-- Entry (r, j) of one SAGE layer: max( Σ_k mean(r,k)·Wl(k,j) + b(0,j) + Σ_k x(r,k)·Wr(k,j) , 0 ) on the extended reals. -/
def layerAt (mean x : S100000x128.Idx → EReal) (Wl : S128x128.Idx → EReal) (b : S1x128.Idx → EReal) (Wr : S128x128.Idx → EReal)
    (r : Fin 100000) (j : Fin 128) : EReal :=
  max ((∑ k : Fin 128, mean (ix2 r k) * Wl (ix2 k j)) + b (ix2 (0 : Fin 1) j) + ∑ k : Fin 128, x (ix2 r k) * Wr (ix2 k j)) 0

/-- One SAGE layer read at an index: row i0, column i1 of the result is
    max( Σ_k mean(i0,k)·Wl(k,i1) + b(0,i1) + Σ_k x(i0,k)·Wr(k,i1) , 0 ) on the extended reals. -/
def layer (mean x : S100000x128.Idx → EReal) (Wl : S128x128.Idx → EReal) (b : S1x128.Idx → EReal) (Wr : S128x128.Idx → EReal) :
    S100000x128.Idx → EReal :=
  fun i => layerAt mean x Wl b Wr ⟨(i 0).val, (i 0).isLt⟩ ⟨(i 1).val, (i 1).isLt⟩

/-! ## The reference's spelling of the layer -/

section Host

/-- The dot_general's operand indices at output index i and contraction index q: the left operand's is (i0, q),
    the right operand's is (q, i1). -/
theorem hostDot_lhs0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem hostDot_lhs1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem hostDot_rhs0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem hostDot_rhs1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The host's dot_general of a [100000,128] array with a [128,128] array, read at an index: row i0 of the left
    operand against column i1 of the right one. -/
theorem hostDot_apply (l : FVec Ideal Cert.ReferenceIdeal.S100000x128 .f32) (r : FVec Ideal Cert.ReferenceIdeal.S128x128 .f32) (i : Cert.ReferenceIdeal.S100000x128.Idx) :
    Host.dotGeneral Cert.ReferenceIdeal.dot_S100000x128_S128x128_S100000x128_1_0_0_1_n_n none l r i
      = ∑ k : Fin 128, l (ix2 (⟨(i 0).val, (i 0).isLt⟩ : Fin 100000) k) * r (ix2 k (⟨(i 1).val, (i 1).isLt⟩ : Fin 128)) := by
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k)
      = ix2 (⟨(i 0).val, (i 0).isLt⟩ : Fin 100000) k := funext fun a => Fin.ext (by
    match a with
    | ⟨0, _⟩ => exact hostDot_lhs0 _ _
    | ⟨1, _⟩ => exact (hostDot_lhs1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k)
      = ix2 k (⟨(i 1).val, (i 1).isLt⟩ : Fin 128) := funext fun a => Fin.ext (by
    match a with
    | ⟨0, _⟩ => exact (hostDot_rhs0 _ _).trans hk
    | ⟨1, _⟩ => exact hostDot_rhs1 _ _)
  rw [el, er]

/-- The bias as the reference broadcasts it, [128] → [1,128] → [100000,128], read at an index: entry i1 of the bias. -/
theorem hostBias_apply (bl : FVec Ideal Cert.ReferenceIdeal.S128 .f32) (i : Cert.ReferenceIdeal.S100000x128.Idx) :
    broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 bl) i
      = bl (ix1 (⟨(i 1).val, (i 1).isLt⟩ : Fin 128)) := by
  generalize hy : broadcastInDim Cert.ReferenceIdeal.S1x128 ![1] Cert.ReferenceIdeal.Facts₀.bcast_S128_S1x128_1 bl = y
  rw [broadcastInDim_apply _ Cert.ReferenceIdeal.Facts₀.bcast_S1x128_S100000x128_0_1 y i (ix2 (0 : Fin 1) (⟨(i 1).val, (i 1).isLt⟩ : Fin 128)) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  subst hy
  exact broadcastInDim_apply _ Cert.ReferenceIdeal.Facts₀.bcast_S128_S1x128_1 bl _ (ix1 (⟨(i 1).val, (i 1).isLt⟩ : Fin 128)) (fun a => match a with
    | ⟨0, _⟩ => by show (i 1).val = if (128 : Nat) = 1 then 0 else (i 1).val; rw [if_neg (by decide)])

/-- The reference's zero, the scalar constant broadcast to [100000,128], read at an index. -/
theorem hostZero_apply (i : Cert.ReferenceIdeal.S100000x128.Idx) :
    broadcastInDim Cert.ReferenceIdeal.S100000x128 ![] Cert.ReferenceIdeal.Facts₀.bcast_S_S100000x128 (constant (F := Ideal) Cert.ReferenceIdeal.S_ .f32 0x00000000#32) i = 0 := by
  rw [broadcastInDim_apply _ Cert.ReferenceIdeal.Facts₀.bcast_S_S100000x128 (constant (F := Ideal) Cert.ReferenceIdeal.S_ .f32 0x00000000#32) i ix0 (fun a => a.elim0)]
  exact Ideal.ofBits_zero_f32

/-- The [128] bias reshaped to [1,128], read at (0, j): entry j of the bias. -/
theorem biasCast_apply (bl : FVec Ideal Cert.ReferenceIdeal.S128 .f32) (hb : S128.ShapeCasts S1x128) (j : Fin 128) :
    shapeCast S1x128 bl hb (ix2 (0 : Fin 1) j) = bl (ix1 j) :=
  shapeCast_apply bl hb (ix2 (0 : Fin 1) j) (ix1 j) (by
    rw [Shape.rowMajor_val_one, Shape.rowMajor_val_two]
    show j.val = 0 * 128 + j.val
    omega)

/-- The reference's own spelling of one layer is `layer`. -/
theorem host (mean x : FVec Ideal Cert.ReferenceIdeal.S100000x128 .f32) (Wl Wr : FVec Ideal Cert.ReferenceIdeal.S128x128 .f32)
    (bl : FVec Ideal Cert.ReferenceIdeal.S128 .f32) (hb : S128.ShapeCasts S1x128) :
    maximumf
      (addf
        (addf (Host.dotGeneral Cert.ReferenceIdeal.dot_S100000x128_S128x128_S100000x128_1_0_0_1_n_n none mean Wl)
              (broadcastInDim Cert.ReferenceIdeal.S100000x128 ![0, 1] Cert.ReferenceIdeal.Facts₀.bcast_S1x128_S100000x128_0_1
                (broadcastInDim Cert.ReferenceIdeal.S1x128 ![1] Cert.ReferenceIdeal.Facts₀.bcast_S128_S1x128_1 bl)))
        (Host.dotGeneral Cert.ReferenceIdeal.dot_S100000x128_S128x128_S100000x128_1_0_0_1_n_n none x Wr))
      (broadcastInDim Cert.ReferenceIdeal.S100000x128 ![] Cert.ReferenceIdeal.Facts₀.bcast_S_S100000x128 (constant Cert.ReferenceIdeal.S_ .f32 0x00000000#32))
    = layer mean x Wl (shapeCast S1x128 bl hb) Wr := by
  funext i
  rw [maximumf_apply, addf_apply, addf_apply, hostDot_apply, hostDot_apply, hostBias_apply, hostZero_apply]
  unfold layer layerAt
  rw [biasCast_apply]

end Host

/-! ## The kernel body's stored value at an index of the block -/

/-- The matmul's operand indices at output index i and contraction index q: the left operand's is (i0, q),
    the right operand's is (q, i1). -/
theorem kerDot_lhs0 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 0).val = (i 0).val := by
  unfold DotDims.lhsIdx
  rw [dif_neg (show ¬(0 : Fin S2000x128.rank) ∈ Cert.KernelIdeal.dot_S2000x128_S128x128_S2000x128_1_0_0_1_n_n.lhsBatch by decide), dif_pos (show (0 : Fin S2000x128.rank) ∈ Cert.KernelIdeal.dot_S2000x128_S128x128_S2000x128_1_0_0_1_n_n.lhsNonContracting by decide)]
  rfl
theorem kerDot_lhs1 (i : S2000x128.Idx) (q : Cert.KernelIdeal.dot_S2000x128_S128x128_S2000x128_1_0_0_1_n_n.contr.Idx) :
    (Cert.KernelIdeal.dot_S2000x128_S128x128_S2000x128_1_0_0_1_n_n.lhsIdx i q 1).val = (q ⟨0, by decide⟩).val :=
  Cert.KernelIdeal.dot_S2000x128_S128x128_S2000x128_1_0_0_1_n_n.lhsIdx_val_of_single rfl i q
theorem kerDot_rhs0 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 0).val = (q ⟨0, by decide⟩).val :=
  Cert.KernelIdeal.dot_S2000x128_S128x128_S2000x128_1_0_0_1_n_n.rhsIdx_val_of_single rfl i q
theorem kerDot_rhs1 (i : S2000x128.Idx) (q : Cert.KernelIdeal.dot_S2000x128_S128x128_S2000x128_1_0_0_1_n_n.contr.Idx) :
    (Cert.KernelIdeal.dot_S2000x128_S128x128_S2000x128_1_0_0_1_n_n.rhsIdx i q 1).val = (i 1).val := by
  unfold DotDims.rhsIdx
  rw [dif_neg (show ¬(1 : Fin S128x128.rank) ∈ Cert.KernelIdeal.dot_S2000x128_S128x128_S2000x128_1_0_0_1_n_n.rhsBatch by decide), dif_pos (show (1 : Fin S128x128.rank) ∈ Cert.KernelIdeal.dot_S2000x128_S128x128_S2000x128_1_0_0_1_n_n.rhsNonContracting by decide)]
  rfl

/-- The body's matmul of a [2000,128] block with a [128,128] block into the zero accumulator, read at (p, j):
    row p of the left block against column j of the right one. -/
theorem kerDot_apply {φ₁ φ₂ : FTy} (l : FVec Ideal S2000x128 φ₁) (r : FVec Ideal S128x128 φ₂) (p : Fin 2000) (j : Fin 128) :
    matmul Cert.KernelIdeal.dot_S2000x128_S128x128_S2000x128_1_0_0_1_n_n none l r (constant S2000x128 .f32 0x00000000#32) (ix2 p j)
      = ∑ k : Fin 128, l (ix2 p k) * r (ix2 k j) := by
  simp only [matmul]
  rw [Ideal.matmul_constant_zero_apply, ← Equiv.sum_comp (ValueIdx.contrEquiv1 Cert.KernelIdeal.dot_S2000x128_S128x128_S2000x128_1_0_0_1_n_n 128 rfl rfl).symm]
  refine Finset.sum_congr rfl fun k _ => ?_
  have hk := ValueIdx.contrEquiv1_symm_val Cert.KernelIdeal.dot_S2000x128_S128x128_S2000x128_1_0_0_1_n_n 128 rfl rfl k
  have el : Cert.KernelIdeal.dot_S2000x128_S128x128_S2000x128_1_0_0_1_n_n.lhsIdx (ix2 p j) ((ValueIdx.contrEquiv1 Cert.KernelIdeal.dot_S2000x128_S128x128_S2000x128_1_0_0_1_n_n 128 rfl rfl).symm k) = ix2 p k := funext fun a => Fin.ext (by
    match a with
    | ⟨0, _⟩ => exact kerDot_lhs0 _ _
    | ⟨1, _⟩ => exact (kerDot_lhs1 _ _).trans hk)
  have er : Cert.KernelIdeal.dot_S2000x128_S128x128_S2000x128_1_0_0_1_n_n.rhsIdx (ix2 p j) ((ValueIdx.contrEquiv1 Cert.KernelIdeal.dot_S2000x128_S128x128_S2000x128_1_0_0_1_n_n 128 rfl rfl).symm k) = ix2 k j := funext fun a => Fin.ext (by
    match a with
    | ⟨0, _⟩ => exact (kerDot_rhs0 _ _).trans hk
    | ⟨1, _⟩ => exact kerDot_rhs1 _ _)
  rw [el, er]

/-- The layer's formula on five blocks, at (p, j) of the [2000,128] block. -/
def blockAt (x0 x1 : Vec Ideal S2000x128 .f32) (x2 x4 : Vec Ideal S128x128 .f32) (x3 : Vec Ideal S1x128 .f32) (p : Fin 2000) (j : Fin 128) : EReal :=
  max ((∑ k : Fin 128, x0 (ix2 p k) * x2 (ix2 k j)) + x3 (ix2 (0 : Fin 1) j) + ∑ k : Fin 128, x1 (ix2 p k) * x4 (ix2 k j)) 0

/-- What the body stores, read at (p, j) of the [2000,128] block, from the five blocks it loads: the layer's
    formula on the blocks (the changes of float format are the identity on the extended reals). -/
theorem pay_apply (x0 x1 : Vec Ideal S2000x128 .f32) (x2 x4 : Vec Ideal S128x128 .f32) (x3 : Vec Ideal S1x128 .f32) (p : Fin 2000) (j : Fin 128) :
    Gen.k3_pay1 (F := Ideal) x0 x1 x2 x4 x3 (ix2 p j) = blockAt x0 x1 x2 x4 x3 p j := by
  unfold Gen.k3_pay1 blockAt
  rw [maximumf_apply, addf_apply, addf_apply, kerDot_apply, kerDot_apply, broadcastTo_1b_ab_apply, shapeCast_self]
  rw [shapeCast_self]
  rw [shapeCast_self]
  simp only [truncf_apply, broadcast_apply, Ideal.ofBits_def, Ideal.ofBits_zero_f32]

/-- The same at any index Y of the block whose coordinates are p and j. -/
theorem pay_apply_at (x0 x1 : Vec Ideal S2000x128 .f32) (x2 x4 : Vec Ideal S128x128 .f32) (x3 : Vec Ideal S1x128 .f32) (Y : S2000x128.Idx)
    (p : Fin 2000) (j : Fin 128) (hp : (Y 0).val = p.val) (hj : (Y 1).val = j.val) :
    Gen.k3_pay1 (F := Ideal) x0 x1 x2 x4 x3 Y = blockAt x0 x1 x2 x4 x3 p j := by
  have hY : Y = ix2 p j := funext fun a => Fin.ext (by
    match a with
    | ⟨0, _⟩ => exact hp
    | ⟨1, _⟩ => exact hj)
  rw [hY]
  exact pay_apply x0 x1 x2 x4 x3 p j

/-! ## From the blocks to the array -/

theorem hz : (![0, 0] : Fin 2 → Nat) = fun _ => 0 := funext fun a => by fin_cases a <;> rfl

/-- The printed index maps, decided over the grid's 50 points: at point t the two row-tiled inputs and the output sit at
    block row t, block column 0; the two weight matrices and the bias row are one block each, at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

section Blocks
variable (V : (c : Dev nD) → (b : Ref sig .tc) → Buf (Elt Ideal) ((c : Thread nD τ).loc b)) (c : Dev nD) (t : Fin cfg3.N)

/-- Rows t·2000 … t·2000+1999 of the aggregated-neighbour array are the block window 0 holds at point t. -/
theorem blk0_apply (p : Fin 2000) (k : Fin 128) (q : Fin 100000) (hq : q.val = t.val * 2000 + p.val) :
    Gen.iblk3 V c 0 t (ix2 p k) = V c main_v81 (ix2 q k) := by
  show V c main_v81 (((cfg3.win 0).blk t).view.emb (ix2 p k)) = V c main_v81 (ix2 q k)
  refine congrArg (V c main_v81) (funext fun a => Fin.ext ?_)
  obtain ⟨e00, e01, -⟩ := idx_facts t
  match a with
  | ⟨0, _⟩ => show win3_0.index t (0 : Fin 2) * 2000 + 1 * p.val = q.val; omega
  | ⟨1, _⟩ => show win3_0.index t (1 : Fin 2) * 128 + 1 * k.val = k.val; omega

/-- The same rows of the destination-feature array are the block window 1 holds. -/
theorem blk1_apply (p : Fin 2000) (k : Fin 128) (q : Fin 100000) (hq : q.val = t.val * 2000 + p.val) :
    Gen.iblk3 V c 1 t (ix2 p k) = V c main_v41 (ix2 q k) := by
  show V c main_v41 (((cfg3.win 1).blk t).view.emb (ix2 p k)) = V c main_v41 (ix2 q k)
  refine congrArg (V c main_v41) (funext fun a => Fin.ext ?_)
  obtain ⟨-, -, e10, e11, -⟩ := idx_facts t
  match a with
  | ⟨0, _⟩ => show win3_1.index t (0 : Fin 2) * 2000 + 1 * p.val = q.val; omega
  | ⟨1, _⟩ => show win3_1.index t (1 : Fin 2) * 128 + 1 * k.val = k.val; omega

/-- Window 2's block is the whole left weight matrix. -/
theorem blk2_apply (k : Fin 128) (j : Fin 128) :
    Gen.iblk3 V c 2 t (ix2 k j) = V c main_arg15 (ix2 k j) := by
  show V c main_arg15 (((cfg3.win 2).blk t).view.emb (ix2 k j)) = V c main_arg15 (ix2 k j)
  refine congrArg (V c main_arg15) (funext fun a => Fin.ext ?_)
  obtain ⟨-, -, -, -, e20, e21, -⟩ := idx_facts t
  match a with
  | ⟨0, _⟩ => show win3_2.index t (0 : Fin 2) * 128 + 1 * k.val = k.val; omega
  | ⟨1, _⟩ => show win3_2.index t (1 : Fin 2) * 128 + 1 * j.val = j.val; omega

/-- Window 3's block is the whole bias row. -/
theorem blk3_apply (z : Fin 1) (j : Fin 128) :
    Gen.iblk3 V c 3 t (ix2 z j) = V c main_v82 (ix2 z j) := by
  show V c main_v82 (((cfg3.win 3).blk t).view.emb (ix2 z j)) = V c main_v82 (ix2 z j)
  refine congrArg (V c main_v82) (funext fun a => Fin.ext ?_)
  obtain ⟨-, -, -, -, -, -, e30, e31, -⟩ := idx_facts t
  match a with
  | ⟨0, _⟩ => show win3_3.index t (0 : Fin 2) * 1 + 1 * z.val = z.val; omega
  | ⟨1, _⟩ => show win3_3.index t (1 : Fin 2) * 128 + 1 * j.val = j.val; omega

/-- Window 4's block is the whole right weight matrix. -/
theorem blk4_apply (k : Fin 128) (j : Fin 128) :
    Gen.iblk3 V c 4 t (ix2 k j) = V c main_arg17 (ix2 k j) := by
  show V c main_arg17 (((cfg3.win 4).blk t).view.emb (ix2 k j)) = V c main_arg17 (ix2 k j)
  refine congrArg (V c main_arg17) (funext fun a => Fin.ext ?_)
  obtain ⟨-, -, -, -, -, -, -, -, e40, e41, -⟩ := idx_facts t
  match a with
  | ⟨0, _⟩ => show win3_4.index t (0 : Fin 2) * 128 + 1 * k.val = k.val; omega
  | ⟨1, _⟩ => show win3_4.index t (1 : Fin 2) * 128 + 1 * j.val = j.val; omega

/-- The layer's formula on the five blocks of point t, at (p, j) of the block, is the layer of the whole arrays at
    row t·2000 + p, column j. -/
theorem point_eq (p : Fin 2000) (j : Fin 128) (q : Fin 100000) (J : Fin 128) (hq : q.val = t.val * 2000 + p.val) (hJ : J.val = j.val) :
    blockAt (Gen.iblk3 V c 0 t) (Gen.iblk3 V c 1 t) (Gen.iblk3 V c 2 t) (Gen.iblk3 V c 4 t) (Gen.iblk3 V c 3 t) p j
      = layerAt (V c main_v81) (V c main_v41) (V c main_arg15) (V c main_v82) (V c main_arg17) q J := by
  have hJj : J = j := Fin.ext hJ
  subst hJj
  unfold blockAt layerAt
  rw [blk3_apply V c t]
  refine congrArg (fun z => max z 0) (congrArg₂ (· + ·) (congrArg (· + V c main_v82 (ix2 (0 : Fin 1) J)) ?_) ?_)
  · exact Finset.sum_congr rfl fun k _ => by rw [blk0_apply V c t p k q hq, blk2_apply V c t k J]
  · exact Finset.sum_congr rfl fun k _ => by rw [blk1_apply V c t p k q hq, blk4_apply V c t k J]

/-- What point t writes back is block t of the layer of the arrays as the region finds them. -/
theorem flushed_eq :
    (Gen.dat3 (F := Ideal) V c).flushed 5 t
      = ((cfg3.win 5).blk t).view.read (Elt Ideal) (layer (V c main_v81) (V c main_v41) (V c main_arg15) (V c main_v82) (V c main_arg17)) := by
  show (cfg3.win 5).cut (grid3.coords t) ((Gen.dat3 (F := Ideal) V c).after 5 t) = _
  rw [Gen.after3_5]
  unfold Gen.out3_5
  rw [View.canon_unit_zero hz]
  simp only [View.ld_unit_zero (S := S2000x128) hz, View.ld_unit_zero (S := S128x128) hz, View.ld_unit_zero (S := S1x128) hz]
  funext y
  have hy0 : (y 0).val < 2000 := (y 0).isLt
  have hy1 : (y 1).val < 128 := (y 1).isLt
  obtain ⟨-, -, -, -, -, -, -, -, -, -, e50, e51⟩ := idx_facts t
  have ht : t.val < 50 := t.isLt.trans_eq Gen.N_3
  have hq : ((((cfg3.win 5).blk t).view.emb y) 0).val = t.val * 2000 + (y 0).val := by
    show win3_5.index t (0 : Fin 2) * 2000 + 1 * (y 0).val = _; omega
  have hJ : ((((cfg3.win 5).blk t).view.emb y) 1).val = (y 1).val := by
    show win3_5.index t (1 : Fin 2) * 128 + 1 * (y 1).val = _; omega
  refine (pay_apply_at (Gen.iblk3 V c 0 t) (Gen.iblk3 V c 1 t) (Gen.iblk3 V c 2 t) (Gen.iblk3 V c 4 t) (Gen.iblk3 V c 3 t)
    ((cfg3.win 5).xinj (grid3.coords t) y) ⟨(y 0).val, hy0⟩ ⟨(y 1).val, hy1⟩ rfl rfl).trans ?_
  show _ = layer (V c main_v81) (V c main_v41) (V c main_arg15) (V c main_v82) (V c main_arg17) (((cfg3.win 5).blk t).view.emb y)
  unfold layer
  exact point_eq V c t ⟨(y 0).val, hy0⟩ ⟨(y 1).val, hy1⟩ _ _ hq hJ

end Blocks

/-- An index of the output array is in point t's block iff each coordinate is in the block's range on its axis. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v83).slice (win3_5.rect t)).set ↔ _
  rw [View.set_slice_whole, Rect.mem_set_unit]
  exact Iff.rfl

/-- Every row r of the output array is in the block of point r / 2000. -/
theorem cover (i : S100000x128.Idx) : ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 50 := Gen.N_3
  let t : Fin cfg3.N := ⟨(i 0).val / 2000, by rw [hN]; omega⟩
  have htv : t.val = (i 0).val / 2000 := rfl
  obtain ⟨-, -, -, -, -, -, -, -, -, -, e50, e51⟩ := idx_facts t
  refine ⟨t, Gen.flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-- The output array after the region: the layer of the arrays as the region finds them. -/
theorem array (V : (c : Dev nD) → (b : Ref sig .tc) → Buf (Elt Ideal) ((c : Thread nD τ).loc b)) (c : Dev nD) :
    (Gen.dat3 (F := Ideal) V c).arrAt 5 cfg3.N
      = layer (V c main_v81) (V c main_v41) (V c main_arg15) (V c main_v82) (V c main_arg17) :=
  (Gen.dat3 (F := Ideal) V c).arrAt_eq_of_cover 5 _ (fun t _ => flushed_eq V c t) cover

end Cert.KernelIdeal.Sage3

end
-- ==== Proof.Mlp4.lean ====
import proofs.«180647_j29807073034770_1_alg».proof.Proof.Gen.KernelIdeal.Frame
import proofs.«180647_j29807073034770_1_alg».proof.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Mlp4

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- One two-layer head read at an index: entry (i0,i1) is
    Σ_j max( Σ_k x(i0,k)·W1(k,j) + b1(0,j) , 0 )·W2(j,i1) + b2(0,i1) on the extended reals. -/
def layer (x : S100000x128.Idx → EReal) (W1 : S128x64.Idx → EReal) (b1 : S1x64.Idx → EReal)
    (W2 : S64x2.Idx → EReal) (b2 : S1x2.Idx → EReal) : S100000x2.Idx → EReal := fun i =>
  (∑ j : Fin 64, max ((∑ k : Fin 128, x (ix2 (i 0) k) * W1 (ix2 k j)) + b1 (ix2 (0 : Fin 1) j)) 0 * W2 (ix2 j (i 1)))
    + b2 (ix2 (0 : Fin 1) (i 1))

/-- The head at an index given by its two coordinates. -/
theorem layer_ix (x : S100000x128.Idx → EReal) (W1 : S128x64.Idx → EReal) (b1 : S1x64.Idx → EReal)
    (W2 : S64x2.Idx → EReal) (b2 : S1x2.Idx → EReal) (r : Fin 100000) (c : Fin 2) :
    layer x W1 b1 W2 b2 (ix2 r c)
      = (∑ j : Fin 64, max ((∑ k : Fin 128, x (ix2 r k) * W1 (ix2 k j)) + b1 (ix2 (0 : Fin 1) j)) 0 * W2 (ix2 j c))
        + b2 (ix2 (0 : Fin 1) c) := rfl

/-! ## The reference's head, read at an index -/

section Reference
variable [Cert.ReferenceIdeal.Facts]

theorem rdot1_l0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch from List.not_mem_nil),
    dif_pos (show (0 : Fin Cert.ReferenceIdeal.S100000x128.rank) ∈ Cert.ReferenceIdeal.dot_S100000x128_S128x64_S100000x64_1_0_0_1_n_n.lhsNonContracting from List.mem_singleton.mpr rfl)]
  rfl
theorem rdot1_l1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, Nat.one_pos⟩).val :=
  Cert.ReferenceIdeal.dot_S100000x128_S128x64_S100000x64_1_0_0_1_n_n.lhsIdx_val_of_single rfl i q
theorem rdot1_r0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, Nat.one_pos⟩).val :=
  Cert.ReferenceIdeal.dot_S100000x128_S128x64_S100000x64_1_0_0_1_n_n.rhsIdx_val_of_single rfl i q
theorem rdot1_r1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch from List.not_mem_nil),
    dif_pos (show (1 : Fin Cert.ReferenceIdeal.S128x64.rank) ∈ Cert.ReferenceIdeal.dot_S100000x128_S128x64_S100000x64_1_0_0_1_n_n.rhsNonContracting from List.mem_singleton.mpr rfl)]
  rfl
/-- The contraction of a [100000,128] by a [128,64] array, re-indexed over the 128 values of the contracted axis:
    entry (r, c) is Σ_k l(r,k)·w(k,c). -/
theorem rdot1_sum (l : Cert.ReferenceIdeal.S100000x128.Idx → EReal) (w : Cert.ReferenceIdeal.S128x64.Idx → EReal) (r : Fin 100000) (c : Fin 64) :
    ∑ q : Cert.ReferenceIdeal.dot_S100000x128_S128x64_S100000x64_1_0_0_1_n_n.contr.Idx, l (Cert.ReferenceIdeal.dot_S100000x128_S128x64_S100000x64_1_0_0_1_n_n.lhsIdx (ix2 r c) q) * w (Cert.ReferenceIdeal.dot_S100000x128_S128x64_S100000x64_1_0_0_1_n_n.rhsIdx (ix2 r c) q)
      = ∑ k : Fin 128, l (ix2 r k) * w (ix2 k c) := by
  rw [← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r c) ((contrEquiv1 Cert.ReferenceIdeal.dot_S100000x128_S128x64_S100000x64_1_0_0_1_n_n 128 rfl rfl).symm k) = ix2 r k := funext fun a => Fin.ext (by
    match a with
    | ⟨0, _⟩ => exact rdot1_l0 _ _
    | ⟨1, _⟩ => exact (rdot1_l1 _ _).trans hk)
  have er : Cert.ReferenceIdeal.dot_S100000x128_S128x64_S100000x64_1_0_0_1_n_n.rhsIdx (ix2 r c) ((contrEquiv1 Cert.ReferenceIdeal.dot_S100000x128_S128x64_S100000x64_1_0_0_1_n_n 128 rfl rfl).symm k) = ix2 k c := funext fun a => Fin.ext (by
    match a with
    | ⟨0, _⟩ => exact (rdot1_r0 _ _).trans hk
    | ⟨1, _⟩ => exact rdot1_r1 _ _)
  rw [el, er]

theorem rdot2_l0 (i : Cert.ReferenceIdeal.S100000x2.Idx) (q : Cert.ReferenceIdeal.dot_S100000x64_S64x2_S100000x2_1_0_0_1_n_n.contr.Idx) :
    (Cert.ReferenceIdeal.dot_S100000x64_S64x2_S100000x2_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x2_S100000x2_1_0_0_1_n_n.lhsBatch from List.not_mem_nil),
    dif_pos (show (0 : Fin Cert.ReferenceIdeal.S100000x64.rank) ∈ Cert.ReferenceIdeal.dot_S100000x64_S64x2_S100000x2_1_0_0_1_n_n.lhsNonContracting from List.mem_singleton.mpr rfl)]
  rfl
theorem rdot2_l1 (i : Cert.ReferenceIdeal.S100000x2.Idx) (q : Cert.ReferenceIdeal.dot_S100000x64_S64x2_S100000x2_1_0_0_1_n_n.contr.Idx) :
    (Cert.ReferenceIdeal.dot_S100000x64_S64x2_S100000x2_1_0_0_1_n_n.lhsIdx i q 1).val = (q ⟨0, Nat.one_pos⟩).val :=
  Cert.ReferenceIdeal.dot_S100000x64_S64x2_S100000x2_1_0_0_1_n_n.lhsIdx_val_of_single rfl i q
theorem rdot2_r0 (i : Cert.ReferenceIdeal.S100000x2.Idx) (q : Cert.ReferenceIdeal.dot_S100000x64_S64x2_S100000x2_1_0_0_1_n_n.contr.Idx) :
    (Cert.ReferenceIdeal.dot_S100000x64_S64x2_S100000x2_1_0_0_1_n_n.rhsIdx i q 0).val = (q ⟨0, Nat.one_pos⟩).val :=
  Cert.ReferenceIdeal.dot_S100000x64_S64x2_S100000x2_1_0_0_1_n_n.rhsIdx_val_of_single rfl i q
theorem rdot2_r1 (i : Cert.ReferenceIdeal.S100000x2.Idx) (q : Cert.ReferenceIdeal.dot_S100000x64_S64x2_S100000x2_1_0_0_1_n_n.contr.Idx) :
    (Cert.ReferenceIdeal.dot_S100000x64_S64x2_S100000x2_1_0_0_1_n_n.rhsIdx i q 1).val = (i 1).val := by
  unfold DotDims.rhsIdx
  rw [dif_neg (show ¬(1 : Fin Cert.ReferenceIdeal.S64x2.rank) ∈ Cert.ReferenceIdeal.dot_S100000x64_S64x2_S100000x2_1_0_0_1_n_n.rhsBatch from List.not_mem_nil),
    dif_pos (show (1 : Fin Cert.ReferenceIdeal.S64x2.rank) ∈ Cert.ReferenceIdeal.dot_S100000x64_S64x2_S100000x2_1_0_0_1_n_n.rhsNonContracting from List.mem_singleton.mpr rfl)]
  rfl
/-- The contraction of a [100000,64] by a [64,2] array, re-indexed over the 64 values of the contracted axis:
    entry (r, c) is Σ_k l(r,k)·w(k,c). -/
theorem rdot2_sum (l : Cert.ReferenceIdeal.S100000x64.Idx → EReal) (w : Cert.ReferenceIdeal.S64x2.Idx → EReal) (r : Fin 100000) (c : Fin 2) :
    ∑ q : Cert.ReferenceIdeal.dot_S100000x64_S64x2_S100000x2_1_0_0_1_n_n.contr.Idx, l (Cert.ReferenceIdeal.dot_S100000x64_S64x2_S100000x2_1_0_0_1_n_n.lhsIdx (ix2 r c) q) * w (Cert.ReferenceIdeal.dot_S100000x64_S64x2_S100000x2_1_0_0_1_n_n.rhsIdx (ix2 r c) q)
      = ∑ k : Fin 64, l (ix2 r k) * w (ix2 k c) := by
  rw [← Equiv.sum_comp (contrEquiv1 Cert.ReferenceIdeal.dot_S100000x64_S64x2_S100000x2_1_0_0_1_n_n 64 rfl rfl).symm]
  refine Finset.sum_congr rfl fun k _ => ?_
  have hk := contrEquiv1_symm_val Cert.ReferenceIdeal.dot_S100000x64_S64x2_S100000x2_1_0_0_1_n_n 64 rfl rfl k
  have el : Cert.ReferenceIdeal.dot_S100000x64_S64x2_S100000x2_1_0_0_1_n_n.lhsIdx (ix2 r c) ((contrEquiv1 Cert.ReferenceIdeal.dot_S100000x64_S64x2_S100000x2_1_0_0_1_n_n 64 rfl rfl).symm k) = ix2 r k := funext fun a => Fin.ext (by
    match a with
    | ⟨0, _⟩ => exact rdot2_l0 _ _
    | ⟨1, _⟩ => exact (rdot2_l1 _ _).trans hk)
  have er : Cert.ReferenceIdeal.dot_S100000x64_S64x2_S100000x2_1_0_0_1_n_n.rhsIdx (ix2 r c) ((contrEquiv1 Cert.ReferenceIdeal.dot_S100000x64_S64x2_S100000x2_1_0_0_1_n_n 64 rfl rfl).symm k) = ix2 k c := funext fun a => Fin.ext (by
    match a with
    | ⟨0, _⟩ => exact (rdot2_r0 _ _).trans hk
    | ⟨1, _⟩ => exact rdot2_r1 _ _)
  rw [el, er]

/-- A [64] bias broadcast to one row and then to every row reads, at (r, j), the bias at j. -/
theorem rbias1 (b1 : Cert.ReferenceIdeal.S64.Idx → EReal) (r : Fin 100000) (j : Fin 64) :
    broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b1) (ix2 r j) = b1 (ix1 j) := by
  rw [broadcastInDim_apply _ Cert.ReferenceIdeal.Facts₀.bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])]
  exact broadcastInDim_apply _ Cert.ReferenceIdeal.Facts₀.bcast_S64_S1x64_1 b1 (ix2 (0 : Fin 1) j) (ix1 j) (fun a => match a with
    | ⟨0, _⟩ => by show j.val = if (64 : Nat) = 1 then 0 else j.val; rw [if_neg (by decide)])

/-- A [2] bias broadcast to one row and then to every row reads, at (r, c), the bias at c. -/
theorem rbias2 (b2 : Cert.ReferenceIdeal.S2.Idx → EReal) (r : Fin 100000) (c : Fin 2) :
    broadcastInDim Cert.ReferenceIdeal.S100000x2 ![0, 1] Cert.ReferenceIdeal.Facts₀.bcast_S1x2_S100000x2_0_1
        (broadcastInDim Cert.ReferenceIdeal.S1x2 ![1] Cert.ReferenceIdeal.Facts₀.bcast_S2_S1x2_1 b2) (ix2 r c) = b2 (ix1 c) := by
  rw [broadcastInDim_apply _ Cert.ReferenceIdeal.Facts₀.bcast_S1x2_S100000x2_0_1 _ (ix2 r c) (ix2 (0 : Fin 1) c) (fun a => match a with
    | ⟨0, _⟩ => by show 0 = if (1 : Nat) = 1 then 0 else r.val; rw [if_pos rfl]
    | ⟨1, _⟩ => by show c.val = if (2 : Nat) = 1 then 0 else c.val; rw [if_neg (by decide)])]
  exact broadcastInDim_apply _ Cert.ReferenceIdeal.Facts₀.bcast_S2_S1x2_1 b2 (ix2 (0 : Fin 1) c) (ix1 c) (fun a => match a with
    | ⟨0, _⟩ => by show c.val = if (2 : Nat) = 1 then 0 else c.val; rw [if_neg (by decide)])

/-- The zero scalar broadcast to every entry is the extended real 0. -/
theorem rzero (i : Cert.ReferenceIdeal.S100000x64.Idx) :
    broadcastInDim Cert.ReferenceIdeal.S100000x64 ![] Cert.ReferenceIdeal.Facts₀.bcast_S_S100000x64 (constant (F := Ideal) Cert.ReferenceIdeal.S_ .f32 0x00000000#32) i = 0 := by
  rw [broadcastInDim_apply _ Cert.ReferenceIdeal.Facts₀.bcast_S_S100000x64 _ i ix0 (fun a => a.elim0), constant_apply, Ideal.ofBits_zero_f32]

theorem host (x : FVec Ideal Cert.ReferenceIdeal.S100000x128 .f32) (W1 : FVec Ideal Cert.ReferenceIdeal.S128x64 .f32) (b1 : FVec Ideal Cert.ReferenceIdeal.S64 .f32)
    (W2 : FVec Ideal Cert.ReferenceIdeal.S64x2 .f32) (b2 : FVec Ideal Cert.ReferenceIdeal.S2 .f32) (h1 : S64.ShapeCasts S1x64) (h2 : S2.ShapeCasts S1x2) :
    addf
        (Host.dotGeneral Cert.ReferenceIdeal.dot_S100000x64_S64x2_S100000x2_1_0_0_1_n_n none
          (maximumf
            (addf (Host.dotGeneral Cert.ReferenceIdeal.dot_S100000x128_S128x64_S100000x64_1_0_0_1_n_n none x W1)
                  (broadcastInDim Cert.ReferenceIdeal.S100000x64 ![0, 1] Cert.ReferenceIdeal.Facts₀.bcast_S1x64_S100000x64_0_1
                    (broadcastInDim Cert.ReferenceIdeal.S1x64 ![1] Cert.ReferenceIdeal.Facts₀.bcast_S64_S1x64_1 b1)))
            (broadcastInDim Cert.ReferenceIdeal.S100000x64 ![] Cert.ReferenceIdeal.Facts₀.bcast_S_S100000x64 (constant Cert.ReferenceIdeal.S_ .f32 0x00000000#32)))
          W2)
        (broadcastInDim Cert.ReferenceIdeal.S100000x2 ![0, 1] Cert.ReferenceIdeal.Facts₀.bcast_S1x2_S100000x2_0_1
          (broadcastInDim Cert.ReferenceIdeal.S1x2 ![1] Cert.ReferenceIdeal.Facts₀.bcast_S2_S1x2_1 b2))
      = layer x W1 (shapeCast S1x64 b1 h1) W2 (shapeCast S1x2 b2 h2) := by
  funext i
  obtain ⟨r, c, rfl⟩ : ∃ (r : Fin 100000) (c : Fin 2), i = ix2 r c := ⟨i 0, i 1, eq_ix2 i⟩
  rw [layer_ix, addf_apply, rbias2, shapeCast_a_1a_apply]
  simp only [Host.dotGeneral]
  rw [Ideal.dotGeneral_apply, rdot2_sum]
  refine congrArg (· + b2 (ix1 c)) (Finset.sum_congr rfl fun j _ => ?_)
  rw [maximumf_apply, addf_apply, rbias1, rzero, shapeCast_a_1a_apply, Ideal.dotGeneral_apply, rdot1_sum]

end Reference

/-! ## The kernel's payload, read at an index -/

theorem kdot1_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch from List.not_mem_nil),
    dif_pos (show (0 : Fin S2000x128.rank) ∈ dot_S2000x128_S128x64_S2000x64_1_0_0_1_n_n.lhsNonContracting from List.mem_singleton.mpr rfl)]
  rfl
theorem kdot1_l1 (i : S2000x64.Idx) (q : dot_S2000x128_S128x64_S2000x64_1_0_0_1_n_n.contr.Idx) :
    (dot_S2000x128_S128x64_S2000x64_1_0_0_1_n_n.lhsIdx i q 1).val = (q ⟨0, Nat.one_pos⟩).val :=
  dot_S2000x128_S128x64_S2000x64_1_0_0_1_n_n.lhsIdx_val_of_single rfl i q
theorem kdot1_r0 (i : S2000x64.Idx) (q : dot_S2000x128_S128x64_S2000x64_1_0_0_1_n_n.contr.Idx) :
    (dot_S2000x128_S128x64_S2000x64_1_0_0_1_n_n.rhsIdx i q 0).val = (q ⟨0, Nat.one_pos⟩).val :=
  dot_S2000x128_S128x64_S2000x64_1_0_0_1_n_n.rhsIdx_val_of_single rfl i q
theorem kdot1_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch from List.not_mem_nil),
    dif_pos (show (1 : Fin S128x64.rank) ∈ dot_S2000x128_S128x64_S2000x64_1_0_0_1_n_n.rhsNonContracting from List.mem_singleton.mpr rfl)]
  rfl
/-- The contraction of a [2000,128] by a [128,64] array, re-indexed over the 128 values of the contracted axis:
    entry (r, c) is Σ_k l(r,k)·w(k,c). -/
theorem kdot1_sum (l : S2000x128.Idx → EReal) (w : S128x64.Idx → EReal) (r : Fin 2000) (c : Fin 64) :
    ∑ q : dot_S2000x128_S128x64_S2000x64_1_0_0_1_n_n.contr.Idx, l (dot_S2000x128_S128x64_S2000x64_1_0_0_1_n_n.lhsIdx (ix2 r c) q) * w (dot_S2000x128_S128x64_S2000x64_1_0_0_1_n_n.rhsIdx (ix2 r c) q)
      = ∑ k : Fin 128, l (ix2 r k) * w (ix2 k c) := by
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r c) ((contrEquiv1 dot_S2000x128_S128x64_S2000x64_1_0_0_1_n_n 128 rfl rfl).symm k) = ix2 r k := funext fun a => Fin.ext (by
    match a with
    | ⟨0, _⟩ => exact kdot1_l0 _ _
    | ⟨1, _⟩ => exact (kdot1_l1 _ _).trans hk)
  have er : dot_S2000x128_S128x64_S2000x64_1_0_0_1_n_n.rhsIdx (ix2 r c) ((contrEquiv1 dot_S2000x128_S128x64_S2000x64_1_0_0_1_n_n 128 rfl rfl).symm k) = ix2 k c := funext fun a => Fin.ext (by
    match a with
    | ⟨0, _⟩ => exact (kdot1_r0 _ _).trans hk
    | ⟨1, _⟩ => exact kdot1_r1 _ _)
  rw [el, er]

theorem kdot2_l0 (i : S2000x2.Idx) (q : dot_S2000x64_S64x2_S2000x2_1_0_0_1_n_n.contr.Idx) :
    (dot_S2000x64_S64x2_S2000x2_1_0_0_1_n_n.lhsIdx i q 0).val = (i 0).val := by
  unfold DotDims.lhsIdx
  rw [dif_neg (show ¬(0 : Fin S2000x64.rank) ∈ dot_S2000x64_S64x2_S2000x2_1_0_0_1_n_n.lhsBatch from List.not_mem_nil),
    dif_pos (show (0 : Fin S2000x64.rank) ∈ dot_S2000x64_S64x2_S2000x2_1_0_0_1_n_n.lhsNonContracting from List.mem_singleton.mpr rfl)]
  rfl
theorem kdot2_l1 (i : S2000x2.Idx) (q : dot_S2000x64_S64x2_S2000x2_1_0_0_1_n_n.contr.Idx) :
    (dot_S2000x64_S64x2_S2000x2_1_0_0_1_n_n.lhsIdx i q 1).val = (q ⟨0, Nat.one_pos⟩).val :=
  dot_S2000x64_S64x2_S2000x2_1_0_0_1_n_n.lhsIdx_val_of_single rfl i q
theorem kdot2_r0 (i : S2000x2.Idx) (q : dot_S2000x64_S64x2_S2000x2_1_0_0_1_n_n.contr.Idx) :
    (dot_S2000x64_S64x2_S2000x2_1_0_0_1_n_n.rhsIdx i q 0).val = (q ⟨0, Nat.one_pos⟩).val :=
  dot_S2000x64_S64x2_S2000x2_1_0_0_1_n_n.rhsIdx_val_of_single rfl i q
theorem kdot2_r1 (i : S2000x2.Idx) (q : dot_S2000x64_S64x2_S2000x2_1_0_0_1_n_n.contr.Idx) :
    (dot_S2000x64_S64x2_S2000x2_1_0_0_1_n_n.rhsIdx i q 1).val = (i 1).val := by
  unfold DotDims.rhsIdx
  rw [dif_neg (show ¬(1 : Fin S64x2.rank) ∈ dot_S2000x64_S64x2_S2000x2_1_0_0_1_n_n.rhsBatch from List.not_mem_nil),
    dif_pos (show (1 : Fin S64x2.rank) ∈ dot_S2000x64_S64x2_S2000x2_1_0_0_1_n_n.rhsNonContracting from List.mem_singleton.mpr rfl)]
  rfl
/-- The contraction of a [2000,64] by a [64,2] array, re-indexed over the 64 values of the contracted axis:
    entry (r, c) is Σ_k l(r,k)·w(k,c). -/
theorem kdot2_sum (l : S2000x64.Idx → EReal) (w : S64x2.Idx → EReal) (r : Fin 2000) (c : Fin 2) :
    ∑ q : dot_S2000x64_S64x2_S2000x2_1_0_0_1_n_n.contr.Idx, l (dot_S2000x64_S64x2_S2000x2_1_0_0_1_n_n.lhsIdx (ix2 r c) q) * w (dot_S2000x64_S64x2_S2000x2_1_0_0_1_n_n.rhsIdx (ix2 r c) q)
      = ∑ k : Fin 64, l (ix2 r k) * w (ix2 k c) := by
  rw [← Equiv.sum_comp (contrEquiv1 dot_S2000x64_S64x2_S2000x2_1_0_0_1_n_n 64 rfl rfl).symm]
  refine Finset.sum_congr rfl fun k _ => ?_
  have hk := contrEquiv1_symm_val dot_S2000x64_S64x2_S2000x2_1_0_0_1_n_n 64 rfl rfl k
  have el : dot_S2000x64_S64x2_S2000x2_1_0_0_1_n_n.lhsIdx (ix2 r c) ((contrEquiv1 dot_S2000x64_S64x2_S2000x2_1_0_0_1_n_n 64 rfl rfl).symm k) = ix2 r k := funext fun a => Fin.ext (by
    match a with
    | ⟨0, _⟩ => exact kdot2_l0 _ _
    | ⟨1, _⟩ => exact (kdot2_l1 _ _).trans hk)
  have er : dot_S2000x64_S64x2_S2000x2_1_0_0_1_n_n.rhsIdx (ix2 r c) ((contrEquiv1 dot_S2000x64_S64x2_S2000x2_1_0_0_1_n_n 64 rfl rfl).symm k) = ix2 k c := funext fun a => Fin.ext (by
    match a with
    | ⟨0, _⟩ => exact (kdot2_r0 _ _).trans hk
    | ⟨1, _⟩ => exact kdot2_r1 _ _)
  rw [el, er]

/-- The body's one store, at row r and column c of its block of 2000 rows: the two-layer head of the block's rows. -/
theorem pay_ix (x : Vec Ideal S2000x128 .f32) (W1 : Vec Ideal S128x64 .f32) (W2 : Vec Ideal S64x2 .f32)
    (b1 : Vec Ideal S1x64 .f32) (b2 : Vec Ideal S1x2 .f32) (r : Fin 2000) (c : Fin 2) :
    Gen.k4_pay1 (F := Ideal) x W1 W2 b1 b2 (ix2 r c)
      = (∑ j : Fin 64, max ((∑ k : Fin 128, x (ix2 r k) * W1 (ix2 k j)) + b1 (ix2 (0 : Fin 1) j)) 0 * W2 (ix2 j c))
        + b2 (ix2 (0 : Fin 1) c) := by
  unfold Gen.k4_pay1
  simp only [shapeCast_self]
  rw [addf_apply, broadcastTo_1b_ab_apply]
  simp only [matmul]
  rw [Ideal.matmul_constant_zero_apply, kdot2_sum]
  refine congrArg (· + b2 (ix2 (0 : Fin 1) c)) (Finset.sum_congr rfl fun j _ => ?_)
  rw [truncf_apply, truncf_apply, maximumf_apply, addf_apply, broadcastTo_1b_ab_apply, broadcast_apply,
    Ideal.matmul_constant_zero_apply, kdot1_sum]
  simp only [truncf_apply, Ideal.ofBits_def, Ideal.ofBits_zero_f32]

/-! ## From blocks to the array -/

/-- A block of 2000 rows whose x row r is row R of the array and whose parameters are the whole parameter
    arrays: its payload at (r, c) is the head at (R, c). -/
theorem block_eq (X : S100000x128.Idx → EReal) (A1 : S128x64.Idx → EReal) (B1 : S1x64.Idx → EReal)
    (A2 : S64x2.Idx → EReal) (B2 : S1x2.Idx → EReal)
    (x : Vec Ideal S2000x128 .f32) (w1 : Vec Ideal S128x64 .f32) (w2 : Vec Ideal S64x2 .f32)
    (bb1 : Vec Ideal S1x64 .f32) (bb2 : Vec Ideal S1x2 .f32) (r : Fin 2000) (c : Fin 2) (R : Fin 100000)
    (hx : ∀ k : Fin 128, x (ix2 r k) = X (ix2 R k))
    (hw1 : ∀ (k : Fin 128) (j : Fin 64), w1 (ix2 k j) = A1 (ix2 k j))
    (hw2 : ∀ (j : Fin 64), w2 (ix2 j c) = A2 (ix2 j c))
    (hb1 : ∀ j : Fin 64, bb1 (ix2 (0 : Fin 1) j) = B1 (ix2 (0 : Fin 1) j))
    (hb2 : bb2 (ix2 (0 : Fin 1) c) = B2 (ix2 (0 : Fin 1) c)) :
    Gen.k4_pay1 (F := Ideal) x w1 w2 bb1 bb2 (ix2 r c) = layer X A1 B1 A2 B2 (ix2 R c) := by
  rw [pay_ix, layer_ix, hb2]
  refine congrArg (· + B2 (ix2 (0 : Fin 1) c)) (Finset.sum_congr rfl fun j _ => ?_)
  rw [hw2, hb1]
  refine congrArg (fun z => max (z + B1 (ix2 (0 : Fin 1) j)) 0 * A2 (ix2 j c)) (Finset.sum_congr rfl fun k _ => ?_)
  rw [hx, hw1]

section Array
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 50 points: the x window and the output window sit at block t on the
    rows and block 0 on the columns; the four parameter windows are their whole arrays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of the head of the arrays as the region finds them. -/
theorem flushed_eq (t : Fin cfg4.N) :
    (Gen.dat4 (F := Ideal) V c).flushed 5 t
      = ((cfg4.win 5).blk t).view.read (Elt Ideal)
          (layer (V c main_v83) (V c main_arg18) (V c main_v84) (V c main_arg20) (V c main_v85)) := by
  show (cfg4.win 5).cut (grid4.coords t) ((Gen.dat4 (F := Ideal) V c).after 5 t) = _
  rw [Gen.after4_5]
  unfold Gen.out4_5
  rw [View.canon_unit_zero hz]
  simp only [View.ld_unit_zero (S := S2000x128) hz, View.ld_unit_zero (S := S128x64) hz, View.ld_unit_zero (S := S64x2) hz,
    View.ld_unit_zero (S := S1x64) hz, View.ld_unit_zero (S := S1x2) hz]
  obtain ⟨e00, e01, e10, e11, e20, e21, e30, e31, e40, e41, e50, e51⟩ := idx_facts t
  have ht : t.val < 50 := t.isLt
  funext y
  obtain ⟨r, cc, rfl⟩ : ∃ (r : Fin 2000) (cc : Fin 2), y = ix2 r cc := ⟨y 0, y 1, eq_ix2 y⟩
  have hR : t.val * 2000 + r.val < 100000 := by have := r.isLt; omega
  refine (block_eq (V c main_v83) (V c main_arg18) (V c main_v84) (V c main_arg20) (V c main_v85)
    (Gen.iblk4 V c 0 t) (Gen.iblk4 V c 1 t) (Gen.iblk4 V c 3 t) (Gen.iblk4 V c 2 t) (Gen.iblk4 V c 4 t) r cc
    ⟨t.val * 2000 + r.val, hR⟩ ?_ ?_ ?_ ?_ ?_).trans ?_
  · intro k
    show V c main_v83 (((cfg4.win 0).blk t).view.emb (ix2 r k)) = _
    refine congrArg (V c main_v83) (funext fun a => Fin.ext ?_)
    match a with
    | ⟨0, _⟩ => show win4_0.index t (0 : Fin 2) * 2000 + 1 * r.val = t.val * 2000 + r.val; rw [e00]; omega
    | ⟨1, _⟩ => show win4_0.index t (1 : Fin 2) * 128 + 1 * k.val = k.val; rw [e01]; omega
  · intro k j
    show V c main_arg18 (((cfg4.win 1).blk t).view.emb (ix2 k j)) = _
    refine congrArg (V c main_arg18) (funext fun a => Fin.ext ?_)
    match a with
    | ⟨0, _⟩ => show win4_1.index t (0 : Fin 2) * 128 + 1 * k.val = k.val; rw [e10]; omega
    | ⟨1, _⟩ => show win4_1.index t (1 : Fin 2) * 64 + 1 * j.val = j.val; rw [e11]; omega
  · intro j
    show V c main_arg20 (((cfg4.win 3).blk t).view.emb (ix2 j cc)) = _
    refine congrArg (V c main_arg20) (funext fun a => Fin.ext ?_)
    match a with
    | ⟨0, _⟩ => show win4_3.index t (0 : Fin 2) * 64 + 1 * j.val = j.val; rw [e30]; omega
    | ⟨1, _⟩ => show win4_3.index t (1 : Fin 2) * 2 + 1 * cc.val = cc.val; rw [e31]; omega
  · intro j
    show V c main_v84 (((cfg4.win 2).blk t).view.emb (ix2 (0 : Fin 1) j)) = _
    refine congrArg (V c main_v84) (funext fun a => Fin.ext ?_)
    match a with
    | ⟨0, _⟩ => show win4_2.index t (0 : Fin 2) * 1 + 1 * 0 = 0; rw [e20]
    | ⟨1, _⟩ => show win4_2.index t (1 : Fin 2) * 64 + 1 * j.val = j.val; rw [e21]; omega
  · show V c main_v85 (((cfg4.win 4).blk t).view.emb (ix2 (0 : Fin 1) cc)) = _
    refine congrArg (V c main_v85) (funext fun a => Fin.ext ?_)
    match a with
    | ⟨0, _⟩ => show win4_4.index t (0 : Fin 2) * 1 + 1 * 0 = 0; rw [e40]
    | ⟨1, _⟩ => show win4_4.index t (1 : Fin 2) * 2 + 1 * cc.val = cc.val; rw [e41]; omega
  · show layer _ _ _ _ _ _ = layer _ _ _ _ _ (((cfg4.win 5).blk t).view.emb (ix2 r cc))
    refine congrArg (layer (V c main_v83) (V c main_arg18) (V c main_v84) (V c main_arg20) (V c main_v85)) (funext fun a => Fin.ext ?_)
    match a with
    | ⟨0, _⟩ => show t.val * 2000 + r.val = win4_5.index t (0 : Fin 2) * 2000 + 1 * r.val; rw [e50]; omega
    | ⟨1, _⟩ => show cc.val = win4_5.index t (1 : Fin 2) * 2 + 1 * cc.val; rw [e51]; omega

/-- An index of the array is in point t's block iff each coordinate is in the block's range on its axis. -/
theorem mem_blk (t : Fin cfg4.N) (i : S100000x2.Idx) :
    i ∈ ((cfg4.win 5).blk t).view.set ↔ ∀ a : Fin 2, win4_5.index t a * S2000x2.size a ≤ (i a).val ∧ (i a).val < win4_5.index t a * S2000x2.size a + S2000x2.size a := by
  show i ∈ ((View.whole main_v86).slice (win4_5.rect t)).set ↔ _
  rw [View.set_slice_whole, Rect.mem_set_unit]
  exact Iff.rfl

/-- Every row is in the block of the point its number divided by 2000 names. -/
theorem covered (i : S100000x2.Idx) :
    ∃ t : Fin cfg4.N, (cfg4.win 5).flush t = true ∧ i ∈ ((cfg4.win 5).blk t).view.set := by
  have hi0 : (i 0).val < 100000 := (i 0).isLt
  have hi1 : (i 1).val < 2 := (i 1).isLt
  have hN : cfg4.N = 50 := Gen.N_4
  refine ⟨⟨(i 0).val / 2000, by rw [hN]; omega⟩, Gen.flush4_5 _, ?_⟩
  rw [mem_blk]
  obtain ⟨e00, e01, e10, e11, e20, e21, e30, e31, e40, e41, e50, e51⟩ := idx_facts ⟨(i 0).val / 2000, by rw [hN]; omega⟩
  intro a
  match a with
  | ⟨0, _⟩ =>
    show win4_5.index _ (0 : Fin 2) * 2000 ≤ (i 0).val ∧ (i 0).val < win4_5.index _ (0 : Fin 2) * 2000 + 2000
    rw [e50]; show (i 0).val / 2000 * 2000 ≤ (i 0).val ∧ (i 0).val < (i 0).val / 2000 * 2000 + 2000; omega
  | ⟨1, _⟩ =>
    show win4_5.index _ (1 : Fin 2) * 2 ≤ (i 1).val ∧ (i 1).val < win4_5.index _ (1 : Fin 2) * 2 + 2
    rw [e51]; omega

theorem array :
    (Gen.dat4 (F := Ideal) V c).arrAt 5 cfg4.N
      = layer (V c main_v83) (V c main_arg18) (V c main_v84) (V c main_arg20) (V c main_v85) :=
  (Gen.dat4 (F := Ideal) V c).arrAt_eq_of_cover 5 _ (fun t _ => flushed_eq V c t) (covered)

end Array

end Cert.KernelIdeal.Mlp4
end
-- ==== Proof.Mlp5.lean ====
import proofs.«180647_j29807073034770_1_alg».proof.Proof.Gen.KernelIdeal.Frame
import proofs.«180647_j29807073034770_1_alg».proof.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Mlp5

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- One two-layer head read at an index: entry (i0,i1) is
    Σ_j max( Σ_k x(i0,k)·W1(k,j) + b1(0,j) , 0 )·W2(j,i1) + b2(0,i1) on the extended reals. -/
def layer (x : S50000x128.Idx → EReal) (W1 : S128x64.Idx → EReal) (b1 : S1x64.Idx → EReal)
    (W2 : S64x2.Idx → EReal) (b2 : S1x2.Idx → EReal) : S50000x2.Idx → EReal := fun i =>
  (∑ j : Fin 64, max ((∑ k : Fin 128, x (ix2 (i 0) k) * W1 (ix2 k j)) + b1 (ix2 (0 : Fin 1) j)) 0 * W2 (ix2 j (i 1)))
    + b2 (ix2 (0 : Fin 1) (i 1))

/-- The head at an index given by its two coordinates. -/
theorem layer_ix (x : S50000x128.Idx → EReal) (W1 : S128x64.Idx → EReal) (b1 : S1x64.Idx → EReal)
    (W2 : S64x2.Idx → EReal) (b2 : S1x2.Idx → EReal) (r : Fin 50000) (c : Fin 2) :
    layer x W1 b1 W2 b2 (ix2 r c)
      = (∑ j : Fin 64, max ((∑ k : Fin 128, x (ix2 r k) * W1 (ix2 k j)) + b1 (ix2 (0 : Fin 1) j)) 0 * W2 (ix2 j c))
        + b2 (ix2 (0 : Fin 1) c) := rfl

/-! ## The reference's head, read at an index -/

section Reference
variable [Cert.ReferenceIdeal.Facts]

theorem rdot1_l0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch from List.not_mem_nil),
    dif_pos (show (0 : Fin Cert.ReferenceIdeal.S50000x128.rank) ∈ Cert.ReferenceIdeal.dot_S50000x128_S128x64_S50000x64_1_0_0_1_n_n.lhsNonContracting from List.mem_singleton.mpr rfl)]
  rfl
theorem rdot1_l1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, Nat.one_pos⟩).val :=
  Cert.ReferenceIdeal.dot_S50000x128_S128x64_S50000x64_1_0_0_1_n_n.lhsIdx_val_of_single rfl i q
theorem rdot1_r0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, Nat.one_pos⟩).val :=
  Cert.ReferenceIdeal.dot_S50000x128_S128x64_S50000x64_1_0_0_1_n_n.rhsIdx_val_of_single rfl i q
theorem rdot1_r1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch from List.not_mem_nil),
    dif_pos (show (1 : Fin Cert.ReferenceIdeal.S128x64.rank) ∈ Cert.ReferenceIdeal.dot_S50000x128_S128x64_S50000x64_1_0_0_1_n_n.rhsNonContracting from List.mem_singleton.mpr rfl)]
  rfl
/-- The contraction of a [50000,128] by a [128,64] array, re-indexed over the 128 values of the contracted axis:
    entry (r, c) is Σ_k l(r,k)·w(k,c). -/
theorem rdot1_sum (l : Cert.ReferenceIdeal.S50000x128.Idx → EReal) (w : Cert.ReferenceIdeal.S128x64.Idx → EReal) (r : Fin 50000) (c : Fin 64) :
    ∑ q : Cert.ReferenceIdeal.dot_S50000x128_S128x64_S50000x64_1_0_0_1_n_n.contr.Idx, l (Cert.ReferenceIdeal.dot_S50000x128_S128x64_S50000x64_1_0_0_1_n_n.lhsIdx (ix2 r c) q) * w (Cert.ReferenceIdeal.dot_S50000x128_S128x64_S50000x64_1_0_0_1_n_n.rhsIdx (ix2 r c) q)
      = ∑ k : Fin 128, l (ix2 r k) * w (ix2 k c) := by
  rw [← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 r c) ((contrEquiv1 Cert.ReferenceIdeal.dot_S50000x128_S128x64_S50000x64_1_0_0_1_n_n 128 rfl rfl).symm k) = ix2 r k := funext fun a => Fin.ext (by
    match a with
    | ⟨0, _⟩ => exact rdot1_l0 _ _
    | ⟨1, _⟩ => exact (rdot1_l1 _ _).trans hk)
  have er : Cert.ReferenceIdeal.dot_S50000x128_S128x64_S50000x64_1_0_0_1_n_n.rhsIdx (ix2 r c) ((contrEquiv1 Cert.ReferenceIdeal.dot_S50000x128_S128x64_S50000x64_1_0_0_1_n_n 128 rfl rfl).symm k) = ix2 k c := funext fun a => Fin.ext (by
    match a with
    | ⟨0, _⟩ => exact (rdot1_r0 _ _).trans hk
    | ⟨1, _⟩ => exact rdot1_r1 _ _)
  rw [el, er]

theorem rdot2_l0 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x2_S50000x2_1_0_0_1_n_n.lhsBatch from List.not_mem_nil),
    dif_pos (show (0 : Fin Cert.ReferenceIdeal.S50000x64.rank) ∈ Cert.ReferenceIdeal.dot_S50000x64_S64x2_S50000x2_1_0_0_1_n_n.lhsNonContracting from List.mem_singleton.mpr rfl)]
  rfl
theorem rdot2_l1 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.lhsIdx i q 1).val = (q ⟨0, Nat.one_pos⟩).val :=
  Cert.ReferenceIdeal.dot_S50000x64_S64x2_S50000x2_1_0_0_1_n_n.lhsIdx_val_of_single rfl i q
theorem rdot2_r0 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.rhsIdx i q 0).val = (q ⟨0, Nat.one_pos⟩).val :=
  Cert.ReferenceIdeal.dot_S50000x64_S64x2_S50000x2_1_0_0_1_n_n.rhsIdx_val_of_single rfl i q
theorem rdot2_r1 (i : Cert.ReferenceIdeal.S50000x2.Idx) (q : Cert.ReferenceIdeal.dot_S50000x64_S64x2_S50000x2_1_0_0_1_n_n.contr.Idx) :
    (Cert.ReferenceIdeal.dot_S50000x64_S64x2_S50000x2_1_0_0_1_n_n.rhsIdx i q 1).val = (i 1).val := by
  unfold DotDims.rhsIdx
  rw [dif_neg (show ¬(1 : Fin Cert.ReferenceIdeal.S64x2.rank) ∈ Cert.ReferenceIdeal.dot_S50000x64_S64x2_S50000x2_1_0_0_1_n_n.rhsBatch from List.not_mem_nil),
    dif_pos (show (1 : Fin Cert.ReferenceIdeal.S64x2.rank) ∈ Cert.ReferenceIdeal.dot_S50000x64_S64x2_S50000x2_1_0_0_1_n_n.rhsNonContracting from List.mem_singleton.mpr rfl)]
  rfl
/-- The contraction of a [50000,64] by a [64,2] array, re-indexed over the 64 values of the contracted axis:
    entry (r, c) is Σ_k l(r,k)·w(k,c). -/
theorem rdot2_sum (l : Cert.ReferenceIdeal.S50000x64.Idx → EReal) (w : Cert.ReferenceIdeal.S64x2.Idx → EReal) (r : Fin 50000) (c : Fin 2) :
    ∑ q : Cert.ReferenceIdeal.dot_S50000x64_S64x2_S50000x2_1_0_0_1_n_n.contr.Idx, l (Cert.ReferenceIdeal.dot_S50000x64_S64x2_S50000x2_1_0_0_1_n_n.lhsIdx (ix2 r c) q) * w (Cert.ReferenceIdeal.dot_S50000x64_S64x2_S50000x2_1_0_0_1_n_n.rhsIdx (ix2 r c) q)
      = ∑ k : Fin 64, l (ix2 r k) * w (ix2 k c) := by
  rw [← Equiv.sum_comp (contrEquiv1 Cert.ReferenceIdeal.dot_S50000x64_S64x2_S50000x2_1_0_0_1_n_n 64 rfl rfl).symm]
  refine Finset.sum_congr rfl fun k _ => ?_
  have hk := contrEquiv1_symm_val Cert.ReferenceIdeal.dot_S50000x64_S64x2_S50000x2_1_0_0_1_n_n 64 rfl rfl k
  have el : Cert.ReferenceIdeal.dot_S50000x64_S64x2_S50000x2_1_0_0_1_n_n.lhsIdx (ix2 r c) ((contrEquiv1 Cert.ReferenceIdeal.dot_S50000x64_S64x2_S50000x2_1_0_0_1_n_n 64 rfl rfl).symm k) = ix2 r k := funext fun a => Fin.ext (by
    match a with
    | ⟨0, _⟩ => exact rdot2_l0 _ _
    | ⟨1, _⟩ => exact (rdot2_l1 _ _).trans hk)
  have er : Cert.ReferenceIdeal.dot_S50000x64_S64x2_S50000x2_1_0_0_1_n_n.rhsIdx (ix2 r c) ((contrEquiv1 Cert.ReferenceIdeal.dot_S50000x64_S64x2_S50000x2_1_0_0_1_n_n 64 rfl rfl).symm k) = ix2 k c := funext fun a => Fin.ext (by
    match a with
    | ⟨0, _⟩ => exact (rdot2_r0 _ _).trans hk
    | ⟨1, _⟩ => exact rdot2_r1 _ _)
  rw [el, er]

/-- A [64] bias broadcast to one row and then to every row reads, at (r, j), the bias at j. -/
theorem rbias1 (b1 : Cert.ReferenceIdeal.S64.Idx → EReal) (r : Fin 50000) (j : Fin 64) :
    broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 b1) (ix2 r j) = b1 (ix1 j) := by
  rw [broadcastInDim_apply _ Cert.ReferenceIdeal.Facts₀.bcast_S1x64_S50000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; have := j.isLt; split <;> omega)]
  exact broadcastInDim_apply _ Cert.ReferenceIdeal.Facts₀.bcast_S64_S1x64_1 b1 (ix2 (0 : Fin 1) j) (ix1 j) (fun a => match a with
    | ⟨0, _⟩ => by show j.val = if (64 : Nat) = 1 then 0 else j.val; have := j.isLt; split <;> omega)

/-- A [2] bias broadcast to one row and then to every row reads, at (r, c), the bias at c. -/
theorem rbias2 (b2 : Cert.ReferenceIdeal.S2.Idx → EReal) (r : Fin 50000) (c : Fin 2) :
    broadcastInDim Cert.ReferenceIdeal.S50000x2 ![0, 1] Cert.ReferenceIdeal.Facts₀.bcast_S1x2_S50000x2_0_1
        (broadcastInDim Cert.ReferenceIdeal.S1x2 ![1] Cert.ReferenceIdeal.Facts₀.bcast_S2_S1x2_1 b2) (ix2 r c) = b2 (ix1 c) := by
  rw [broadcastInDim_apply _ Cert.ReferenceIdeal.Facts₀.bcast_S1x2_S50000x2_0_1 _ (ix2 r c) (ix2 (0 : Fin 1) c) (fun a => match a with
    | ⟨0, _⟩ => by show 0 = if (1 : Nat) = 1 then 0 else r.val; rw [if_pos rfl]
    | ⟨1, _⟩ => by show c.val = if (2 : Nat) = 1 then 0 else c.val; have := c.isLt; split <;> omega)]
  exact broadcastInDim_apply _ Cert.ReferenceIdeal.Facts₀.bcast_S2_S1x2_1 b2 (ix2 (0 : Fin 1) c) (ix1 c) (fun a => match a with
    | ⟨0, _⟩ => by show c.val = if (2 : Nat) = 1 then 0 else c.val; have := c.isLt; split <;> omega)

/-- The zero scalar broadcast to every entry is the extended real 0. -/
theorem rzero (i : Cert.ReferenceIdeal.S50000x64.Idx) :
    broadcastInDim Cert.ReferenceIdeal.S50000x64 ![] Cert.ReferenceIdeal.Facts₀.bcast_S_S50000x64 (constant (F := Ideal) Cert.ReferenceIdeal.S_ .f32 0x00000000#32) i = 0 := by
  rw [broadcastInDim_apply _ Cert.ReferenceIdeal.Facts₀.bcast_S_S50000x64 _ i ix0 (fun a => a.elim0), constant_apply, Ideal.ofBits_zero_f32]

theorem host (x : FVec Ideal Cert.ReferenceIdeal.S50000x128 .f32) (W1 : FVec Ideal Cert.ReferenceIdeal.S128x64 .f32) (b1 : FVec Ideal Cert.ReferenceIdeal.S64 .f32)
    (W2 : FVec Ideal Cert.ReferenceIdeal.S64x2 .f32) (b2 : FVec Ideal Cert.ReferenceIdeal.S2 .f32) (h1 : S64.ShapeCasts S1x64) (h2 : S2.ShapeCasts S1x2) :
    addf
        (Host.dotGeneral Cert.ReferenceIdeal.dot_S50000x64_S64x2_S50000x2_1_0_0_1_n_n none
          (maximumf
            (addf (Host.dotGeneral Cert.ReferenceIdeal.dot_S50000x128_S128x64_S50000x64_1_0_0_1_n_n none x W1)
                  (broadcastInDim Cert.ReferenceIdeal.S50000x64 ![0, 1] Cert.ReferenceIdeal.Facts₀.bcast_S1x64_S50000x64_0_1
                    (broadcastInDim Cert.ReferenceIdeal.S1x64 ![1] Cert.ReferenceIdeal.Facts₀.bcast_S64_S1x64_1 b1)))
            (broadcastInDim Cert.ReferenceIdeal.S50000x64 ![] Cert.ReferenceIdeal.Facts₀.bcast_S_S50000x64 (constant (F := Ideal) Cert.ReferenceIdeal.S_ .f32 0x00000000#32)))
          W2)
        (broadcastInDim Cert.ReferenceIdeal.S50000x2 ![0, 1] Cert.ReferenceIdeal.Facts₀.bcast_S1x2_S50000x2_0_1
          (broadcastInDim Cert.ReferenceIdeal.S1x2 ![1] Cert.ReferenceIdeal.Facts₀.bcast_S2_S1x2_1 b2))
      = layer x W1 (shapeCast S1x64 b1 h1) W2 (shapeCast S1x2 b2 h2) := by
  funext i
  obtain ⟨r, c, rfl⟩ : ∃ (r : Fin 50000) (c : Fin 2), i = ix2 r c := ⟨i 0, i 1, eq_ix2 i⟩
  rw [layer_ix]
  rw [addf_apply, rbias2, shapeCast_a_1a_apply]
  simp only [Host.dotGeneral]
  rw [Ideal.dotGeneral_apply, rdot2_sum]
  refine congrArg (· + b2 (ix1 c)) (Finset.sum_congr rfl fun j _ => ?_)
  rw [maximumf_apply, addf_apply, rbias1, rzero, shapeCast_a_1a_apply, Ideal.dotGeneral_apply, rdot1_sum]

end Reference

/-! ## The kernel's payload, read at an index -/

theorem kdot1_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch from List.not_mem_nil),
    dif_pos (show (0 : Fin S2000x128.rank) ∈ dot_S2000x128_S128x64_S2000x64_1_0_0_1_n_n.lhsNonContracting from List.mem_singleton.mpr rfl)]
  rfl
theorem kdot1_l1 (i : S2000x64.Idx) (q : dot_S2000x128_S128x64_S2000x64_1_0_0_1_n_n.contr.Idx) :
    (dot_S2000x128_S128x64_S2000x64_1_0_0_1_n_n.lhsIdx i q 1).val = (q ⟨0, Nat.one_pos⟩).val :=
  dot_S2000x128_S128x64_S2000x64_1_0_0_1_n_n.lhsIdx_val_of_single rfl i q
theorem kdot1_r0 (i : S2000x64.Idx) (q : dot_S2000x128_S128x64_S2000x64_1_0_0_1_n_n.contr.Idx) :
    (dot_S2000x128_S128x64_S2000x64_1_0_0_1_n_n.rhsIdx i q 0).val = (q ⟨0, Nat.one_pos⟩).val :=
  dot_S2000x128_S128x64_S2000x64_1_0_0_1_n_n.rhsIdx_val_of_single rfl i q
theorem kdot1_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch from List.not_mem_nil),
    dif_pos (show (1 : Fin S128x64.rank) ∈ dot_S2000x128_S128x64_S2000x64_1_0_0_1_n_n.rhsNonContracting from List.mem_singleton.mpr rfl)]
  rfl
/-- The contraction of a [2000,128] by a [128,64] array, re-indexed over the 128 values of the contracted axis:
    entry (r, c) is Σ_k l(r,k)·w(k,c). -/
theorem kdot1_sum (l : S2000x128.Idx → EReal) (w : S128x64.Idx → EReal) (r : Fin 2000) (c : Fin 64) :
    ∑ q : dot_S2000x128_S128x64_S2000x64_1_0_0_1_n_n.contr.Idx, l (dot_S2000x128_S128x64_S2000x64_1_0_0_1_n_n.lhsIdx (ix2 r c) q) * w (dot_S2000x128_S128x64_S2000x64_1_0_0_1_n_n.rhsIdx (ix2 r c) q)
      = ∑ k : Fin 128, l (ix2 r k) * w (ix2 k c) := by
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r c) ((contrEquiv1 dot_S2000x128_S128x64_S2000x64_1_0_0_1_n_n 128 rfl rfl).symm k) = ix2 r k := funext fun a => Fin.ext (by
    match a with
    | ⟨0, _⟩ => exact kdot1_l0 _ _
    | ⟨1, _⟩ => exact (kdot1_l1 _ _).trans hk)
  have er : dot_S2000x128_S128x64_S2000x64_1_0_0_1_n_n.rhsIdx (ix2 r c) ((contrEquiv1 dot_S2000x128_S128x64_S2000x64_1_0_0_1_n_n 128 rfl rfl).symm k) = ix2 k c := funext fun a => Fin.ext (by
    match a with
    | ⟨0, _⟩ => exact (kdot1_r0 _ _).trans hk
    | ⟨1, _⟩ => exact kdot1_r1 _ _)
  rw [el, er]

theorem kdot2_l0 (i : S2000x2.Idx) (q : dot_S2000x64_S64x2_S2000x2_1_0_0_1_n_n.contr.Idx) :
    (dot_S2000x64_S64x2_S2000x2_1_0_0_1_n_n.lhsIdx i q 0).val = (i 0).val := by
  unfold DotDims.lhsIdx
  rw [dif_neg (show ¬(0 : Fin S2000x64.rank) ∈ dot_S2000x64_S64x2_S2000x2_1_0_0_1_n_n.lhsBatch from List.not_mem_nil),
    dif_pos (show (0 : Fin S2000x64.rank) ∈ dot_S2000x64_S64x2_S2000x2_1_0_0_1_n_n.lhsNonContracting from List.mem_singleton.mpr rfl)]
  rfl
theorem kdot2_l1 (i : S2000x2.Idx) (q : dot_S2000x64_S64x2_S2000x2_1_0_0_1_n_n.contr.Idx) :
    (dot_S2000x64_S64x2_S2000x2_1_0_0_1_n_n.lhsIdx i q 1).val = (q ⟨0, Nat.one_pos⟩).val :=
  dot_S2000x64_S64x2_S2000x2_1_0_0_1_n_n.lhsIdx_val_of_single rfl i q
theorem kdot2_r0 (i : S2000x2.Idx) (q : dot_S2000x64_S64x2_S2000x2_1_0_0_1_n_n.contr.Idx) :
    (dot_S2000x64_S64x2_S2000x2_1_0_0_1_n_n.rhsIdx i q 0).val = (q ⟨0, Nat.one_pos⟩).val :=
  dot_S2000x64_S64x2_S2000x2_1_0_0_1_n_n.rhsIdx_val_of_single rfl i q
theorem kdot2_r1 (i : S2000x2.Idx) (q : dot_S2000x64_S64x2_S2000x2_1_0_0_1_n_n.contr.Idx) :
    (dot_S2000x64_S64x2_S2000x2_1_0_0_1_n_n.rhsIdx i q 1).val = (i 1).val := by
  unfold DotDims.rhsIdx
  rw [dif_neg (show ¬(1 : Fin S64x2.rank) ∈ dot_S2000x64_S64x2_S2000x2_1_0_0_1_n_n.rhsBatch from List.not_mem_nil),
    dif_pos (show (1 : Fin S64x2.rank) ∈ dot_S2000x64_S64x2_S2000x2_1_0_0_1_n_n.rhsNonContracting from List.mem_singleton.mpr rfl)]
  rfl
/-- The contraction of a [2000,64] by a [64,2] array, re-indexed over the 64 values of the contracted axis:
    entry (r, c) is Σ_k l(r,k)·w(k,c). -/
theorem kdot2_sum (l : S2000x64.Idx → EReal) (w : S64x2.Idx → EReal) (r : Fin 2000) (c : Fin 2) :
    ∑ q : dot_S2000x64_S64x2_S2000x2_1_0_0_1_n_n.contr.Idx, l (dot_S2000x64_S64x2_S2000x2_1_0_0_1_n_n.lhsIdx (ix2 r c) q) * w (dot_S2000x64_S64x2_S2000x2_1_0_0_1_n_n.rhsIdx (ix2 r c) q)
      = ∑ k : Fin 64, l (ix2 r k) * w (ix2 k c) := by
  rw [← Equiv.sum_comp (contrEquiv1 dot_S2000x64_S64x2_S2000x2_1_0_0_1_n_n 64 rfl rfl).symm]
  refine Finset.sum_congr rfl fun k _ => ?_
  have hk := contrEquiv1_symm_val dot_S2000x64_S64x2_S2000x2_1_0_0_1_n_n 64 rfl rfl k
  have el : dot_S2000x64_S64x2_S2000x2_1_0_0_1_n_n.lhsIdx (ix2 r c) ((contrEquiv1 dot_S2000x64_S64x2_S2000x2_1_0_0_1_n_n 64 rfl rfl).symm k) = ix2 r k := funext fun a => Fin.ext (by
    match a with
    | ⟨0, _⟩ => exact kdot2_l0 _ _
    | ⟨1, _⟩ => exact (kdot2_l1 _ _).trans hk)
  have er : dot_S2000x64_S64x2_S2000x2_1_0_0_1_n_n.rhsIdx (ix2 r c) ((contrEquiv1 dot_S2000x64_S64x2_S2000x2_1_0_0_1_n_n 64 rfl rfl).symm k) = ix2 k c := funext fun a => Fin.ext (by
    match a with
    | ⟨0, _⟩ => exact (kdot2_r0 _ _).trans hk
    | ⟨1, _⟩ => exact kdot2_r1 _ _)
  rw [el, er]

/-- The body's one store, at row r and column c of its block of 2000 rows: the two-layer head of the block's rows. -/
theorem pay_ix (x : Vec Ideal S2000x128 .f32) (W1 : Vec Ideal S128x64 .f32) (W2 : Vec Ideal S64x2 .f32)
    (b1 : Vec Ideal S1x64 .f32) (b2 : Vec Ideal S1x2 .f32) (r : Fin 2000) (c : Fin 2) :
    Gen.k5_pay1 (F := Ideal) x W1 W2 b1 b2 (ix2 r c)
      = (∑ j : Fin 64, max ((∑ k : Fin 128, x (ix2 r k) * W1 (ix2 k j)) + b1 (ix2 (0 : Fin 1) j)) 0 * W2 (ix2 j c))
        + b2 (ix2 (0 : Fin 1) c) := by
  unfold Gen.k5_pay1
  simp only [shapeCast_self]
  rw [addf_apply, broadcastTo_1b_ab_apply]
  simp only [matmul]
  rw [Ideal.matmul_constant_zero_apply, kdot2_sum]
  refine congrArg (· + b2 (ix2 (0 : Fin 1) c)) (Finset.sum_congr rfl fun j _ => ?_)
  rw [truncf_apply, truncf_apply, maximumf_apply, addf_apply, broadcastTo_1b_ab_apply, broadcast_apply,
    Ideal.matmul_constant_zero_apply, kdot1_sum]
  simp only [truncf_apply, Ideal.ofBits_def, Ideal.ofBits_zero_f32]

/-! ## From blocks to the array -/

/-- A block of 2000 rows whose x row r is row R of the array and whose parameters are the whole parameter
    arrays: its payload at (r, c) is the head at (R, c). -/
theorem block_eq (X : S50000x128.Idx → EReal) (A1 : S128x64.Idx → EReal) (B1 : S1x64.Idx → EReal)
    (A2 : S64x2.Idx → EReal) (B2 : S1x2.Idx → EReal)
    (x : Vec Ideal S2000x128 .f32) (w1 : Vec Ideal S128x64 .f32) (w2 : Vec Ideal S64x2 .f32)
    (bb1 : Vec Ideal S1x64 .f32) (bb2 : Vec Ideal S1x2 .f32) (r : Fin 2000) (c : Fin 2) (R : Fin 50000)
    (hx : ∀ k : Fin 128, x (ix2 r k) = X (ix2 R k))
    (hw1 : ∀ (k : Fin 128) (j : Fin 64), w1 (ix2 k j) = A1 (ix2 k j))
    (hw2 : ∀ (j : Fin 64), w2 (ix2 j c) = A2 (ix2 j c))
    (hb1 : ∀ j : Fin 64, bb1 (ix2 (0 : Fin 1) j) = B1 (ix2 (0 : Fin 1) j))
    (hb2 : bb2 (ix2 (0 : Fin 1) c) = B2 (ix2 (0 : Fin 1) c)) :
    Gen.k5_pay1 (F := Ideal) x w1 w2 bb1 bb2 (ix2 r c) = layer X A1 B1 A2 B2 (ix2 R c) := by
  rw [pay_ix, layer_ix, hb2]
  refine congrArg (· + B2 (ix2 (0 : Fin 1) c)) (Finset.sum_congr rfl fun j _ => ?_)
  rw [hw2, hb1]
  refine congrArg (fun z => max (z + B1 (ix2 (0 : Fin 1) j)) 0 * A2 (ix2 j c)) (Finset.sum_congr rfl fun k _ => ?_)
  rw [hx, hw1]

section Array
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 25 points: the x window and the output window sit at block t on the
    rows and block 0 on the columns; the four parameter windows are their whole arrays. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- What point t writes back is block t of the head of the arrays as the region finds them. -/
theorem flushed_eq (t : Fin cfg5.N) :
    (Gen.dat5 (F := Ideal) V c).flushed 5 t
      = ((cfg5.win 5).blk t).view.read (Elt Ideal)
          (layer (V c main_v62) (V c main_arg22) (V c main_v87) (V c main_arg24) (V c main_v88)) := by
  show (cfg5.win 5).cut (grid5.coords t) ((Gen.dat5 (F := Ideal) V c).after 5 t) = _
  rw [Gen.after5_5]
  unfold Gen.out5_5
  rw [View.canon_unit_zero hz]
  simp only [View.ld_unit_zero (S := S2000x128) hz, View.ld_unit_zero (S := S128x64) hz, View.ld_unit_zero (S := S64x2) hz,
    View.ld_unit_zero (S := S1x64) hz, View.ld_unit_zero (S := S1x2) hz]
  obtain ⟨e00, e01, e10, e11, e20, e21, e30, e31, e40, e41, e50, e51⟩ := idx_facts t
  have ht : t.val < 25 := t.isLt
  funext y
  obtain ⟨r, cc, rfl⟩ : ∃ (r : Fin 2000) (cc : Fin 2), y = ix2 r cc := ⟨y 0, y 1, eq_ix2 y⟩
  have hR : t.val * 2000 + r.val < 50000 := by have := r.isLt; omega
  refine (block_eq (V c main_v62) (V c main_arg22) (V c main_v87) (V c main_arg24) (V c main_v88)
    (Gen.iblk5 V c 0 t) (Gen.iblk5 V c 1 t) (Gen.iblk5 V c 3 t) (Gen.iblk5 V c 2 t) (Gen.iblk5 V c 4 t) r cc
    ⟨t.val * 2000 + r.val, hR⟩ ?_ ?_ ?_ ?_ ?_).trans ?_
  · intro k
    show V c main_v62 (((cfg5.win 0).blk t).view.emb (ix2 r k)) = _
    refine congrArg (V c main_v62) (funext fun a => Fin.ext ?_)
    match a with
    | ⟨0, _⟩ => show win5_0.index t (0 : Fin 2) * 2000 + 1 * r.val = t.val * 2000 + r.val; rw [e00]; omega
    | ⟨1, _⟩ => show win5_0.index t (1 : Fin 2) * 128 + 1 * k.val = k.val; rw [e01]; omega
  · intro k j
    show V c main_arg22 (((cfg5.win 1).blk t).view.emb (ix2 k j)) = _
    refine congrArg (V c main_arg22) (funext fun a => Fin.ext ?_)
    match a with
    | ⟨0, _⟩ => show win5_1.index t (0 : Fin 2) * 128 + 1 * k.val = k.val; rw [e10]; omega
    | ⟨1, _⟩ => show win5_1.index t (1 : Fin 2) * 64 + 1 * j.val = j.val; rw [e11]; omega
  · intro j
    show V c main_arg24 (((cfg5.win 3).blk t).view.emb (ix2 j cc)) = _
    refine congrArg (V c main_arg24) (funext fun a => Fin.ext ?_)
    match a with
    | ⟨0, _⟩ => show win5_3.index t (0 : Fin 2) * 64 + 1 * j.val = j.val; rw [e30]; omega
    | ⟨1, _⟩ => show win5_3.index t (1 : Fin 2) * 2 + 1 * cc.val = cc.val; rw [e31]; omega
  · intro j
    show V c main_v87 (((cfg5.win 2).blk t).view.emb (ix2 (0 : Fin 1) j)) = _
    refine congrArg (V c main_v87) (funext fun a => Fin.ext ?_)
    match a with
    | ⟨0, _⟩ => show win5_2.index t (0 : Fin 2) * 1 + 1 * 0 = 0; rw [e20]
    | ⟨1, _⟩ => show win5_2.index t (1 : Fin 2) * 64 + 1 * j.val = j.val; rw [e21]; omega
  · show V c main_v88 (((cfg5.win 4).blk t).view.emb (ix2 (0 : Fin 1) cc)) = _
    refine congrArg (V c main_v88) (funext fun a => Fin.ext ?_)
    match a with
    | ⟨0, _⟩ => show win5_4.index t (0 : Fin 2) * 1 + 1 * 0 = 0; rw [e40]
    | ⟨1, _⟩ => show win5_4.index t (1 : Fin 2) * 2 + 1 * cc.val = cc.val; rw [e41]; omega
  · show layer _ _ _ _ _ _ = layer _ _ _ _ _ (((cfg5.win 5).blk t).view.emb (ix2 r cc))
    refine congrArg (layer (V c main_v62) (V c main_arg22) (V c main_v87) (V c main_arg24) (V c main_v88)) (funext fun a => Fin.ext ?_)
    match a with
    | ⟨0, _⟩ => show t.val * 2000 + r.val = win5_5.index t (0 : Fin 2) * 2000 + 1 * r.val; rw [e50]; omega
    | ⟨1, _⟩ => show cc.val = win5_5.index t (1 : Fin 2) * 2 + 1 * cc.val; rw [e51]; omega

/-- An index of the array is in point t's block iff each coordinate is in the block's range on its axis. -/
theorem mem_blk (t : Fin cfg5.N) (i : S50000x2.Idx) :
    i ∈ ((cfg5.win 5).blk t).view.set ↔ ∀ a : Fin 2, win5_5.index t a * S2000x2.size a ≤ (i a).val ∧ (i a).val < win5_5.index t a * S2000x2.size a + S2000x2.size a := by
  show i ∈ ((View.whole main_v89).slice (win5_5.rect t)).set ↔ _
  rw [View.set_slice_whole, Rect.mem_set_unit]
  exact Iff.rfl

/-- Every row is in the block of the point its number divided by 2000 names. -/
theorem covered (i : S50000x2.Idx) :
    ∃ t : Fin cfg5.N, (cfg5.win 5).flush t = true ∧ i ∈ ((cfg5.win 5).blk t).view.set := by
  have hi0 : (i 0).val < 50000 := (i 0).isLt
  have hi1 : (i 1).val < 2 := (i 1).isLt
  have hN : cfg5.N = 25 := Gen.N_5
  refine ⟨⟨(i 0).val / 2000, by rw [hN]; omega⟩, Gen.flush5_5 _, ?_⟩
  rw [mem_blk]
  obtain ⟨e00, e01, e10, e11, e20, e21, e30, e31, e40, e41, e50, e51⟩ := idx_facts ⟨(i 0).val / 2000, by rw [hN]; omega⟩
  intro a
  match a with
  | ⟨0, _⟩ =>
    show win5_5.index _ (0 : Fin 2) * 2000 ≤ (i 0).val ∧ (i 0).val < win5_5.index _ (0 : Fin 2) * 2000 + 2000
    rw [e50]; show (i 0).val / 2000 * 2000 ≤ (i 0).val ∧ (i 0).val < (i 0).val / 2000 * 2000 + 2000; omega
  | ⟨1, _⟩ =>
    show win5_5.index _ (1 : Fin 2) * 2 ≤ (i 1).val ∧ (i 1).val < win5_5.index _ (1 : Fin 2) * 2 + 2
    rw [e51]; omega

theorem array :
    (Gen.dat5 (F := Ideal) V c).arrAt 5 cfg5.N
      = layer (V c main_v62) (V c main_arg22) (V c main_v87) (V c main_arg24) (V c main_v88) :=
  (Gen.dat5 (F := Ideal) V c).arrAt_eq_of_cover 5 _ (fun t _ => flushed_eq V c t) (covered)

end Array

end Cert.KernelIdeal.Mlp5
end
-- ==== Proof.Mlp6.lean ====
import proofs.«180647_j29807073034770_1_alg».proof.Proof.Gen.KernelIdeal.Frame
import proofs.«180647_j29807073034770_1_alg».proof.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Mlp6

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- One two-layer head read at an index: entry (i0,i1) is the logistic function of
    Σ_j max( Σ_k x(i0,k)·W1(k,j) + b1(0,j) , 0 )·W2(j,i1) + b2(0,i1) on the extended reals. -/
def layer (x : S100000x128.Idx → EReal) (W1 : S128x64.Idx → EReal) (b1 : S1x64.Idx → EReal)
    (W2 : S64x1.Idx → EReal) (b2 : S1x1.Idx → EReal) : S100000x1.Idx → EReal := fun i =>
  Ideal.logistic ((∑ j : Fin 64, max ((∑ k : Fin 128, x (ix2 (i 0) k) * W1 (ix2 k j)) + b1 (ix2 (0 : Fin 1) j)) 0 * W2 (ix2 j (i 1)))
    + b2 (ix2 (0 : Fin 1) (i 1)))

/-- The head at an index given by its two coordinates. -/
theorem layer_ix (x : S100000x128.Idx → EReal) (W1 : S128x64.Idx → EReal) (b1 : S1x64.Idx → EReal)
    (W2 : S64x1.Idx → EReal) (b2 : S1x1.Idx → EReal) (r : Fin 100000) (c : Fin 1) :
    layer x W1 b1 W2 b2 (ix2 r c)
      = Ideal.logistic ((∑ j : Fin 64, max ((∑ k : Fin 128, x (ix2 r k) * W1 (ix2 k j)) + b1 (ix2 (0 : Fin 1) j)) 0 * W2 (ix2 j c))
        + b2 (ix2 (0 : Fin 1) c)) := rfl

/-! ## The reference's head, read at an index -/

/-- The bit pattern of the float 1.0 denotes the extended real 1. -/
theorem ofBits_one_f32 : Ideal.ofBits .f32 0x3F800000#32 = 1 := IdealRules.sign_bit.ideal_onePat .f32

/-- The logistic function of a vector, at an index. -/
theorem logistic_apply {s : Shape} (x : FVec Ideal s .f32) (i : s.Idx) : logistic x i = Ideal.logistic (x i) := rfl
/-- The host's quotient, exponential and negation of vectors, at an index. -/
theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl

section Reference
variable [Cert.ReferenceIdeal.Facts]

theorem rdot1_l0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x64_S100000x64_1_0_0_1_n_n.lhsBatch from List.not_mem_nil),
    dif_pos (show (0 : Fin Cert.ReferenceIdeal.S100000x128.rank) ∈ Cert.ReferenceIdeal.dot_S100000x128_S128x64_S100000x64_1_0_0_1_n_n.lhsNonContracting from List.mem_singleton.mpr rfl)]
  rfl
theorem rdot1_l1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.lhsIdx i q 1).val = (q ⟨0, Nat.one_pos⟩).val :=
  Cert.ReferenceIdeal.dot_S100000x128_S128x64_S100000x64_1_0_0_1_n_n.lhsIdx_val_of_single rfl i q
theorem rdot1_r0 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 0).val = (q ⟨0, Nat.one_pos⟩).val :=
  Cert.ReferenceIdeal.dot_S100000x128_S128x64_S100000x64_1_0_0_1_n_n.rhsIdx_val_of_single rfl i q
theorem rdot1_r1 (i : Cert.ReferenceIdeal.S100000x64.Idx) (q : Cert.ReferenceIdeal.dot_S100000x128_S128x64_S100000x64_1_0_0_1_n_n.contr.Idx) :
    (Cert.ReferenceIdeal.dot_S100000x128_S128x64_S100000x64_1_0_0_1_n_n.rhsIdx i q 1).val = (i 1).val := by
  unfold DotDims.rhsIdx
  rw [dif_neg (show ¬(1 : Fin Cert.ReferenceIdeal.S128x64.rank) ∈ Cert.ReferenceIdeal.dot_S100000x128_S128x64_S100000x64_1_0_0_1_n_n.rhsBatch from List.not_mem_nil),
    dif_pos (show (1 : Fin Cert.ReferenceIdeal.S128x64.rank) ∈ Cert.ReferenceIdeal.dot_S100000x128_S128x64_S100000x64_1_0_0_1_n_n.rhsNonContracting from List.mem_singleton.mpr rfl)]
  rfl
/-- The contraction of a [100000,128] by a [128,64] array, re-indexed over the 128 values of the contracted axis:
    entry (r, c) is Σ_k l(r,k)·w(k,c). -/
theorem rdot1_sum (l : Cert.ReferenceIdeal.S100000x128.Idx → EReal) (w : Cert.ReferenceIdeal.S128x64.Idx → EReal) (r : Fin 100000) (c : Fin 64) :
    ∑ q : Cert.ReferenceIdeal.dot_S100000x128_S128x64_S100000x64_1_0_0_1_n_n.contr.Idx, l (Cert.ReferenceIdeal.dot_S100000x128_S128x64_S100000x64_1_0_0_1_n_n.lhsIdx (ix2 r c) q) * w (Cert.ReferenceIdeal.dot_S100000x128_S128x64_S100000x64_1_0_0_1_n_n.rhsIdx (ix2 r c) q)
      = ∑ k : Fin 128, l (ix2 r k) * w (ix2 k c) := by
  rw [← Equiv.sum_comp (contrEquiv1 Cert.ReferenceIdeal.dot_S100000x128_S128x64_S100000x64_1_0_0_1_n_n 128 rfl rfl).symm]
  refine Finset.sum_congr rfl fun k _ => ?_
  have hk := contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 r c) ((contrEquiv1 Cert.ReferenceIdeal.dot_S100000x128_S128x64_S100000x64_1_0_0_1_n_n 128 rfl rfl).symm k) = ix2 r k := funext fun a => Fin.ext (by
    match a with
    | ⟨0, _⟩ => exact rdot1_l0 _ _
    | ⟨1, _⟩ => exact (rdot1_l1 _ _).trans hk)
  have er : Cert.ReferenceIdeal.dot_S100000x128_S128x64_S100000x64_1_0_0_1_n_n.rhsIdx (ix2 r c) ((contrEquiv1 Cert.ReferenceIdeal.dot_S100000x128_S128x64_S100000x64_1_0_0_1_n_n 128 rfl rfl).symm k) = ix2 k c := funext fun a => Fin.ext (by
    match a with
    | ⟨0, _⟩ => exact (rdot1_r0 _ _).trans hk
    | ⟨1, _⟩ => exact rdot1_r1 _ _)
  rw [el, er]

theorem rdot2_l0 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x1_S100000x1_1_0_0_1_n_n.lhsBatch from List.not_mem_nil),
    dif_pos (show (0 : Fin Cert.ReferenceIdeal.S100000x64.rank) ∈ Cert.ReferenceIdeal.dot_S100000x64_S64x1_S100000x1_1_0_0_1_n_n.lhsNonContracting from List.mem_singleton.mpr rfl)]
  rfl
theorem rdot2_l1 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.lhsIdx i q 1).val = (q ⟨0, Nat.one_pos⟩).val :=
  Cert.ReferenceIdeal.dot_S100000x64_S64x1_S100000x1_1_0_0_1_n_n.lhsIdx_val_of_single rfl i q
theorem rdot2_r0 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 0).val = (q ⟨0, Nat.one_pos⟩).val :=
  Cert.ReferenceIdeal.dot_S100000x64_S64x1_S100000x1_1_0_0_1_n_n.rhsIdx_val_of_single rfl i q
theorem rdot2_r1 (i : Cert.ReferenceIdeal.S100000x1.Idx) (q : Cert.ReferenceIdeal.dot_S100000x64_S64x1_S100000x1_1_0_0_1_n_n.contr.Idx) :
    (Cert.ReferenceIdeal.dot_S100000x64_S64x1_S100000x1_1_0_0_1_n_n.rhsIdx i q 1).val = (i 1).val := by
  unfold DotDims.rhsIdx
  rw [dif_neg (show ¬(1 : Fin Cert.ReferenceIdeal.S64x1.rank) ∈ Cert.ReferenceIdeal.dot_S100000x64_S64x1_S100000x1_1_0_0_1_n_n.rhsBatch from List.not_mem_nil),
    dif_pos (show (1 : Fin Cert.ReferenceIdeal.S64x1.rank) ∈ Cert.ReferenceIdeal.dot_S100000x64_S64x1_S100000x1_1_0_0_1_n_n.rhsNonContracting from List.mem_singleton.mpr rfl)]
  rfl
/-- The contraction of a [100000,64] by a [64,1] array, re-indexed over the 64 values of the contracted axis:
    entry (r, c) is Σ_k l(r,k)·w(k,c). -/
theorem rdot2_sum (l : Cert.ReferenceIdeal.S100000x64.Idx → EReal) (w : Cert.ReferenceIdeal.S64x1.Idx → EReal) (r : Fin 100000) (c : Fin 1) :
    ∑ q : Cert.ReferenceIdeal.dot_S100000x64_S64x1_S100000x1_1_0_0_1_n_n.contr.Idx, l (Cert.ReferenceIdeal.dot_S100000x64_S64x1_S100000x1_1_0_0_1_n_n.lhsIdx (ix2 r c) q) * w (Cert.ReferenceIdeal.dot_S100000x64_S64x1_S100000x1_1_0_0_1_n_n.rhsIdx (ix2 r c) q)
      = ∑ k : Fin 64, l (ix2 r k) * w (ix2 k c) := by
  rw [← Equiv.sum_comp (contrEquiv1 Cert.ReferenceIdeal.dot_S100000x64_S64x1_S100000x1_1_0_0_1_n_n 64 rfl rfl).symm]
  refine Finset.sum_congr rfl fun k _ => ?_
  have hk := contrEquiv1_symm_val Cert.ReferenceIdeal.dot_S100000x64_S64x1_S100000x1_1_0_0_1_n_n 64 rfl rfl k
  have el : Cert.ReferenceIdeal.dot_S100000x64_S64x1_S100000x1_1_0_0_1_n_n.lhsIdx (ix2 r c) ((contrEquiv1 Cert.ReferenceIdeal.dot_S100000x64_S64x1_S100000x1_1_0_0_1_n_n 64 rfl rfl).symm k) = ix2 r k := funext fun a => Fin.ext (by
    match a with
    | ⟨0, _⟩ => exact rdot2_l0 _ _
    | ⟨1, _⟩ => exact (rdot2_l1 _ _).trans hk)
  have er : Cert.ReferenceIdeal.dot_S100000x64_S64x1_S100000x1_1_0_0_1_n_n.rhsIdx (ix2 r c) ((contrEquiv1 Cert.ReferenceIdeal.dot_S100000x64_S64x1_S100000x1_1_0_0_1_n_n 64 rfl rfl).symm k) = ix2 k c := funext fun a => Fin.ext (by
    match a with
    | ⟨0, _⟩ => exact (rdot2_r0 _ _).trans hk
    | ⟨1, _⟩ => exact rdot2_r1 _ _)
  rw [el, er]

/-- A [64] bias broadcast to one row and then to every row reads, at (r, j), the bias at j. -/
theorem rbias1 (b1 : Cert.ReferenceIdeal.S64.Idx → EReal) (r : Fin 100000) (j : Fin 64) :
    broadcastInDim Cert.ReferenceIdeal.S100000x64 ![0, 1] Cert.ReferenceIdeal.Facts₀.bcast_S1x64_S100000x64_0_1
        (broadcastInDim Cert.ReferenceIdeal.S1x64 ![1] Cert.ReferenceIdeal.Facts₀.bcast_S64_S1x64_1 b1) (ix2 r j) = b1 (ix1 j) := by
  rw [broadcastInDim_apply _ Cert.ReferenceIdeal.Facts₀.bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; have := j.isLt; split <;> omega)]
  exact broadcastInDim_apply _ Cert.ReferenceIdeal.Facts₀.bcast_S64_S1x64_1 b1 (ix2 (0 : Fin 1) j) (ix1 j) (fun a => match a with
    | ⟨0, _⟩ => by show j.val = if (64 : Nat) = 1 then 0 else j.val; have := j.isLt; split <;> omega)

/-- A [1] bias broadcast to one row and then to every row reads, at (r, c), the bias at c. -/
theorem rbias2 (b2 : Cert.ReferenceIdeal.S1.Idx → EReal) (r : Fin 100000) (c : Fin 1) :
    broadcastInDim Cert.ReferenceIdeal.S100000x1 ![0, 1] Cert.ReferenceIdeal.Facts₀.bcast_S1x1_S100000x1_0_1
        (broadcastInDim Cert.ReferenceIdeal.S1x1 ![1] Cert.ReferenceIdeal.Facts₀.bcast_S1_S1x1_1 b2) (ix2 r c) = b2 (ix1 c) := by
  rw [broadcastInDim_apply _ Cert.ReferenceIdeal.Facts₀.bcast_S1x1_S100000x1_0_1 _ (ix2 r c) (ix2 (0 : Fin 1) c) (fun a => match a with
    | ⟨0, _⟩ => by show 0 = if (1 : Nat) = 1 then 0 else r.val; rw [if_pos rfl]
    | ⟨1, _⟩ => by show c.val = if (1 : Nat) = 1 then 0 else c.val; have := c.isLt; split <;> omega)]
  exact broadcastInDim_apply _ Cert.ReferenceIdeal.Facts₀.bcast_S1_S1x1_1 b2 (ix2 (0 : Fin 1) c) (ix1 c) (fun a => match a with
    | ⟨0, _⟩ => by show c.val = if (1 : Nat) = 1 then 0 else c.val; have := c.isLt; split <;> omega)

/-- The zero scalar broadcast to every entry is the extended real 0. -/
theorem rzero (i : Cert.ReferenceIdeal.S100000x64.Idx) :
    broadcastInDim Cert.ReferenceIdeal.S100000x64 ![] Cert.ReferenceIdeal.Facts₀.bcast_S_S100000x64 (constant (F := Ideal) Cert.ReferenceIdeal.S_ .f32 0x00000000#32) i = 0 := by
  rw [broadcastInDim_apply _ Cert.ReferenceIdeal.Facts₀.bcast_S_S100000x64 _ i ix0 (fun a => a.elim0), constant_apply, Ideal.ofBits_zero_f32]

/-- The scalar 1.0 broadcast to every entry is the extended real 1. -/
theorem rone (i : Cert.ReferenceIdeal.S100000x1.Idx) :
    broadcastInDim Cert.ReferenceIdeal.S100000x1 ![] Cert.ReferenceIdeal.Facts₀.bcast_S_S100000x1 (constant (F := Ideal) Cert.ReferenceIdeal.S_ .f32 0x3F800000#32) i = 1 := by
  rw [broadcastInDim_apply _ Cert.ReferenceIdeal.Facts₀.bcast_S_S100000x1 _ i ix0 (fun a => a.elim0), constant_apply, ofBits_one_f32]

theorem host (x : FVec Ideal Cert.ReferenceIdeal.S100000x128 .f32) (W1 : FVec Ideal Cert.ReferenceIdeal.S128x64 .f32) (b1 : FVec Ideal Cert.ReferenceIdeal.S64 .f32)
    (W2 : FVec Ideal Cert.ReferenceIdeal.S64x1 .f32) (b2 : FVec Ideal Cert.ReferenceIdeal.S1 .f32) (h1 : S64.ShapeCasts S1x64) (h2 : S1.ShapeCasts S1x1) :
    Host.divf (F := Ideal) (broadcastInDim Cert.ReferenceIdeal.S100000x1 ![] Cert.ReferenceIdeal.Facts₀.bcast_S_S100000x1 (constant (F := Ideal) Cert.ReferenceIdeal.S_ .f32 0x3F800000#32))
        (addf (broadcastInDim Cert.ReferenceIdeal.S100000x1 ![] Cert.ReferenceIdeal.Facts₀.bcast_S_S100000x1 (constant (F := Ideal) Cert.ReferenceIdeal.S_ .f32 0x3F800000#32))
          (Host.exp (Host.negf
            (addf
        (Host.dotGeneral Cert.ReferenceIdeal.dot_S100000x64_S64x1_S100000x1_1_0_0_1_n_n none
          (maximumf
            (addf (Host.dotGeneral Cert.ReferenceIdeal.dot_S100000x128_S128x64_S100000x64_1_0_0_1_n_n none x W1)
                  (broadcastInDim Cert.ReferenceIdeal.S100000x64 ![0, 1] Cert.ReferenceIdeal.Facts₀.bcast_S1x64_S100000x64_0_1
                    (broadcastInDim Cert.ReferenceIdeal.S1x64 ![1] Cert.ReferenceIdeal.Facts₀.bcast_S64_S1x64_1 b1)))
            (broadcastInDim Cert.ReferenceIdeal.S100000x64 ![] Cert.ReferenceIdeal.Facts₀.bcast_S_S100000x64 (constant (F := Ideal) Cert.ReferenceIdeal.S_ .f32 0x00000000#32)))
          W2)
        (broadcastInDim Cert.ReferenceIdeal.S100000x1 ![0, 1] Cert.ReferenceIdeal.Facts₀.bcast_S1x1_S100000x1_0_1
          (broadcastInDim Cert.ReferenceIdeal.S1x1 ![1] Cert.ReferenceIdeal.Facts₀.bcast_S1_S1x1_1 b2))))))
      = layer x W1 (shapeCast S1x64 b1 h1) W2 (shapeCast S1x1 b2 h2) := by
  funext i
  obtain ⟨r, c, rfl⟩ : ∃ (r : Fin 100000) (c : Fin 1), i = ix2 r c := ⟨i 0, i 1, eq_ix2 i⟩
  rw [layer_ix]
  rw [hostDivf_apply, rone, addf_apply, rone, hostExp_apply, hostNegf_apply, Ideal.logistic]
  refine congrArg (fun z => Ideal.div 1 (1 + Ideal.exp (-z))) ?_
  rw [addf_apply, rbias2, shapeCast_a_1a_apply]
  simp only [Host.dotGeneral]
  rw [Ideal.dotGeneral_apply, rdot2_sum]
  refine congrArg (· + b2 (ix1 c)) (Finset.sum_congr rfl fun j _ => ?_)
  rw [maximumf_apply, addf_apply, rbias1, rzero, shapeCast_a_1a_apply, Ideal.dotGeneral_apply, rdot1_sum]

end Reference

/-! ## The kernel's payload, read at an index -/

theorem kdot1_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch from List.not_mem_nil),
    dif_pos (show (0 : Fin S2000x128.rank) ∈ dot_S2000x128_S128x64_S2000x64_1_0_0_1_n_n.lhsNonContracting from List.mem_singleton.mpr rfl)]
  rfl
theorem kdot1_l1 (i : S2000x64.Idx) (q : dot_S2000x128_S128x64_S2000x64_1_0_0_1_n_n.contr.Idx) :
    (dot_S2000x128_S128x64_S2000x64_1_0_0_1_n_n.lhsIdx i q 1).val = (q ⟨0, Nat.one_pos⟩).val :=
  dot_S2000x128_S128x64_S2000x64_1_0_0_1_n_n.lhsIdx_val_of_single rfl i q
theorem kdot1_r0 (i : S2000x64.Idx) (q : dot_S2000x128_S128x64_S2000x64_1_0_0_1_n_n.contr.Idx) :
    (dot_S2000x128_S128x64_S2000x64_1_0_0_1_n_n.rhsIdx i q 0).val = (q ⟨0, Nat.one_pos⟩).val :=
  dot_S2000x128_S128x64_S2000x64_1_0_0_1_n_n.rhsIdx_val_of_single rfl i q
theorem kdot1_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch from List.not_mem_nil),
    dif_pos (show (1 : Fin S128x64.rank) ∈ dot_S2000x128_S128x64_S2000x64_1_0_0_1_n_n.rhsNonContracting from List.mem_singleton.mpr rfl)]
  rfl
/-- The contraction of a [2000,128] by a [128,64] array, re-indexed over the 128 values of the contracted axis:
    entry (r, c) is Σ_k l(r,k)·w(k,c). -/
theorem kdot1_sum (l : S2000x128.Idx → EReal) (w : S128x64.Idx → EReal) (r : Fin 2000) (c : Fin 64) :
    ∑ q : dot_S2000x128_S128x64_S2000x64_1_0_0_1_n_n.contr.Idx, l (dot_S2000x128_S128x64_S2000x64_1_0_0_1_n_n.lhsIdx (ix2 r c) q) * w (dot_S2000x128_S128x64_S2000x64_1_0_0_1_n_n.rhsIdx (ix2 r c) q)
      = ∑ k : Fin 128, l (ix2 r k) * w (ix2 k c) := by
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r c) ((contrEquiv1 dot_S2000x128_S128x64_S2000x64_1_0_0_1_n_n 128 rfl rfl).symm k) = ix2 r k := funext fun a => Fin.ext (by
    match a with
    | ⟨0, _⟩ => exact kdot1_l0 _ _
    | ⟨1, _⟩ => exact (kdot1_l1 _ _).trans hk)
  have er : dot_S2000x128_S128x64_S2000x64_1_0_0_1_n_n.rhsIdx (ix2 r c) ((contrEquiv1 dot_S2000x128_S128x64_S2000x64_1_0_0_1_n_n 128 rfl rfl).symm k) = ix2 k c := funext fun a => Fin.ext (by
    match a with
    | ⟨0, _⟩ => exact (kdot1_r0 _ _).trans hk
    | ⟨1, _⟩ => exact kdot1_r1 _ _)
  rw [el, er]

theorem kdot2_l0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch from List.not_mem_nil),
    dif_pos (show (0 : Fin S2000x64.rank) ∈ dot_S2000x64_S64x1_S2000x1_1_0_0_1_n_n.lhsNonContracting from List.mem_singleton.mpr rfl)]
  rfl
theorem kdot2_l1 (i : S2000x1.Idx) (q : dot_S2000x64_S64x1_S2000x1_1_0_0_1_n_n.contr.Idx) :
    (dot_S2000x64_S64x1_S2000x1_1_0_0_1_n_n.lhsIdx i q 1).val = (q ⟨0, Nat.one_pos⟩).val :=
  dot_S2000x64_S64x1_S2000x1_1_0_0_1_n_n.lhsIdx_val_of_single rfl i q
theorem kdot2_r0 (i : S2000x1.Idx) (q : dot_S2000x64_S64x1_S2000x1_1_0_0_1_n_n.contr.Idx) :
    (dot_S2000x64_S64x1_S2000x1_1_0_0_1_n_n.rhsIdx i q 0).val = (q ⟨0, Nat.one_pos⟩).val :=
  dot_S2000x64_S64x1_S2000x1_1_0_0_1_n_n.rhsIdx_val_of_single rfl i q
theorem kdot2_r1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch from List.not_mem_nil),
    dif_pos (show (1 : Fin S64x1.rank) ∈ dot_S2000x64_S64x1_S2000x1_1_0_0_1_n_n.rhsNonContracting from List.mem_singleton.mpr rfl)]
  rfl
/-- The contraction of a [2000,64] by a [64,1] array, re-indexed over the 64 values of the contracted axis:
    entry (r, c) is Σ_k l(r,k)·w(k,c). -/
theorem kdot2_sum (l : S2000x64.Idx → EReal) (w : S64x1.Idx → EReal) (r : Fin 2000) (c : Fin 1) :
    ∑ q : dot_S2000x64_S64x1_S2000x1_1_0_0_1_n_n.contr.Idx, l (dot_S2000x64_S64x1_S2000x1_1_0_0_1_n_n.lhsIdx (ix2 r c) q) * w (dot_S2000x64_S64x1_S2000x1_1_0_0_1_n_n.rhsIdx (ix2 r c) q)
      = ∑ k : Fin 64, l (ix2 r k) * w (ix2 k c) := by
  rw [← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 r c) ((contrEquiv1 dot_S2000x64_S64x1_S2000x1_1_0_0_1_n_n 64 rfl rfl).symm k) = ix2 r k := funext fun a => Fin.ext (by
    match a with
    | ⟨0, _⟩ => exact kdot2_l0 _ _
    | ⟨1, _⟩ => exact (kdot2_l1 _ _).trans hk)
  have er : dot_S2000x64_S64x1_S2000x1_1_0_0_1_n_n.rhsIdx (ix2 r c) ((contrEquiv1 dot_S2000x64_S64x1_S2000x1_1_0_0_1_n_n 64 rfl rfl).symm k) = ix2 k c := funext fun a => Fin.ext (by
    match a with
    | ⟨0, _⟩ => exact (kdot2_r0 _ _).trans hk
    | ⟨1, _⟩ => exact kdot2_r1 _ _)
  rw [el, er]

/-- The body's one store, at row r and column c of its block of 2000 rows: the two-layer head of the block's rows. -/
theorem pay_ix (x : Vec Ideal S2000x128 .f32) (W1 : Vec Ideal S128x64 .f32) (W2 : Vec Ideal S64x1 .f32)
    (b1 : Vec Ideal S1x64 .f32) (b2 : Vec Ideal S1x1 .f32) (r : Fin 2000) (c : Fin 1) :
    Gen.k6_pay1 (F := Ideal) x W1 W2 b1 b2 (ix2 r c)
      = Ideal.logistic ((∑ j : Fin 64, max ((∑ k : Fin 128, x (ix2 r k) * W1 (ix2 k j)) + b1 (ix2 (0 : Fin 1) j)) 0 * W2 (ix2 j c))
        + b2 (ix2 (0 : Fin 1) c)) := by
  unfold Gen.k6_pay1
  simp only [shapeCast_self]
  rw [logistic_apply]
  refine congrArg Ideal.logistic ?_
  rw [addf_apply, broadcastTo_1b_ab_apply]
  simp only [matmul]
  rw [Ideal.matmul_constant_zero_apply, kdot2_sum]
  refine congrArg (· + b2 (ix2 (0 : Fin 1) c)) (Finset.sum_congr rfl fun j _ => ?_)
  rw [truncf_apply, truncf_apply, maximumf_apply, addf_apply, broadcastTo_1b_ab_apply, broadcast_apply,
    Ideal.matmul_constant_zero_apply, kdot1_sum]
  simp only [truncf_apply, Ideal.ofBits_def, Ideal.ofBits_zero_f32]

/-! ## From blocks to the array -/

/-- A block of 2000 rows whose x row r is row R of the array and whose parameters are the whole parameter
    arrays: its payload at (r, c) is the head at (R, c). -/
theorem block_eq (X : S100000x128.Idx → EReal) (A1 : S128x64.Idx → EReal) (B1 : S1x64.Idx → EReal)
    (A2 : S64x1.Idx → EReal) (B2 : S1x1.Idx → EReal)
    (x : Vec Ideal S2000x128 .f32) (w1 : Vec Ideal S128x64 .f32) (w2 : Vec Ideal S64x1 .f32)
    (bb1 : Vec Ideal S1x64 .f32) (bb2 : Vec Ideal S1x1 .f32) (r : Fin 2000) (c : Fin 1) (R : Fin 100000)
    (hx : ∀ k : Fin 128, x (ix2 r k) = X (ix2 R k))
    (hw1 : ∀ (k : Fin 128) (j : Fin 64), w1 (ix2 k j) = A1 (ix2 k j))
    (hw2 : ∀ (j : Fin 64), w2 (ix2 j c) = A2 (ix2 j c))
    (hb1 : ∀ j : Fin 64, bb1 (ix2 (0 : Fin 1) j) = B1 (ix2 (0 : Fin 1) j))
    (hb2 : bb2 (ix2 (0 : Fin 1) c) = B2 (ix2 (0 : Fin 1) c)) :
    Gen.k6_pay1 (F := Ideal) x w1 w2 bb1 bb2 (ix2 r c) = layer X A1 B1 A2 B2 (ix2 R c) := by
  rw [pay_ix, layer_ix, hb2]
  refine congrArg Ideal.logistic ?_
  refine congrArg (· + B2 (ix2 (0 : Fin 1) c)) (Finset.sum_congr rfl fun j _ => ?_)
  rw [hw2, hb1]
  refine congrArg (fun z => max (z + B1 (ix2 (0 : Fin 1) j)) 0 * A2 (ix2 j c)) (Finset.sum_congr rfl fun k _ => ?_)
  rw [hx, hw1]

section Array
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 50 points: the x window and the output window sit at block t on the
    rows and block 0 on the columns; the four parameter windows are their whole arrays. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- What point t writes back is block t of the head of the arrays as the region finds them. -/
theorem flushed_eq (t : Fin cfg6.N) :
    (Gen.dat6 (F := Ideal) V c).flushed 5 t
      = ((cfg6.win 5).blk t).view.read (Elt Ideal)
          (layer (V c main_v83) (V c main_arg26) (V c main_v90) (V c main_arg28) (V c main_v91)) := by
  show (cfg6.win 5).cut (grid6.coords t) ((Gen.dat6 (F := Ideal) V c).after 5 t) = _
  rw [Gen.after6_5]
  unfold Gen.out6_5
  rw [View.canon_unit_zero hz]
  simp only [View.ld_unit_zero (S := S2000x128) hz, View.ld_unit_zero (S := S128x64) hz, View.ld_unit_zero (S := S64x1) hz,
    View.ld_unit_zero (S := S1x64) hz, View.ld_unit_zero (S := S1x1) hz]
  obtain ⟨e00, e01, e10, e11, e20, e21, e30, e31, e40, e41, e50, e51⟩ := idx_facts t
  have ht : t.val < 50 := t.isLt
  funext y
  obtain ⟨r, cc, rfl⟩ : ∃ (r : Fin 2000) (cc : Fin 1), y = ix2 r cc := ⟨y 0, y 1, eq_ix2 y⟩
  have hR : t.val * 2000 + r.val < 100000 := by have := r.isLt; omega
  refine (block_eq (V c main_v83) (V c main_arg26) (V c main_v90) (V c main_arg28) (V c main_v91)
    (Gen.iblk6 V c 0 t) (Gen.iblk6 V c 1 t) (Gen.iblk6 V c 3 t) (Gen.iblk6 V c 2 t) (Gen.iblk6 V c 4 t) r cc
    ⟨t.val * 2000 + r.val, hR⟩ ?_ ?_ ?_ ?_ ?_).trans ?_
  · intro k
    show V c main_v83 (((cfg6.win 0).blk t).view.emb (ix2 r k)) = _
    refine congrArg (V c main_v83) (funext fun a => Fin.ext ?_)
    match a with
    | ⟨0, _⟩ => show win6_0.index t (0 : Fin 2) * 2000 + 1 * r.val = t.val * 2000 + r.val; rw [e00]; omega
    | ⟨1, _⟩ => show win6_0.index t (1 : Fin 2) * 128 + 1 * k.val = k.val; rw [e01]; omega
  · intro k j
    show V c main_arg26 (((cfg6.win 1).blk t).view.emb (ix2 k j)) = _
    refine congrArg (V c main_arg26) (funext fun a => Fin.ext ?_)
    match a with
    | ⟨0, _⟩ => show win6_1.index t (0 : Fin 2) * 128 + 1 * k.val = k.val; rw [e10]; omega
    | ⟨1, _⟩ => show win6_1.index t (1 : Fin 2) * 64 + 1 * j.val = j.val; rw [e11]; omega
  · intro j
    show V c main_arg28 (((cfg6.win 3).blk t).view.emb (ix2 j cc)) = _
    refine congrArg (V c main_arg28) (funext fun a => Fin.ext ?_)
    match a with
    | ⟨0, _⟩ => show win6_3.index t (0 : Fin 2) * 64 + 1 * j.val = j.val; rw [e30]; omega
    | ⟨1, _⟩ => show win6_3.index t (1 : Fin 2) * 1 + 1 * cc.val = cc.val; rw [e31]; omega
  · intro j
    show V c main_v90 (((cfg6.win 2).blk t).view.emb (ix2 (0 : Fin 1) j)) = _
    refine congrArg (V c main_v90) (funext fun a => Fin.ext ?_)
    match a with
    | ⟨0, _⟩ => show win6_2.index t (0 : Fin 2) * 1 + 1 * 0 = 0; rw [e20]
    | ⟨1, _⟩ => show win6_2.index t (1 : Fin 2) * 64 + 1 * j.val = j.val; rw [e21]; omega
  · show V c main_v91 (((cfg6.win 4).blk t).view.emb (ix2 (0 : Fin 1) cc)) = _
    refine congrArg (V c main_v91) (funext fun a => Fin.ext ?_)
    match a with
    | ⟨0, _⟩ => show win6_4.index t (0 : Fin 2) * 1 + 1 * 0 = 0; rw [e40]
    | ⟨1, _⟩ => show win6_4.index t (1 : Fin 2) * 1 + 1 * cc.val = cc.val; rw [e41]; omega
  · show layer _ _ _ _ _ _ = layer _ _ _ _ _ (((cfg6.win 5).blk t).view.emb (ix2 r cc))
    refine congrArg (layer (V c main_v83) (V c main_arg26) (V c main_v90) (V c main_arg28) (V c main_v91)) (funext fun a => Fin.ext ?_)
    match a with
    | ⟨0, _⟩ => show t.val * 2000 + r.val = win6_5.index t (0 : Fin 2) * 2000 + 1 * r.val; rw [e50]; omega
    | ⟨1, _⟩ => show cc.val = win6_5.index t (1 : Fin 2) * 1 + 1 * cc.val; rw [e51]; omega

/-- An index of the array is in point t's block iff each coordinate is in the block's range on its axis. -/
theorem mem_blk (t : Fin cfg6.N) (i : S100000x1.Idx) :
    i ∈ ((cfg6.win 5).blk t).view.set ↔ ∀ a : Fin 2, win6_5.index t a * S2000x1.size a ≤ (i a).val ∧ (i a).val < win6_5.index t a * S2000x1.size a + S2000x1.size a := by
  show i ∈ ((View.whole main_v92).slice (win6_5.rect t)).set ↔ _
  rw [View.set_slice_whole, Rect.mem_set_unit]
  exact Iff.rfl

/-- Every row is in the block of the point its number divided by 2000 names. -/
theorem covered (i : S100000x1.Idx) :
    ∃ t : Fin cfg6.N, (cfg6.win 5).flush t = true ∧ i ∈ ((cfg6.win 5).blk t).view.set := by
  have hi0 : (i 0).val < 100000 := (i 0).isLt
  have hi1 : (i 1).val < 1 := (i 1).isLt
  have hN : cfg6.N = 50 := Gen.N_6
  refine ⟨⟨(i 0).val / 2000, by rw [hN]; omega⟩, Gen.flush6_5 _, ?_⟩
  rw [mem_blk]
  obtain ⟨e00, e01, e10, e11, e20, e21, e30, e31, e40, e41, e50, e51⟩ := idx_facts ⟨(i 0).val / 2000, by rw [hN]; omega⟩
  intro a
  match a with
  | ⟨0, _⟩ =>
    show win6_5.index _ (0 : Fin 2) * 2000 ≤ (i 0).val ∧ (i 0).val < win6_5.index _ (0 : Fin 2) * 2000 + 2000
    rw [e50]; show (i 0).val / 2000 * 2000 ≤ (i 0).val ∧ (i 0).val < (i 0).val / 2000 * 2000 + 2000; omega
  | ⟨1, _⟩ =>
    show win6_5.index _ (1 : Fin 2) * 1 ≤ (i 1).val ∧ (i 1).val < win6_5.index _ (1 : Fin 2) * 1 + 1
    rw [e51]; omega

theorem array :
    (Gen.dat6 (F := Ideal) V c).arrAt 5 cfg6.N
      = layer (V c main_v83) (V c main_arg26) (V c main_v90) (V c main_arg28) (V c main_v91) :=
  (Gen.dat6 (F := Ideal) V c).arrAt_eq_of_cover 5 _ (fun t _ => flushed_eq V c t) (covered)

end Array

end Cert.KernelIdeal.Mlp6
end
-- ==== Proof.Mlp7.lean ====
import proofs.«180647_j29807073034770_1_alg».proof.Proof.Gen.KernelIdeal.Frame
import proofs.«180647_j29807073034770_1_alg».proof.ReferenceIdeal
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Mlp7

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- One two-layer head read at an index: entry (i0,i1) is the logistic function of
    Σ_j max( Σ_k x(i0,k)·W1(k,j) + b1(0,j) , 0 )·W2(j,i1) + b2(0,i1) on the extended reals. -/
def layer (x : S50000x128.Idx → EReal) (W1 : S128x64.Idx → EReal) (b1 : S1x64.Idx → EReal)
    (W2 : S64x1.Idx → EReal) (b2 : S1x1.Idx → EReal) : S50000x1.Idx → EReal := fun i =>
  Ideal.logistic ((∑ j : Fin 64, max ((∑ k : Fin 128, x (ix2 (i 0) k) * W1 (ix2 k j)) + b1 (ix2 (0 : Fin 1) j)) 0 * W2 (ix2 j (i 1)))
    + b2 (ix2 (0 : Fin 1) (i 1)))

/-- The head at an index given by its two coordinates. -/
theorem layer_ix (x : S50000x128.Idx → EReal) (W1 : S128x64.Idx → EReal) (b1 : S1x64.Idx → EReal)
    (W2 : S64x1.Idx → EReal) (b2 : S1x1.Idx → EReal) (r : Fin 50000) (c : Fin 1) :
    layer x W1 b1 W2 b2 (ix2 r c)
      = Ideal.logistic ((∑ j : Fin 64, max ((∑ k : Fin 128, x (ix2 r k) * W1 (ix2 k j)) + b1 (ix2 (0 : Fin 1) j)) 0 * W2 (ix2 j c))
        + b2 (ix2 (0 : Fin 1) c)) := rfl

/-! ## The reference's head, read at an index -/

/-- The bit pattern of the float 1.0 denotes the extended real 1. -/
theorem ofBits_one_f32 : Ideal.ofBits .f32 0x3F800000#32 = 1 := IdealRules.sign_bit.ideal_onePat .f32

/-- The logistic function of a vector, at an index. -/
theorem logistic_apply {s : Shape} (x : FVec Ideal s .f32) (i : s.Idx) : logistic x i = Ideal.logistic (x i) := rfl
/-- The host's quotient, exponential and negation of vectors, at an index. -/
theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostNegf_apply {s : Shape} (a : FVec Ideal s .f32) (i : s.Idx) : Host.negf a i = -(a i) := rfl

section Reference
variable [Cert.ReferenceIdeal.Facts]

theorem rdot1_l0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch from List.not_mem_nil),
    dif_pos (show (0 : Fin Cert.ReferenceIdeal.S50000x128.rank) ∈ Cert.ReferenceIdeal.dot_S50000x128_S128x64_S50000x64_1_0_0_1_n_n.lhsNonContracting from List.mem_singleton.mpr rfl)]
  rfl
theorem rdot1_l1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.lhsIdx i q 1).val = (q ⟨0, Nat.one_pos⟩).val :=
  Cert.ReferenceIdeal.dot_S50000x128_S128x64_S50000x64_1_0_0_1_n_n.lhsIdx_val_of_single rfl i q
theorem rdot1_r0 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 0).val = (q ⟨0, Nat.one_pos⟩).val :=
  Cert.ReferenceIdeal.dot_S50000x128_S128x64_S50000x64_1_0_0_1_n_n.rhsIdx_val_of_single rfl i q
theorem rdot1_r1 (i : Cert.ReferenceIdeal.S50000x64.Idx) (q : Cert.ReferenceIdeal.dot_S50000x128_S128x64_S50000x64_1_0_0_1_n_n.contr.Idx) :
    (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch from List.not_mem_nil),
    dif_pos (show (1 : Fin Cert.ReferenceIdeal.S128x64.rank) ∈ Cert.ReferenceIdeal.dot_S50000x128_S128x64_S50000x64_1_0_0_1_n_n.rhsNonContracting from List.mem_singleton.mpr rfl)]
  rfl
/-- The contraction of a [50000,128] by a [128,64] array, re-indexed over the 128 values of the contracted axis:
    entry (r, c) is Σ_k l(r,k)·w(k,c). -/
theorem rdot1_sum (l : Cert.ReferenceIdeal.S50000x128.Idx → EReal) (w : Cert.ReferenceIdeal.S128x64.Idx → EReal) (r : Fin 50000) (c : Fin 64) :
    ∑ q : Cert.ReferenceIdeal.dot_S50000x128_S128x64_S50000x64_1_0_0_1_n_n.contr.Idx, l (Cert.ReferenceIdeal.dot_S50000x128_S128x64_S50000x64_1_0_0_1_n_n.lhsIdx (ix2 r c) q) * w (Cert.ReferenceIdeal.dot_S50000x128_S128x64_S50000x64_1_0_0_1_n_n.rhsIdx (ix2 r c) q)
      = ∑ k : Fin 128, l (ix2 r k) * w (ix2 k c) := by
  rw [← Equiv.sum_comp (contrEquiv1 Cert.ReferenceIdeal.dot_S50000x128_S128x64_S50000x64_1_0_0_1_n_n 128 rfl rfl).symm]
  refine Finset.sum_congr rfl fun k _ => ?_
  have hk := contrEquiv1_symm_val Cert.ReferenceIdeal.dot_S50000x128_S128x64_S50000x64_1_0_0_1_n_n 128 rfl rfl k
  have el : Cert.ReferenceIdeal.dot_S50000x128_S128x64_S50000x64_1_0_0_1_n_n.lhsIdx (ix2 r c) ((contrEquiv1 Cert.ReferenceIdeal.dot_S50000x128_S128x64_S50000x64_1_0_0_1_n_n 128 rfl rfl).symm k) = ix2 r k := funext fun a => Fin.ext (by
    match a with
    | ⟨0, _⟩ => exact rdot1_l0 _ _
    | ⟨1, _⟩ => exact (rdot1_l1 _ _).trans hk)
  have er : Cert.ReferenceIdeal.dot_S50000x128_S128x64_S50000x64_1_0_0_1_n_n.rhsIdx (ix2 r c) ((contrEquiv1 Cert.ReferenceIdeal.dot_S50000x128_S128x64_S50000x64_1_0_0_1_n_n 128 rfl rfl).symm k) = ix2 k c := funext fun a => Fin.ext (by
    match a with
    | ⟨0, _⟩ => exact (rdot1_r0 _ _).trans hk
    | ⟨1, _⟩ => exact rdot1_r1 _ _)
  rw [el, er]

theorem rdot2_l0 (i : Cert.ReferenceIdeal.S50000x1.Idx) (q : Cert.ReferenceIdeal.dot_S50000x64_S64x1_S50000x1_1_0_0_1_n_n.contr.Idx) :
    (Cert.ReferenceIdeal.dot_S50000x64_S64x1_S50000x1_1_0_0_1_n_n.lhsIdx i q 0).val = (i 0).val := by
  unfold DotDims.lhsIdx
  rw [dif_neg (show ¬(0 : Fin Cert.ReferenceIdeal.S50000x64.rank) ∈ Cert.ReferenceIdeal.dot_S50000x64_S64x1_S50000x1_1_0_0_1_n_n.lhsBatch from List.not_mem_nil),
    dif_pos (show (0 : Fin Cert.ReferenceIdeal.S50000x64.rank) ∈ Cert.ReferenceIdeal.dot_S50000x64_S64x1_S50000x1_1_0_0_1_n_n.lhsNonContracting from List.mem_singleton.mpr rfl)]
  rfl
theorem rdot2_l1 (i : Cert.ReferenceIdeal.S50000x1.Idx) (q : Cert.ReferenceIdeal.dot_S50000x64_S64x1_S50000x1_1_0_0_1_n_n.contr.Idx) :
    (Cert.ReferenceIdeal.dot_S50000x64_S64x1_S50000x1_1_0_0_1_n_n.lhsIdx i q 1).val = (q ⟨0, Nat.one_pos⟩).val :=
  Cert.ReferenceIdeal.dot_S50000x64_S64x1_S50000x1_1_0_0_1_n_n.lhsIdx_val_of_single rfl i q
theorem rdot2_r0 (i : Cert.ReferenceIdeal.S50000x1.Idx) (q : Cert.ReferenceIdeal.dot_S50000x64_S64x1_S50000x1_1_0_0_1_n_n.contr.Idx) :
    (Cert.ReferenceIdeal.dot_S50000x64_S64x1_S50000x1_1_0_0_1_n_n.rhsIdx i q 0).val = (q ⟨0, Nat.one_pos⟩).val :=
  Cert.ReferenceIdeal.dot_S50000x64_S64x1_S50000x1_1_0_0_1_n_n.rhsIdx_val_of_single rfl i q
theorem rdot2_r1 (i : Cert.ReferenceIdeal.S50000x1.Idx) (q : Cert.ReferenceIdeal.dot_S50000x64_S64x1_S50000x1_1_0_0_1_n_n.contr.Idx) :
    (Cert.ReferenceIdeal.dot_S50000x64_S64x1_S50000x1_1_0_0_1_n_n.rhsIdx i q 1).val = (i 1).val := by
  unfold DotDims.rhsIdx
  rw [dif_neg (show ¬(1 : Fin Cert.ReferenceIdeal.S64x1.rank) ∈ Cert.ReferenceIdeal.dot_S50000x64_S64x1_S50000x1_1_0_0_1_n_n.rhsBatch from List.not_mem_nil),
    dif_pos (show (1 : Fin Cert.ReferenceIdeal.S64x1.rank) ∈ Cert.ReferenceIdeal.dot_S50000x64_S64x1_S50000x1_1_0_0_1_n_n.rhsNonContracting from List.mem_singleton.mpr rfl)]
  rfl
/-- The contraction of a [50000,64] by a [64,1] array, re-indexed over the 64 values of the contracted axis:
    entry (r, c) is Σ_k l(r,k)·w(k,c). -/
theorem rdot2_sum (l : Cert.ReferenceIdeal.S50000x64.Idx → EReal) (w : Cert.ReferenceIdeal.S64x1.Idx → EReal) (r : Fin 50000) (c : Fin 1) :
    ∑ q : Cert.ReferenceIdeal.dot_S50000x64_S64x1_S50000x1_1_0_0_1_n_n.contr.Idx, l (Cert.ReferenceIdeal.dot_S50000x64_S64x1_S50000x1_1_0_0_1_n_n.lhsIdx (ix2 r c) q) * w (Cert.ReferenceIdeal.dot_S50000x64_S64x1_S50000x1_1_0_0_1_n_n.rhsIdx (ix2 r c) q)
      = ∑ k : Fin 64, l (ix2 r k) * w (ix2 k c) := by
  rw [← Equiv.sum_comp (contrEquiv1 Cert.ReferenceIdeal.dot_S50000x64_S64x1_S50000x1_1_0_0_1_n_n 64 rfl rfl).symm]
  refine Finset.sum_congr rfl fun k _ => ?_
  have hk := contrEquiv1_symm_val Cert.ReferenceIdeal.dot_S50000x64_S64x1_S50000x1_1_0_0_1_n_n 64 rfl rfl k
  have el : Cert.ReferenceIdeal.dot_S50000x64_S64x1_S50000x1_1_0_0_1_n_n.lhsIdx (ix2 r c) ((contrEquiv1 Cert.ReferenceIdeal.dot_S50000x64_S64x1_S50000x1_1_0_0_1_n_n 64 rfl rfl).symm k) = ix2 r k := funext fun a => Fin.ext (by
    match a with
    | ⟨0, _⟩ => exact rdot2_l0 _ _
    | ⟨1, _⟩ => exact (rdot2_l1 _ _).trans hk)
  have er : Cert.ReferenceIdeal.dot_S50000x64_S64x1_S50000x1_1_0_0_1_n_n.rhsIdx (ix2 r c) ((contrEquiv1 Cert.ReferenceIdeal.dot_S50000x64_S64x1_S50000x1_1_0_0_1_n_n 64 rfl rfl).symm k) = ix2 k c := funext fun a => Fin.ext (by
    match a with
    | ⟨0, _⟩ => exact (rdot2_r0 _ _).trans hk
    | ⟨1, _⟩ => exact rdot2_r1 _ _)
  rw [el, er]

/-- A [64] bias broadcast to one row and then to every row reads, at (r, j), the bias at j. -/
theorem rbias1 (b1 : Cert.ReferenceIdeal.S64.Idx → EReal) (r : Fin 50000) (j : Fin 64) :
    broadcastInDim Cert.ReferenceIdeal.S50000x64 ![0, 1] Cert.ReferenceIdeal.Facts₀.bcast_S1x64_S50000x64_0_1
        (broadcastInDim Cert.ReferenceIdeal.S1x64 ![1] Cert.ReferenceIdeal.Facts₀.bcast_S64_S1x64_1 b1) (ix2 r j) = b1 (ix1 j) := by
  rw [broadcastInDim_apply _ Cert.ReferenceIdeal.Facts₀.bcast_S1x64_S50000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; have := j.isLt; split <;> omega)]
  exact broadcastInDim_apply _ Cert.ReferenceIdeal.Facts₀.bcast_S64_S1x64_1 b1 (ix2 (0 : Fin 1) j) (ix1 j) (fun a => match a with
    | ⟨0, _⟩ => by show j.val = if (64 : Nat) = 1 then 0 else j.val; have := j.isLt; split <;> omega)

/-- A [1] bias broadcast to one row and then to every row reads, at (r, c), the bias at c. -/
theorem rbias2 (b2 : Cert.ReferenceIdeal.S1.Idx → EReal) (r : Fin 50000) (c : Fin 1) :
    broadcastInDim Cert.ReferenceIdeal.S50000x1 ![0, 1] Cert.ReferenceIdeal.Facts₀.bcast_S1x1_S50000x1_0_1
        (broadcastInDim Cert.ReferenceIdeal.S1x1 ![1] Cert.ReferenceIdeal.Facts₀.bcast_S1_S1x1_1 b2) (ix2 r c) = b2 (ix1 c) := by
  rw [broadcastInDim_apply _ Cert.ReferenceIdeal.Facts₀.bcast_S1x1_S50000x1_0_1 _ (ix2 r c) (ix2 (0 : Fin 1) c) (fun a => match a with
    | ⟨0, _⟩ => by show 0 = if (1 : Nat) = 1 then 0 else r.val; rw [if_pos rfl]
    | ⟨1, _⟩ => by show c.val = if (1 : Nat) = 1 then 0 else c.val; have := c.isLt; split <;> omega)]
  exact broadcastInDim_apply _ Cert.ReferenceIdeal.Facts₀.bcast_S1_S1x1_1 b2 (ix2 (0 : Fin 1) c) (ix1 c) (fun a => match a with
    | ⟨0, _⟩ => by show c.val = if (1 : Nat) = 1 then 0 else c.val; have := c.isLt; split <;> omega)

/-- The zero scalar broadcast to every entry is the extended real 0. -/
theorem rzero (i : Cert.ReferenceIdeal.S50000x64.Idx) :
    broadcastInDim Cert.ReferenceIdeal.S50000x64 ![] Cert.ReferenceIdeal.Facts₀.bcast_S_S50000x64 (constant (F := Ideal) Cert.ReferenceIdeal.S_ .f32 0x00000000#32) i = 0 := by
  rw [broadcastInDim_apply _ Cert.ReferenceIdeal.Facts₀.bcast_S_S50000x64 _ i ix0 (fun a => a.elim0), constant_apply, Ideal.ofBits_zero_f32]

/-- The scalar 1.0 broadcast to every entry is the extended real 1. -/
theorem rone (i : Cert.ReferenceIdeal.S50000x1.Idx) :
    broadcastInDim Cert.ReferenceIdeal.S50000x1 ![] Cert.ReferenceIdeal.Facts₀.bcast_S_S50000x1 (constant (F := Ideal) Cert.ReferenceIdeal.S_ .f32 0x3F800000#32) i = 1 := by
  rw [broadcastInDim_apply _ Cert.ReferenceIdeal.Facts₀.bcast_S_S50000x1 _ i ix0 (fun a => a.elim0), constant_apply, ofBits_one_f32]

theorem host (x : FVec Ideal Cert.ReferenceIdeal.S50000x128 .f32) (W1 : FVec Ideal Cert.ReferenceIdeal.S128x64 .f32) (b1 : FVec Ideal Cert.ReferenceIdeal.S64 .f32)
    (W2 : FVec Ideal Cert.ReferenceIdeal.S64x1 .f32) (b2 : FVec Ideal Cert.ReferenceIdeal.S1 .f32) (h1 : S64.ShapeCasts S1x64) (h2 : S1.ShapeCasts S1x1) :
    Host.divf (F := Ideal) (broadcastInDim Cert.ReferenceIdeal.S50000x1 ![] Cert.ReferenceIdeal.Facts₀.bcast_S_S50000x1 (constant (F := Ideal) Cert.ReferenceIdeal.S_ .f32 0x3F800000#32))
        (addf (broadcastInDim Cert.ReferenceIdeal.S50000x1 ![] Cert.ReferenceIdeal.Facts₀.bcast_S_S50000x1 (constant (F := Ideal) Cert.ReferenceIdeal.S_ .f32 0x3F800000#32))
          (Host.exp (Host.negf
            (addf
        (Host.dotGeneral Cert.ReferenceIdeal.dot_S50000x64_S64x1_S50000x1_1_0_0_1_n_n none
          (maximumf
            (addf (Host.dotGeneral Cert.ReferenceIdeal.dot_S50000x128_S128x64_S50000x64_1_0_0_1_n_n none x W1)
                  (broadcastInDim Cert.ReferenceIdeal.S50000x64 ![0, 1] Cert.ReferenceIdeal.Facts₀.bcast_S1x64_S50000x64_0_1
                    (broadcastInDim Cert.ReferenceIdeal.S1x64 ![1] Cert.ReferenceIdeal.Facts₀.bcast_S64_S1x64_1 b1)))
            (broadcastInDim Cert.ReferenceIdeal.S50000x64 ![] Cert.ReferenceIdeal.Facts₀.bcast_S_S50000x64 (constant (F := Ideal) Cert.ReferenceIdeal.S_ .f32 0x00000000#32)))
          W2)
        (broadcastInDim Cert.ReferenceIdeal.S50000x1 ![0, 1] Cert.ReferenceIdeal.Facts₀.bcast_S1x1_S50000x1_0_1
          (broadcastInDim Cert.ReferenceIdeal.S1x1 ![1] Cert.ReferenceIdeal.Facts₀.bcast_S1_S1x1_1 b2))))))
      = layer x W1 (shapeCast S1x64 b1 h1) W2 (shapeCast S1x1 b2 h2) := by
  funext i
  obtain ⟨r, c, rfl⟩ : ∃ (r : Fin 50000) (c : Fin 1), i = ix2 r c := ⟨i 0, i 1, eq_ix2 i⟩
  rw [layer_ix]
  rw [hostDivf_apply, rone, addf_apply, rone, hostExp_apply, hostNegf_apply, Ideal.logistic]
  refine congrArg (fun z => Ideal.div 1 (1 + Ideal.exp (-z))) ?_
  rw [addf_apply, rbias2, shapeCast_a_1a_apply]
  simp only [Host.dotGeneral]
  rw [Ideal.dotGeneral_apply, rdot2_sum]
  refine congrArg (· + b2 (ix1 c)) (Finset.sum_congr rfl fun j _ => ?_)
  rw [maximumf_apply, addf_apply, rbias1, rzero, shapeCast_a_1a_apply, Ideal.dotGeneral_apply, rdot1_sum]

end Reference

/-! ## The kernel's payload, read at an index -/

theorem kdot1_l0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch from List.not_mem_nil),
    dif_pos (show (0 : Fin S2000x128.rank) ∈ dot_S2000x128_S128x64_S2000x64_1_0_0_1_n_n.lhsNonContracting from List.mem_singleton.mpr rfl)]
  rfl
theorem kdot1_l1 (i : S2000x64.Idx) (q : dot_S2000x128_S128x64_S2000x64_1_0_0_1_n_n.contr.Idx) :
    (dot_S2000x128_S128x64_S2000x64_1_0_0_1_n_n.lhsIdx i q 1).val = (q ⟨0, Nat.one_pos⟩).val :=
  dot_S2000x128_S128x64_S2000x64_1_0_0_1_n_n.lhsIdx_val_of_single rfl i q
theorem kdot1_r0 (i : S2000x64.Idx) (q : dot_S2000x128_S128x64_S2000x64_1_0_0_1_n_n.contr.Idx) :
    (dot_S2000x128_S128x64_S2000x64_1_0_0_1_n_n.rhsIdx i q 0).val = (q ⟨0, Nat.one_pos⟩).val :=
  dot_S2000x128_S128x64_S2000x64_1_0_0_1_n_n.rhsIdx_val_of_single rfl i q
theorem kdot1_r1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch from List.not_mem_nil),
    dif_pos (show (1 : Fin S128x64.rank) ∈ dot_S2000x128_S128x64_S2000x64_1_0_0_1_n_n.rhsNonContracting from List.mem_singleton.mpr rfl)]
  rfl
/-- The contraction of a [2000,128] by a [128,64] array, re-indexed over the 128 values of the contracted axis:
    entry (r, c) is Σ_k l(r,k)·w(k,c). -/
theorem kdot1_sum (l : S2000x128.Idx → EReal) (w : S128x64.Idx → EReal) (r : Fin 2000) (c : Fin 64) :
    ∑ q : dot_S2000x128_S128x64_S2000x64_1_0_0_1_n_n.contr.Idx, l (dot_S2000x128_S128x64_S2000x64_1_0_0_1_n_n.lhsIdx (ix2 r c) q) * w (dot_S2000x128_S128x64_S2000x64_1_0_0_1_n_n.rhsIdx (ix2 r c) q)
      = ∑ k : Fin 128, l (ix2 r k) * w (ix2 k c) := by
  rw [← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 r c) ((contrEquiv1 dot_S2000x128_S128x64_S2000x64_1_0_0_1_n_n 128 rfl rfl).symm k) = ix2 r k := funext fun a => Fin.ext (by
    match a with
    | ⟨0, _⟩ => exact kdot1_l0 _ _
    | ⟨1, _⟩ => exact (kdot1_l1 _ _).trans hk)
  have er : dot_S2000x128_S128x64_S2000x64_1_0_0_1_n_n.rhsIdx (ix2 r c) ((contrEquiv1 dot_S2000x128_S128x64_S2000x64_1_0_0_1_n_n 128 rfl rfl).symm k) = ix2 k c := funext fun a => Fin.ext (by
    match a with
    | ⟨0, _⟩ => exact (kdot1_r0 _ _).trans hk
    | ⟨1, _⟩ => exact kdot1_r1 _ _)
  rw [el, er]

theorem kdot2_l0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch from List.not_mem_nil),
    dif_pos (show (0 : Fin S2000x64.rank) ∈ dot_S2000x64_S64x1_S2000x1_1_0_0_1_n_n.lhsNonContracting from List.mem_singleton.mpr rfl)]
  rfl
theorem kdot2_l1 (i : S2000x1.Idx) (q : dot_S2000x64_S64x1_S2000x1_1_0_0_1_n_n.contr.Idx) :
    (dot_S2000x64_S64x1_S2000x1_1_0_0_1_n_n.lhsIdx i q 1).val = (q ⟨0, Nat.one_pos⟩).val :=
  dot_S2000x64_S64x1_S2000x1_1_0_0_1_n_n.lhsIdx_val_of_single rfl i q
theorem kdot2_r0 (i : S2000x1.Idx) (q : dot_S2000x64_S64x1_S2000x1_1_0_0_1_n_n.contr.Idx) :
    (dot_S2000x64_S64x1_S2000x1_1_0_0_1_n_n.rhsIdx i q 0).val = (q ⟨0, Nat.one_pos⟩).val :=
  dot_S2000x64_S64x1_S2000x1_1_0_0_1_n_n.rhsIdx_val_of_single rfl i q
theorem kdot2_r1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch from List.not_mem_nil),
    dif_pos (show (1 : Fin S64x1.rank) ∈ dot_S2000x64_S64x1_S2000x1_1_0_0_1_n_n.rhsNonContracting from List.mem_singleton.mpr rfl)]
  rfl
/-- The contraction of a [2000,64] by a [64,1] array, re-indexed over the 64 values of the contracted axis:
    entry (r, c) is Σ_k l(r,k)·w(k,c). -/
theorem kdot2_sum (l : S2000x64.Idx → EReal) (w : S64x1.Idx → EReal) (r : Fin 2000) (c : Fin 1) :
    ∑ q : dot_S2000x64_S64x1_S2000x1_1_0_0_1_n_n.contr.Idx, l (dot_S2000x64_S64x1_S2000x1_1_0_0_1_n_n.lhsIdx (ix2 r c) q) * w (dot_S2000x64_S64x1_S2000x1_1_0_0_1_n_n.rhsIdx (ix2 r c) q)
      = ∑ k : Fin 64, l (ix2 r k) * w (ix2 k c) := by
  rw [← Equiv.sum_comp (contrEquiv1 dot_S2000x64_S64x1_S2000x1_1_0_0_1_n_n 64 rfl rfl).symm]
  refine Finset.sum_congr rfl fun k _ => ?_
  have hk := contrEquiv1_symm_val dot_S2000x64_S64x1_S2000x1_1_0_0_1_n_n 64 rfl rfl k
  have el : dot_S2000x64_S64x1_S2000x1_1_0_0_1_n_n.lhsIdx (ix2 r c) ((contrEquiv1 dot_S2000x64_S64x1_S2000x1_1_0_0_1_n_n 64 rfl rfl).symm k) = ix2 r k := funext fun a => Fin.ext (by
    match a with
    | ⟨0, _⟩ => exact kdot2_l0 _ _
    | ⟨1, _⟩ => exact (kdot2_l1 _ _).trans hk)
  have er : dot_S2000x64_S64x1_S2000x1_1_0_0_1_n_n.rhsIdx (ix2 r c) ((contrEquiv1 dot_S2000x64_S64x1_S2000x1_1_0_0_1_n_n 64 rfl rfl).symm k) = ix2 k c := funext fun a => Fin.ext (by
    match a with
    | ⟨0, _⟩ => exact (kdot2_r0 _ _).trans hk
    | ⟨1, _⟩ => exact kdot2_r1 _ _)
  rw [el, er]

/-- The body's one store, at row r and column c of its block of 2000 rows: the two-layer head of the block's rows. -/
theorem pay_ix (x : Vec Ideal S2000x128 .f32) (W1 : Vec Ideal S128x64 .f32) (W2 : Vec Ideal S64x1 .f32)
    (b1 : Vec Ideal S1x64 .f32) (b2 : Vec Ideal S1x1 .f32) (r : Fin 2000) (c : Fin 1) :
    Gen.k7_pay1 (F := Ideal) x W1 W2 b1 b2 (ix2 r c)
      = Ideal.logistic ((∑ j : Fin 64, max ((∑ k : Fin 128, x (ix2 r k) * W1 (ix2 k j)) + b1 (ix2 (0 : Fin 1) j)) 0 * W2 (ix2 j c))
        + b2 (ix2 (0 : Fin 1) c)) := by
  unfold Gen.k7_pay1
  simp only [shapeCast_self]
  rw [logistic_apply]
  refine congrArg Ideal.logistic ?_
  rw [addf_apply, broadcastTo_1b_ab_apply]
  simp only [matmul]
  rw [Ideal.matmul_constant_zero_apply, kdot2_sum]
  refine congrArg (· + b2 (ix2 (0 : Fin 1) c)) (Finset.sum_congr rfl fun j _ => ?_)
  rw [truncf_apply, truncf_apply, maximumf_apply, addf_apply, broadcastTo_1b_ab_apply, broadcast_apply,
    Ideal.matmul_constant_zero_apply, kdot1_sum]
  simp only [truncf_apply, Ideal.ofBits_def, Ideal.ofBits_zero_f32]

/-! ## From blocks to the array -/

/-- A block of 2000 rows whose x row r is row R of the array and whose parameters are the whole parameter
    arrays: its payload at (r, c) is the head at (R, c). -/
theorem block_eq (X : S50000x128.Idx → EReal) (A1 : S128x64.Idx → EReal) (B1 : S1x64.Idx → EReal)
    (A2 : S64x1.Idx → EReal) (B2 : S1x1.Idx → EReal)
    (x : Vec Ideal S2000x128 .f32) (w1 : Vec Ideal S128x64 .f32) (w2 : Vec Ideal S64x1 .f32)
    (bb1 : Vec Ideal S1x64 .f32) (bb2 : Vec Ideal S1x1 .f32) (r : Fin 2000) (c : Fin 1) (R : Fin 50000)
    (hx : ∀ k : Fin 128, x (ix2 r k) = X (ix2 R k))
    (hw1 : ∀ (k : Fin 128) (j : Fin 64), w1 (ix2 k j) = A1 (ix2 k j))
    (hw2 : ∀ (j : Fin 64), w2 (ix2 j c) = A2 (ix2 j c))
    (hb1 : ∀ j : Fin 64, bb1 (ix2 (0 : Fin 1) j) = B1 (ix2 (0 : Fin 1) j))
    (hb2 : bb2 (ix2 (0 : Fin 1) c) = B2 (ix2 (0 : Fin 1) c)) :
    Gen.k7_pay1 (F := Ideal) x w1 w2 bb1 bb2 (ix2 r c) = layer X A1 B1 A2 B2 (ix2 R c) := by
  rw [pay_ix, layer_ix, hb2]
  refine congrArg Ideal.logistic ?_
  refine congrArg (· + B2 (ix2 (0 : Fin 1) c)) (Finset.sum_congr rfl fun j _ => ?_)
  rw [hw2, hb1]
  refine congrArg (fun z => max (z + B1 (ix2 (0 : Fin 1) j)) 0 * A2 (ix2 j c)) (Finset.sum_congr rfl fun k _ => ?_)
  rw [hx, hw1]

section Array
variable (V : (c : Dev nD) → (b : Ref sig .tc) → Buf (Elt Ideal) ((c : Thread nD τ).loc b)) (c : Dev nD)

theorem hz : (![0, 0] : Fin 2 → Nat) = fun _ => 0 := funext fun a => by fin_cases a <;> rfl

/-- The printed index maps, decided over the 25 points: the x window and the output window sit at block t on the
    rows and block 0 on the columns; the four parameter windows are their whole arrays. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- What point t writes back is block t of the head of the arrays as the region finds them. -/
theorem flushed_eq (t : Fin cfg7.N) :
    (Gen.dat7 (F := Ideal) V c).flushed 5 t
      = ((cfg7.win 5).blk t).view.read (Elt Ideal)
          (layer (V c main_v62) (V c main_arg26) (V c main_v94) (V c main_arg28) (V c main_v95)) := by
  show (cfg7.win 5).cut (grid7.coords t) ((Gen.dat7 (F := Ideal) V c).after 5 t) = _
  rw [Gen.after7_5]
  unfold Gen.out7_5
  rw [View.canon_unit_zero hz]
  simp only [View.ld_unit_zero (S := S2000x128) hz, View.ld_unit_zero (S := S128x64) hz, View.ld_unit_zero (S := S64x1) hz,
    View.ld_unit_zero (S := S1x64) hz, View.ld_unit_zero (S := S1x1) hz]
  obtain ⟨e00, e01, e10, e11, e20, e21, e30, e31, e40, e41, e50, e51⟩ := idx_facts t
  have ht : t.val < 25 := t.isLt
  funext y
  obtain ⟨r, cc, rfl⟩ : ∃ (r : Fin 2000) (cc : Fin 1), y = ix2 r cc := ⟨y 0, y 1, eq_ix2 y⟩
  have hR : t.val * 2000 + r.val < 50000 := by have := r.isLt; omega
  refine (block_eq (V c main_v62) (V c main_arg26) (V c main_v94) (V c main_arg28) (V c main_v95)
    (Gen.iblk7 V c 0 t) (Gen.iblk7 V c 1 t) (Gen.iblk7 V c 3 t) (Gen.iblk7 V c 2 t) (Gen.iblk7 V c 4 t) r cc
    ⟨t.val * 2000 + r.val, hR⟩ ?_ ?_ ?_ ?_ ?_).trans ?_
  · intro k
    show V c main_v62 (((cfg7.win 0).blk t).view.emb (ix2 r k)) = _
    refine congrArg (V c main_v62) (funext fun a => Fin.ext ?_)
    match a with
    | ⟨0, _⟩ => show win7_0.index t (0 : Fin 2) * 2000 + 1 * r.val = t.val * 2000 + r.val; rw [e00]; omega
    | ⟨1, _⟩ => show win7_0.index t (1 : Fin 2) * 128 + 1 * k.val = k.val; rw [e01]; omega
  · intro k j
    show V c main_arg26 (((cfg7.win 1).blk t).view.emb (ix2 k j)) = _
    refine congrArg (V c main_arg26) (funext fun a => Fin.ext ?_)
    match a with
    | ⟨0, _⟩ => show win7_1.index t (0 : Fin 2) * 128 + 1 * k.val = k.val; rw [e10]; omega
    | ⟨1, _⟩ => show win7_1.index t (1 : Fin 2) * 64 + 1 * j.val = j.val; rw [e11]; omega
  · intro j
    show V c main_arg28 (((cfg7.win 3).blk t).view.emb (ix2 j cc)) = _
    refine congrArg (V c main_arg28) (funext fun a => Fin.ext ?_)
    match a with
    | ⟨0, _⟩ => show win7_3.index t (0 : Fin 2) * 64 + 1 * j.val = j.val; rw [e30]; omega
    | ⟨1, _⟩ => show win7_3.index t (1 : Fin 2) * 1 + 1 * cc.val = cc.val; rw [e31]; omega
  · intro j
    show V c main_v94 (((cfg7.win 2).blk t).view.emb (ix2 (0 : Fin 1) j)) = _
    refine congrArg (V c main_v94) (funext fun a => Fin.ext ?_)
    match a with
    | ⟨0, _⟩ => show win7_2.index t (0 : Fin 2) * 1 + 1 * 0 = 0; rw [e20]
    | ⟨1, _⟩ => show win7_2.index t (1 : Fin 2) * 64 + 1 * j.val = j.val; rw [e21]; omega
  · show V c main_v95 (((cfg7.win 4).blk t).view.emb (ix2 (0 : Fin 1) cc)) = _
    refine congrArg (V c main_v95) (funext fun a => Fin.ext ?_)
    match a with
    | ⟨0, _⟩ => show win7_4.index t (0 : Fin 2) * 1 + 1 * 0 = 0; rw [e40]
    | ⟨1, _⟩ => show win7_4.index t (1 : Fin 2) * 1 + 1 * cc.val = cc.val; rw [e41]; omega
  · show layer _ _ _ _ _ _ = layer _ _ _ _ _ (((cfg7.win 5).blk t).view.emb (ix2 r cc))
    refine congrArg (layer (V c main_v62) (V c main_arg26) (V c main_v94) (V c main_arg28) (V c main_v95)) (funext fun a => Fin.ext ?_)
    match a with
    | ⟨0, _⟩ => show t.val * 2000 + r.val = win7_5.index t (0 : Fin 2) * 2000 + 1 * r.val; rw [e50]; omega
    | ⟨1, _⟩ => show cc.val = win7_5.index t (1 : Fin 2) * 1 + 1 * cc.val; rw [e51]; omega

/-- An index of the array is in point t's block iff each coordinate is in the block's range on its axis. -/
theorem mem_blk (t : Fin cfg7.N) (i : S50000x1.Idx) :
    i ∈ ((cfg7.win 5).blk t).view.set ↔ ∀ a : Fin 2, win7_5.index t a * S2000x1.size a ≤ (i a).val ∧ (i a).val < win7_5.index t a * S2000x1.size a + S2000x1.size a := by
  show i ∈ ((View.whole main_v96).slice (win7_5.rect t)).set ↔ _
  rw [View.set_slice_whole, Rect.mem_set_unit]
  exact Iff.rfl

/-- Every row is in the block of the point its number divided by 2000 names. -/
theorem covered (i : S50000x1.Idx) :
    ∃ t : Fin cfg7.N, (cfg7.win 5).flush t = true ∧ i ∈ ((cfg7.win 5).blk t).view.set := by
  have hi0 : (i 0).val < 50000 := (i 0).isLt
  have hi1 : (i 1).val < 1 := (i 1).isLt
  have hN : cfg7.N = 25 := Gen.N_7
  refine ⟨⟨(i 0).val / 2000, by rw [hN]; omega⟩, Gen.flush7_5 _, ?_⟩
  rw [mem_blk]
  obtain ⟨e00, e01, e10, e11, e20, e21, e30, e31, e40, e41, e50, e51⟩ := idx_facts ⟨(i 0).val / 2000, by rw [hN]; omega⟩
  intro a
  match a with
  | ⟨0, _⟩ =>
    show win7_5.index _ (0 : Fin 2) * 2000 ≤ (i 0).val ∧ (i 0).val < win7_5.index _ (0 : Fin 2) * 2000 + 2000
    rw [e50]; show (i 0).val / 2000 * 2000 ≤ (i 0).val ∧ (i 0).val < (i 0).val / 2000 * 2000 + 2000; omega
  | ⟨1, _⟩ =>
    show win7_5.index _ (1 : Fin 2) * 1 ≤ (i 1).val ∧ (i 1).val < win7_5.index _ (1 : Fin 2) * 1 + 1
    rw [e51]; omega

theorem array :
    (Gen.dat7 (F := Ideal) V c).arrAt 5 cfg7.N
      = layer (V c main_v62) (V c main_arg26) (V c main_v94) (V c main_arg28) (V c main_v95) :=
  (Gen.dat7 (F := Ideal) V c).arrAt_eq_of_cover 5 _ (fun t _ => flushed_eq V c t) (covered)

end Array

end Cert.KernelIdeal.Mlp7
end
-- ==== Proof.Fold.lean ====
import proofs.«180647_j29807073034770_1_alg».proof.Proof.Gen.KernelIdeal.Frame
import Idealize.ShloMosaic.PureOps.Ideal.Laws
import Idealize.ShloMosaic.Lib.Pipeline.Value
import Idealize.ShloMosaic.Lib.ValueIdx
import Idealize.ShloMosaic.Lib.ValueLayout

/-! # The buffer contents at the boundaries of @main, read back

@main alternates nine stretches of host operations with eight regions. The contents at a boundary are a fold
from the launch memory: a host stretch rewrites exactly the buffers its operations write, a region rewrites
exactly its output array. So a buffer read at a boundary walks back, stretch by stretch and region by region,
to the last place that wrote it: the launch memory for an argument, a host operation's value for an
aggregation or a reshaped bias, a region's output array for a hidden layer. -/

noncomputable section

namespace Cert.KernelIdeal.Fold

open Idealize.ShloMosaic Idealize.ShloMosaic.TcCoe Idealize.ShloMosaic.Tactic
open Idealize.ShloMosaic.Pipeline (Dat Cfg Window)
open Cert.KernelIdeal Cert.KernelIdeal.Gen

/-! ## What each host stretch writes, and that it keeps every other buffer -/

section Keeps
variable {F : FTy → Type} [FloatOps F]

/-- The buffers the operations of host stretch 0 write, in order. -/
abbrev written0 : List (Ref sig .tc) := [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19]
theorem hostOps0_writes : (hostOps0 : List (HloOp τ sig (Elt F))).Forall fun op => op.writes ⊆ (written0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 0 does not write keeps its contents through it. -/
theorem stretch0_keeps (W : Valuation τ sig (Elt F)) (b : Ref sig .tc) (hb : b ∉ written0) :
    StableHlo.after hostOps0 W (Proc.devRef .tc b) = W (Proc.devRef .tc b) :=
  StableHlo.after_of_writes_sub hostOps0 W hostOps0_writes hb

/-- The buffers the operations of host stretch 1 write, in order. -/
abbrev written1 : List (Ref sig .tc) := [main_c_4, main_v21, main_v22, main_c_5, main_v23, main_v24, main_v25, main_v26, main_v27, main_cst_6, main_v28, main_v29, main_v30, main_cst_7, main_v31, main_cst_8, main_v32, main_v33, main_v34, main_cst_9, main_v35, main_v36, main_v37, main_v38, main_v39, main_v40]
theorem hostOps1_writes : (hostOps1 : List (HloOp τ sig (Elt F))).Forall fun op => op.writes ⊆ (written1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 1 does not write keeps its contents through it. -/
theorem stretch1_keeps (W : Valuation τ sig (Elt F)) (b : Ref sig .tc) (hb : b ∉ written1) :
    StableHlo.after hostOps1 W (Proc.devRef .tc b) = W (Proc.devRef .tc b) :=
  StableHlo.after_of_writes_sub hostOps1 W hostOps1_writes hb

/-- The buffers the operations of host stretch 2 write, in order. -/
abbrev written2 : List (Ref sig .tc) := [main_c_10, main_v42, main_v43, main_c_11, main_v44, main_v45, main_v46, main_v47, main_v48, main_cst_12, main_v49, main_v50, main_v51, main_cst_13, main_v52, main_cst_14, main_v53, main_v54, main_v55, main_cst_15, main_v56, main_v57, main_v58, main_v59, main_v60, main_v61]
theorem hostOps2_writes : (hostOps2 : List (HloOp τ sig (Elt F))).Forall fun op => op.writes ⊆ (written2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 2 does not write keeps its contents through it. -/
theorem stretch2_keeps (W : Valuation τ sig (Elt F)) (b : Ref sig .tc) (hb : b ∉ written2) :
    StableHlo.after hostOps2 W (Proc.devRef .tc b) = W (Proc.devRef .tc b) :=
  StableHlo.after_of_writes_sub hostOps2 W hostOps2_writes hb

/-- The buffers the operations of host stretch 3 write, in order. -/
abbrev written3 : List (Ref sig .tc) := [main_c_16, main_v63, main_v64, main_c_17, main_v65, main_v66, main_v67, main_v68, main_v69, main_cst_18, main_v70, main_v71, main_v72, main_cst_19, main_v73, main_cst_20, main_v74, main_v75, main_v76, main_cst_21, main_v77, main_v78, main_v79, main_v80, main_v81, main_v82]
theorem hostOps3_writes : (hostOps3 : List (HloOp τ sig (Elt F))).Forall fun op => op.writes ⊆ (written3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 3 does not write keeps its contents through it. -/
theorem stretch3_keeps (W : Valuation τ sig (Elt F)) (b : Ref sig .tc) (hb : b ∉ written3) :
    StableHlo.after hostOps3 W (Proc.devRef .tc b) = W (Proc.devRef .tc b) :=
  StableHlo.after_of_writes_sub hostOps3 W hostOps3_writes hb

/-- The buffers the operations of host stretch 4 write, in order. -/
abbrev written4 : List (Ref sig .tc) := [main_v84, main_v85]
theorem hostOps4_writes : (hostOps4 : List (HloOp τ sig (Elt F))).Forall fun op => op.writes ⊆ (written4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 4 does not write keeps its contents through it. -/
theorem stretch4_keeps (W : Valuation τ sig (Elt F)) (b : Ref sig .tc) (hb : b ∉ written4) :
    StableHlo.after hostOps4 W (Proc.devRef .tc b) = W (Proc.devRef .tc b) :=
  StableHlo.after_of_writes_sub hostOps4 W hostOps4_writes hb

/-- The buffers the operations of host stretch 5 write, in order. -/
abbrev written5 : List (Ref sig .tc) := [main_v87, main_v88]
theorem hostOps5_writes : (hostOps5 : List (HloOp τ sig (Elt F))).Forall fun op => op.writes ⊆ (written5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 5 does not write keeps its contents through it. -/
theorem stretch5_keeps (W : Valuation τ sig (Elt F)) (b : Ref sig .tc) (hb : b ∉ written5) :
    StableHlo.after hostOps5 W (Proc.devRef .tc b) = W (Proc.devRef .tc b) :=
  StableHlo.after_of_writes_sub hostOps5 W hostOps5_writes hb

/-- The buffers the operations of host stretch 6 write, in order. -/
abbrev written6 : List (Ref sig .tc) := [main_v90, main_v91]
theorem hostOps6_writes : (hostOps6 : List (HloOp τ sig (Elt F))).Forall fun op => op.writes ⊆ (written6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 6 does not write keeps its contents through it. -/
theorem stretch6_keeps (W : Valuation τ sig (Elt F)) (b : Ref sig .tc) (hb : b ∉ written6) :
    StableHlo.after hostOps6 W (Proc.devRef .tc b) = W (Proc.devRef .tc b) :=
  StableHlo.after_of_writes_sub hostOps6 W hostOps6_writes hb

/-- The buffers the operations of host stretch 7 write, in order. -/
abbrev written7 : List (Ref sig .tc) := [main_v93, main_v94, main_v95]
theorem hostOps7_writes : (hostOps7 : List (HloOp τ sig (Elt F))).Forall fun op => op.writes ⊆ (written7.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 7 does not write keeps its contents through it. -/
theorem stretch7_keeps (W : Valuation τ sig (Elt F)) (b : Ref sig .tc) (hb : b ∉ written7) :
    StableHlo.after hostOps7 W (Proc.devRef .tc b) = W (Proc.devRef .tc b) :=
  StableHlo.after_of_writes_sub hostOps7 W hostOps7_writes hb

/-- The buffers the operations of host stretch 8 write, in order. -/
abbrev written8 : List (Ref sig .tc) := [main_v97]
theorem hostOps8_writes : (hostOps8 : List (HloOp τ sig (Elt F))).Forall fun op => op.writes ⊆ (written8.map (Proc.devRef (τ := τ) .tc)).toFinset := by
  simp only [List.Forall]
  (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- A buffer that host stretch 8 does not write keeps its contents through it. -/
theorem stretch8_keeps (W : Valuation τ sig (Elt F)) (b : Ref sig .tc) (hb : b ∉ written8) :
    StableHlo.after hostOps8 W (Proc.devRef .tc b) = W (Proc.devRef .tc b) :=
  StableHlo.after_of_writes_sub hostOps8 W hostOps8_writes hb

end Keeps

/-! ## The mean aggregations, each as one function of three arrays

The four long host stretches compute the same chain on different operands; the chain is carried as a named function
and never opened. -/

/-- The mean aggregation of host stretch 0, as one function of the source features `x` (100000 rows of 64) and the edge
    lists `src`, `dst` (10^6 edges): gather the rows `x[src]` (a negative index wrapped by 100000), add them into
    50000 rows at `dst`, and divide row-wise by the number of edges arriving there, at least one. -/
def agg0 (x : FVec Ideal S100000x64 .f32) (src dst : IVec S1000000 32) : FVec Ideal S50000x64 .f32 :=
  Host.divf (F := Ideal)
    (Host.scatterAdd scatter_S50000x64_S1000000x1_S1000000x64_1_0_0_1
      (broadcastInDim S50000x64 ![] bcast_S_S50000x64 (constant (F := Ideal) S_ .f32 0x00000000#32))
      (broadcastInDim S1000000x1 ![0] bcast_S1000000_S1000000x1_0 dst)
      (Host.gather gather_S100000x64_S1000000x1_S1000000x64_1_0_n_n_0_1_164 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S50000x64 ![0, 1] bcast_S50000x1_S50000x64_0_1
      (broadcastInDim S50000x1 ![0] bcast_S50000_S50000x1_0
        (maximumf
          (Host.scatterAdd scatter_S50000_S1000000x1_S1000000_n_0_0_1
            (broadcastInDim S50000 ![] bcast_S_S50000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S50000 ![] bcast_S_S50000 (constant (F := Ideal) S_ .f32 0x3F800000#32)))))

/-- The mean aggregation of host stretch 1, as one function of the source features `x` (50000 rows of 64) and the edge
    lists `src`, `dst` (10^6 edges): gather the rows `x[src]` (a negative index wrapped by 50000), add them into
    100000 rows at `dst`, and divide row-wise by the number of edges arriving there, at least one. -/
def agg1 (x : FVec Ideal S50000x64 .f32) (src dst : IVec S1000000 32) : FVec Ideal S100000x64 .f32 :=
  Host.divf (F := Ideal)
    (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 dst)
      (Host.gather gather_S50000x64_S1000000x1_S1000000x64_1_0_n_n_0_1_164 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))))
    (broadcastInDim S100000x64 ![0, 1] bcast_S100000x1_S100000x64_0_1
      (broadcastInDim S100000x1 ![0] bcast_S100000_S100000x1_0
        (maximumf
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S100000 ![] bcast_S_S100000 (constant (F := Ideal) S_ .f32 0x3F800000#32)))))

/-- The mean aggregation of host stretch 2, as one function of the source features `x` (100000 rows of 128) and the edge
    lists `src`, `dst` (10^6 edges): gather the rows `x[src]` (a negative index wrapped by 100000), add them into
    50000 rows at `dst`, and divide row-wise by the number of edges arriving there, at least one. -/
def agg2 (x : FVec Ideal S100000x128 .f32) (src dst : IVec S1000000 32) : FVec Ideal S50000x128 .f32 :=
  Host.divf (F := Ideal)
    (Host.scatterAdd scatter_S50000x128_S1000000x1_S1000000x128_1_0_0_1
      (broadcastInDim S50000x128 ![] bcast_S_S50000x128 (constant (F := Ideal) S_ .f32 0x00000000#32))
      (broadcastInDim S1000000x1 ![0] bcast_S1000000_S1000000x1_0 dst)
      (Host.gather gather_S100000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S50000x128 ![0, 1] bcast_S50000x1_S50000x128_0_1
      (broadcastInDim S50000x1 ![0] bcast_S50000_S50000x1_0
        (maximumf
          (Host.scatterAdd scatter_S50000_S1000000x1_S1000000_n_0_0_1
            (broadcastInDim S50000 ![] bcast_S_S50000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S50000 ![] bcast_S_S50000 (constant (F := Ideal) S_ .f32 0x3F800000#32)))))

/-- The mean aggregation of host stretch 3, as one function of the source features `x` (50000 rows of 128) and the edge
    lists `src`, `dst` (10^6 edges): gather the rows `x[src]` (a negative index wrapped by 50000), add them into
    100000 rows at `dst`, and divide row-wise by the number of edges arriving there, at least one. -/
def agg3 (x : FVec Ideal S50000x128 .f32) (src dst : IVec S1000000 32) : FVec Ideal S100000x128 .f32 :=
  Host.divf (F := Ideal)
    (Host.scatterAdd scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 dst)
      (Host.gather gather_S50000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S100000 ![] bcast_S_S100000 (constant (F := Ideal) S_ .f32 0x3F800000#32)))))

/-! ## What a host stretch leaves in the buffers it writes, from any contents `W` it starts at -/

theorem stretch0_v18 (W : Valuation τ sig (Elt Ideal)) :
    StableHlo.after hostOps0 W (Proc.devRef .tc main_v18) = agg0 (W (Proc.devRef .tc main_arg0)) (W (Proc.devRef .tc main_arg2)) (W (Proc.devRef .tc main_arg3)) := by
  after_results_simp; rfl
theorem stretch1_v39 (W : Valuation τ sig (Elt Ideal)) :
    StableHlo.after hostOps1 W (Proc.devRef .tc main_v39) = agg1 (W (Proc.devRef .tc main_arg1)) (W (Proc.devRef .tc main_arg4)) (W (Proc.devRef .tc main_arg5)) := by
  after_results_simp; rfl
theorem stretch2_v60 (W : Valuation τ sig (Elt Ideal)) :
    StableHlo.after hostOps2 W (Proc.devRef .tc main_v60) = agg2 (W (Proc.devRef .tc main_v41)) (W (Proc.devRef .tc main_arg2)) (W (Proc.devRef .tc main_arg3)) := by
  after_results_simp; rfl
theorem stretch3_v81 (W : Valuation τ sig (Elt Ideal)) :
    StableHlo.after hostOps3 W (Proc.devRef .tc main_v81) = agg3 (W (Proc.devRef .tc main_v20)) (W (Proc.devRef .tc main_arg4)) (W (Proc.devRef .tc main_arg5)) := by
  after_results_simp; rfl
theorem stretch0_v19 (W : Valuation τ sig (Elt Ideal)) :
    StableHlo.after hostOps0 W (Proc.devRef .tc main_v19) = shapeCast S1x128 (W (Proc.devRef .tc main_arg7)) shapeCasts_S128_S1x128 := by
  after_results_simp; rfl
theorem stretch1_v40 (W : Valuation τ sig (Elt Ideal)) :
    StableHlo.after hostOps1 W (Proc.devRef .tc main_v40) = shapeCast S1x128 (W (Proc.devRef .tc main_arg10)) shapeCasts_S128_S1x128 := by
  after_results_simp; rfl
theorem stretch2_v61 (W : Valuation τ sig (Elt Ideal)) :
    StableHlo.after hostOps2 W (Proc.devRef .tc main_v61) = shapeCast S1x128 (W (Proc.devRef .tc main_arg13)) shapeCasts_S128_S1x128 := by
  after_results_simp; rfl
theorem stretch3_v82 (W : Valuation τ sig (Elt Ideal)) :
    StableHlo.after hostOps3 W (Proc.devRef .tc main_v82) = shapeCast S1x128 (W (Proc.devRef .tc main_arg16)) shapeCasts_S128_S1x128 := by
  after_results_simp; rfl
theorem stretch4_v84 (W : Valuation τ sig (Elt Ideal)) :
    StableHlo.after hostOps4 W (Proc.devRef .tc main_v84) = shapeCast S1x64 (W (Proc.devRef .tc main_arg19)) shapeCasts_S64_S1x64 := by
  after_results_simp; rfl
theorem stretch4_v85 (W : Valuation τ sig (Elt Ideal)) :
    StableHlo.after hostOps4 W (Proc.devRef .tc main_v85) = shapeCast S1x2 (W (Proc.devRef .tc main_arg21)) shapeCasts_S2_S1x2 := by
  after_results_simp; rfl
theorem stretch5_v87 (W : Valuation τ sig (Elt Ideal)) :
    StableHlo.after hostOps5 W (Proc.devRef .tc main_v87) = shapeCast S1x64 (W (Proc.devRef .tc main_arg23)) shapeCasts_S64_S1x64 := by
  after_results_simp; rfl
theorem stretch5_v88 (W : Valuation τ sig (Elt Ideal)) :
    StableHlo.after hostOps5 W (Proc.devRef .tc main_v88) = shapeCast S1x2 (W (Proc.devRef .tc main_arg25)) shapeCasts_S2_S1x2 := by
  after_results_simp; rfl
theorem stretch6_v90 (W : Valuation τ sig (Elt Ideal)) :
    StableHlo.after hostOps6 W (Proc.devRef .tc main_v90) = shapeCast S1x64 (W (Proc.devRef .tc main_arg27)) shapeCasts_S64_S1x64 := by
  after_results_simp; rfl
theorem stretch6_v91 (W : Valuation τ sig (Elt Ideal)) :
    StableHlo.after hostOps6 W (Proc.devRef .tc main_v91) = shapeCast S1x1 (W (Proc.devRef .tc main_arg29)) shapeCasts_S1_S1x1 := by
  after_results_simp; rfl
theorem stretch7_v93 (W : Valuation τ sig (Elt Ideal)) :
    StableHlo.after hostOps7 W (Proc.devRef .tc main_v93) = shapeCast S100000 (W (Proc.devRef .tc main_v92)) shapeCasts_S100000x1_S100000 := by
  after_results_simp; rfl
theorem stretch7_v94 (W : Valuation τ sig (Elt Ideal)) :
    StableHlo.after hostOps7 W (Proc.devRef .tc main_v94) = shapeCast S1x64 (W (Proc.devRef .tc main_arg27)) shapeCasts_S64_S1x64 := by
  after_results_simp; rfl
theorem stretch7_v95 (W : Valuation τ sig (Elt Ideal)) :
    StableHlo.after hostOps7 W (Proc.devRef .tc main_v95) = shapeCast S1x1 (W (Proc.devRef .tc main_arg29)) shapeCasts_S1_S1x1 := by
  after_results_simp; rfl
theorem stretch8_v97 (W : Valuation τ sig (Elt Ideal)) :
    StableHlo.after hostOps8 W (Proc.devRef .tc main_v97) = shapeCast S50000 (W (Proc.devRef .tc main_v96)) shapeCasts_S50000x1_S50000 := by
  after_results_simp; rfl

section Run
variable (m : (ℓ : Loc nD τ sig) → Buf (Elt Ideal) ℓ) (ρ : Dev nD → PrngReg) (c : Dev nD)

/-! ## A region rewrites its output array and nothing else

At a region's exit its input arrays hold what they held at entry (an input window is never written back), every
buffer that is none of its arrays is untouched, and only the output array (window 5) is new. -/

theorem region0_in : ∀ w : Fin 6, w ≠ 5 → W2 m ρ c (Proc.devRef .tc (Pipeline.arrRef spec0 w)) = W1 m ρ c (Proc.devRef .tc (Pipeline.arrRef spec0 w))
  | 0, _ => (W2_arr m ρ c 0).trans (((dat0 (V1 m ρ) c).arrAt_in 0 rfl _).trans (A_eq0 (V1 m ρ) c 0))
  | 1, _ => (W2_arr m ρ c 1).trans (((dat0 (V1 m ρ) c).arrAt_in 1 rfl _).trans (A_eq0 (V1 m ρ) c 1))
  | 2, _ => (W2_arr m ρ c 2).trans (((dat0 (V1 m ρ) c).arrAt_in 2 rfl _).trans (A_eq0 (V1 m ρ) c 2))
  | 3, _ => (W2_arr m ρ c 3).trans (((dat0 (V1 m ρ) c).arrAt_in 3 rfl _).trans (A_eq0 (V1 m ρ) c 3))
  | 4, _ => (W2_arr m ρ c 4).trans (((dat0 (V1 m ρ) c).arrAt_in 4 rfl _).trans (A_eq0 (V1 m ρ) c 4))
  | 5, h => absurd rfl h
  | ⟨_ + 6, h⟩, _ => absurd h (Nat.not_lt.2 (Nat.le_add_left _ _))
/-- Region 0 changes no buffer but its output array `main_v20`. -/
theorem region0_keeps (b : Ref sig .tc) (hb : b ≠ main_v20) : W2 m ρ c (Proc.devRef .tc b) = W1 m ρ c (Proc.devRef .tc b) := by
  by_cases h : ∀ w, Pipeline.arrRef spec0 w ≠ b
  · exact W2_of_ne m ρ c b h
  · obtain ⟨w, rfl⟩ := not_forall_not.mp h
    exact region0_in m ρ c w (fun e => hb (by subst e; rfl))

theorem region1_in : ∀ w : Fin 6, w ≠ 5 → W4 m ρ c (Proc.devRef .tc (Pipeline.arrRef spec1 w)) = W3 m ρ c (Proc.devRef .tc (Pipeline.arrRef spec1 w))
  | 0, _ => (W4_arr m ρ c 0).trans (((dat1 (V3 m ρ) c).arrAt_in 0 rfl _).trans (A_eq1 (V3 m ρ) c 0))
  | 1, _ => (W4_arr m ρ c 1).trans (((dat1 (V3 m ρ) c).arrAt_in 1 rfl _).trans (A_eq1 (V3 m ρ) c 1))
  | 2, _ => (W4_arr m ρ c 2).trans (((dat1 (V3 m ρ) c).arrAt_in 2 rfl _).trans (A_eq1 (V3 m ρ) c 2))
  | 3, _ => (W4_arr m ρ c 3).trans (((dat1 (V3 m ρ) c).arrAt_in 3 rfl _).trans (A_eq1 (V3 m ρ) c 3))
  | 4, _ => (W4_arr m ρ c 4).trans (((dat1 (V3 m ρ) c).arrAt_in 4 rfl _).trans (A_eq1 (V3 m ρ) c 4))
  | 5, h => absurd rfl h
  | ⟨_ + 6, h⟩, _ => absurd h (Nat.not_lt.2 (Nat.le_add_left _ _))
/-- Region 1 changes no buffer but its output array `main_v41`. -/
theorem region1_keeps (b : Ref sig .tc) (hb : b ≠ main_v41) : W4 m ρ c (Proc.devRef .tc b) = W3 m ρ c (Proc.devRef .tc b) := by
  by_cases h : ∀ w, Pipeline.arrRef spec1 w ≠ b
  · exact W4_of_ne m ρ c b h
  · obtain ⟨w, rfl⟩ := not_forall_not.mp h
    exact region1_in m ρ c w (fun e => hb (by subst e; rfl))

theorem region2_in : ∀ w : Fin 6, w ≠ 5 → W6 m ρ c (Proc.devRef .tc (Pipeline.arrRef spec2 w)) = W5 m ρ c (Proc.devRef .tc (Pipeline.arrRef spec2 w))
  | 0, _ => (W6_arr m ρ c 0).trans (((dat2 (V5 m ρ) c).arrAt_in 0 rfl _).trans (A_eq2 (V5 m ρ) c 0))
  | 1, _ => (W6_arr m ρ c 1).trans (((dat2 (V5 m ρ) c).arrAt_in 1 rfl _).trans (A_eq2 (V5 m ρ) c 1))
  | 2, _ => (W6_arr m ρ c 2).trans (((dat2 (V5 m ρ) c).arrAt_in 2 rfl _).trans (A_eq2 (V5 m ρ) c 2))
  | 3, _ => (W6_arr m ρ c 3).trans (((dat2 (V5 m ρ) c).arrAt_in 3 rfl _).trans (A_eq2 (V5 m ρ) c 3))
  | 4, _ => (W6_arr m ρ c 4).trans (((dat2 (V5 m ρ) c).arrAt_in 4 rfl _).trans (A_eq2 (V5 m ρ) c 4))
  | 5, h => absurd rfl h
  | ⟨_ + 6, h⟩, _ => absurd h (Nat.not_lt.2 (Nat.le_add_left _ _))
/-- Region 2 changes no buffer but its output array `main_v62`. -/
theorem region2_keeps (b : Ref sig .tc) (hb : b ≠ main_v62) : W6 m ρ c (Proc.devRef .tc b) = W5 m ρ c (Proc.devRef .tc b) := by
  by_cases h : ∀ w, Pipeline.arrRef spec2 w ≠ b
  · exact W6_of_ne m ρ c b h
  · obtain ⟨w, rfl⟩ := not_forall_not.mp h
    exact region2_in m ρ c w (fun e => hb (by subst e; rfl))

theorem region3_in : ∀ w : Fin 6, w ≠ 5 → W8 m ρ c (Proc.devRef .tc (Pipeline.arrRef spec3 w)) = W7 m ρ c (Proc.devRef .tc (Pipeline.arrRef spec3 w))
  | 0, _ => (W8_arr m ρ c 0).trans (((dat3 (V7 m ρ) c).arrAt_in 0 rfl _).trans (A_eq3 (V7 m ρ) c 0))
  | 1, _ => (W8_arr m ρ c 1).trans (((dat3 (V7 m ρ) c).arrAt_in 1 rfl _).trans (A_eq3 (V7 m ρ) c 1))
  | 2, _ => (W8_arr m ρ c 2).trans (((dat3 (V7 m ρ) c).arrAt_in 2 rfl _).trans (A_eq3 (V7 m ρ) c 2))
  | 3, _ => (W8_arr m ρ c 3).trans (((dat3 (V7 m ρ) c).arrAt_in 3 rfl _).trans (A_eq3 (V7 m ρ) c 3))
  | 4, _ => (W8_arr m ρ c 4).trans (((dat3 (V7 m ρ) c).arrAt_in 4 rfl _).trans (A_eq3 (V7 m ρ) c 4))
  | 5, h => absurd rfl h
  | ⟨_ + 6, h⟩, _ => absurd h (Nat.not_lt.2 (Nat.le_add_left _ _))
/-- Region 3 changes no buffer but its output array `main_v83`. -/
theorem region3_keeps (b : Ref sig .tc) (hb : b ≠ main_v83) : W8 m ρ c (Proc.devRef .tc b) = W7 m ρ c (Proc.devRef .tc b) := by
  by_cases h : ∀ w, Pipeline.arrRef spec3 w ≠ b
  · exact W8_of_ne m ρ c b h
  · obtain ⟨w, rfl⟩ := not_forall_not.mp h
    exact region3_in m ρ c w (fun e => hb (by subst e; rfl))

theorem region4_in : ∀ w : Fin 6, w ≠ 5 → W10 m ρ c (Proc.devRef .tc (Pipeline.arrRef spec4 w)) = W9 m ρ c (Proc.devRef .tc (Pipeline.arrRef spec4 w))
  | 0, _ => (W10_arr m ρ c 0).trans (((dat4 (V9 m ρ) c).arrAt_in 0 rfl _).trans (A_eq4 (V9 m ρ) c 0))
  | 1, _ => (W10_arr m ρ c 1).trans (((dat4 (V9 m ρ) c).arrAt_in 1 rfl _).trans (A_eq4 (V9 m ρ) c 1))
  | 2, _ => (W10_arr m ρ c 2).trans (((dat4 (V9 m ρ) c).arrAt_in 2 rfl _).trans (A_eq4 (V9 m ρ) c 2))
  | 3, _ => (W10_arr m ρ c 3).trans (((dat4 (V9 m ρ) c).arrAt_in 3 rfl _).trans (A_eq4 (V9 m ρ) c 3))
  | 4, _ => (W10_arr m ρ c 4).trans (((dat4 (V9 m ρ) c).arrAt_in 4 rfl _).trans (A_eq4 (V9 m ρ) c 4))
  | 5, h => absurd rfl h
  | ⟨_ + 6, h⟩, _ => absurd h (Nat.not_lt.2 (Nat.le_add_left _ _))
/-- Region 4 changes no buffer but its output array `main_v86`. -/
theorem region4_keeps (b : Ref sig .tc) (hb : b ≠ main_v86) : W10 m ρ c (Proc.devRef .tc b) = W9 m ρ c (Proc.devRef .tc b) := by
  by_cases h : ∀ w, Pipeline.arrRef spec4 w ≠ b
  · exact W10_of_ne m ρ c b h
  · obtain ⟨w, rfl⟩ := not_forall_not.mp h
    exact region4_in m ρ c w (fun e => hb (by subst e; rfl))

theorem region5_in : ∀ w : Fin 6, w ≠ 5 → W12 m ρ c (Proc.devRef .tc (Pipeline.arrRef spec5 w)) = W11 m ρ c (Proc.devRef .tc (Pipeline.arrRef spec5 w))
  | 0, _ => (W12_arr m ρ c 0).trans (((dat5 (V11 m ρ) c).arrAt_in 0 rfl _).trans (A_eq5 (V11 m ρ) c 0))
  | 1, _ => (W12_arr m ρ c 1).trans (((dat5 (V11 m ρ) c).arrAt_in 1 rfl _).trans (A_eq5 (V11 m ρ) c 1))
  | 2, _ => (W12_arr m ρ c 2).trans (((dat5 (V11 m ρ) c).arrAt_in 2 rfl _).trans (A_eq5 (V11 m ρ) c 2))
  | 3, _ => (W12_arr m ρ c 3).trans (((dat5 (V11 m ρ) c).arrAt_in 3 rfl _).trans (A_eq5 (V11 m ρ) c 3))
  | 4, _ => (W12_arr m ρ c 4).trans (((dat5 (V11 m ρ) c).arrAt_in 4 rfl _).trans (A_eq5 (V11 m ρ) c 4))
  | 5, h => absurd rfl h
  | ⟨_ + 6, h⟩, _ => absurd h (Nat.not_lt.2 (Nat.le_add_left _ _))
/-- Region 5 changes no buffer but its output array `main_v89`. -/
theorem region5_keeps (b : Ref sig .tc) (hb : b ≠ main_v89) : W12 m ρ c (Proc.devRef .tc b) = W11 m ρ c (Proc.devRef .tc b) := by
  by_cases h : ∀ w, Pipeline.arrRef spec5 w ≠ b
  · exact W12_of_ne m ρ c b h
  · obtain ⟨w, rfl⟩ := not_forall_not.mp h
    exact region5_in m ρ c w (fun e => hb (by subst e; rfl))

theorem region6_in : ∀ w : Fin 6, w ≠ 5 → W14 m ρ c (Proc.devRef .tc (Pipeline.arrRef spec6 w)) = W13 m ρ c (Proc.devRef .tc (Pipeline.arrRef spec6 w))
  | 0, _ => (W14_arr m ρ c 0).trans (((dat6 (V13 m ρ) c).arrAt_in 0 rfl _).trans (A_eq6 (V13 m ρ) c 0))
  | 1, _ => (W14_arr m ρ c 1).trans (((dat6 (V13 m ρ) c).arrAt_in 1 rfl _).trans (A_eq6 (V13 m ρ) c 1))
  | 2, _ => (W14_arr m ρ c 2).trans (((dat6 (V13 m ρ) c).arrAt_in 2 rfl _).trans (A_eq6 (V13 m ρ) c 2))
  | 3, _ => (W14_arr m ρ c 3).trans (((dat6 (V13 m ρ) c).arrAt_in 3 rfl _).trans (A_eq6 (V13 m ρ) c 3))
  | 4, _ => (W14_arr m ρ c 4).trans (((dat6 (V13 m ρ) c).arrAt_in 4 rfl _).trans (A_eq6 (V13 m ρ) c 4))
  | 5, h => absurd rfl h
  | ⟨_ + 6, h⟩, _ => absurd h (Nat.not_lt.2 (Nat.le_add_left _ _))
/-- Region 6 changes no buffer but its output array `main_v92`. -/
theorem region6_keeps (b : Ref sig .tc) (hb : b ≠ main_v92) : W14 m ρ c (Proc.devRef .tc b) = W13 m ρ c (Proc.devRef .tc b) := by
  by_cases h : ∀ w, Pipeline.arrRef spec6 w ≠ b
  · exact W14_of_ne m ρ c b h
  · obtain ⟨w, rfl⟩ := not_forall_not.mp h
    exact region6_in m ρ c w (fun e => hb (by subst e; rfl))

theorem region7_in : ∀ w : Fin 6, w ≠ 5 → W16 m ρ c (Proc.devRef .tc (Pipeline.arrRef spec7 w)) = W15 m ρ c (Proc.devRef .tc (Pipeline.arrRef spec7 w))
  | 0, _ => (W16_arr m ρ c 0).trans (((dat7 (V15 m ρ) c).arrAt_in 0 rfl _).trans (A_eq7 (V15 m ρ) c 0))
  | 1, _ => (W16_arr m ρ c 1).trans (((dat7 (V15 m ρ) c).arrAt_in 1 rfl _).trans (A_eq7 (V15 m ρ) c 1))
  | 2, _ => (W16_arr m ρ c 2).trans (((dat7 (V15 m ρ) c).arrAt_in 2 rfl _).trans (A_eq7 (V15 m ρ) c 2))
  | 3, _ => (W16_arr m ρ c 3).trans (((dat7 (V15 m ρ) c).arrAt_in 3 rfl _).trans (A_eq7 (V15 m ρ) c 3))
  | 4, _ => (W16_arr m ρ c 4).trans (((dat7 (V15 m ρ) c).arrAt_in 4 rfl _).trans (A_eq7 (V15 m ρ) c 4))
  | 5, h => absurd rfl h
  | ⟨_ + 6, h⟩, _ => absurd h (Nat.not_lt.2 (Nat.le_add_left _ _))
/-- Region 7 changes no buffer but its output array `main_v96`. -/
theorem region7_keeps (b : Ref sig .tc) (hb : b ≠ main_v96) : W16 m ρ c (Proc.devRef .tc b) = W15 m ρ c (Proc.devRef .tc b) := by
  by_cases h : ∀ w, Pipeline.arrRef spec7 w ≠ b
  · exact W16_of_ne m ρ c b h
  · obtain ⟨w, rfl⟩ := not_forall_not.mp h
    exact region7_in m ρ c w (fun e => hb (by subst e; rfl))

/-! ## A buffer nothing has written yet still holds the launch memory

`touchedJ` lists every buffer some host operation or some region has written before boundary `J`. -/

abbrev touched1 : List (Ref sig .tc) := written0
theorem W1_launch (b : Ref sig .tc) (h : b ∉ touched1) : W1 m ρ c (Proc.devRef .tc b) = m ((c : Thread nD τ).loc b) :=
  (stretch0_keeps _ b h).trans rfl
abbrev touched2 : List (Ref sig .tc) := touched1 ++ [main_v20]
theorem W2_launch (b : Ref sig .tc) (h : b ∉ touched2) : W2 m ρ c (Proc.devRef .tc b) = m ((c : Thread nD τ).loc b) :=
  (region0_keeps m ρ c b (fun e => h (List.mem_append_right _ (List.mem_singleton.mpr e)))).trans
    (W1_launch m ρ c b (fun hb => h (List.mem_append_left _ hb)))
abbrev touched3 : List (Ref sig .tc) := touched2 ++ written1
theorem W3_launch (b : Ref sig .tc) (h : b ∉ touched3) : W3 m ρ c (Proc.devRef .tc b) = m ((c : Thread nD τ).loc b) :=
  (stretch1_keeps _ b (fun hb => h (List.mem_append_right _ hb))).trans
    (W2_launch m ρ c b (fun hb => h (List.mem_append_left _ hb)))
abbrev touched4 : List (Ref sig .tc) := touched3 ++ [main_v41]
theorem W4_launch (b : Ref sig .tc) (h : b ∉ touched4) : W4 m ρ c (Proc.devRef .tc b) = m ((c : Thread nD τ).loc b) :=
  (region1_keeps m ρ c b (fun e => h (List.mem_append_right _ (List.mem_singleton.mpr e)))).trans
    (W3_launch m ρ c b (fun hb => h (List.mem_append_left _ hb)))
abbrev touched5 : List (Ref sig .tc) := touched4 ++ written2
theorem W5_launch (b : Ref sig .tc) (h : b ∉ touched5) : W5 m ρ c (Proc.devRef .tc b) = m ((c : Thread nD τ).loc b) :=
  (stretch2_keeps _ b (fun hb => h (List.mem_append_right _ hb))).trans
    (W4_launch m ρ c b (fun hb => h (List.mem_append_left _ hb)))
abbrev touched6 : List (Ref sig .tc) := touched5 ++ [main_v62]
theorem W6_launch (b : Ref sig .tc) (h : b ∉ touched6) : W6 m ρ c (Proc.devRef .tc b) = m ((c : Thread nD τ).loc b) :=
  (region2_keeps m ρ c b (fun e => h (List.mem_append_right _ (List.mem_singleton.mpr e)))).trans
    (W5_launch m ρ c b (fun hb => h (List.mem_append_left _ hb)))
abbrev touched7 : List (Ref sig .tc) := touched6 ++ written3
theorem W7_launch (b : Ref sig .tc) (h : b ∉ touched7) : W7 m ρ c (Proc.devRef .tc b) = m ((c : Thread nD τ).loc b) :=
  (stretch3_keeps _ b (fun hb => h (List.mem_append_right _ hb))).trans
    (W6_launch m ρ c b (fun hb => h (List.mem_append_left _ hb)))
abbrev touched8 : List (Ref sig .tc) := touched7 ++ [main_v83]
theorem W8_launch (b : Ref sig .tc) (h : b ∉ touched8) : W8 m ρ c (Proc.devRef .tc b) = m ((c : Thread nD τ).loc b) :=
  (region3_keeps m ρ c b (fun e => h (List.mem_append_right _ (List.mem_singleton.mpr e)))).trans
    (W7_launch m ρ c b (fun hb => h (List.mem_append_left _ hb)))
abbrev touched9 : List (Ref sig .tc) := touched8 ++ written4
theorem W9_launch (b : Ref sig .tc) (h : b ∉ touched9) : W9 m ρ c (Proc.devRef .tc b) = m ((c : Thread nD τ).loc b) :=
  (stretch4_keeps _ b (fun hb => h (List.mem_append_right _ hb))).trans
    (W8_launch m ρ c b (fun hb => h (List.mem_append_left _ hb)))
abbrev touched10 : List (Ref sig .tc) := touched9 ++ [main_v86]
theorem W10_launch (b : Ref sig .tc) (h : b ∉ touched10) : W10 m ρ c (Proc.devRef .tc b) = m ((c : Thread nD τ).loc b) :=
  (region4_keeps m ρ c b (fun e => h (List.mem_append_right _ (List.mem_singleton.mpr e)))).trans
    (W9_launch m ρ c b (fun hb => h (List.mem_append_left _ hb)))
abbrev touched11 : List (Ref sig .tc) := touched10 ++ written5
theorem W11_launch (b : Ref sig .tc) (h : b ∉ touched11) : W11 m ρ c (Proc.devRef .tc b) = m ((c : Thread nD τ).loc b) :=
  (stretch5_keeps _ b (fun hb => h (List.mem_append_right _ hb))).trans
    (W10_launch m ρ c b (fun hb => h (List.mem_append_left _ hb)))
abbrev touched12 : List (Ref sig .tc) := touched11 ++ [main_v89]
theorem W12_launch (b : Ref sig .tc) (h : b ∉ touched12) : W12 m ρ c (Proc.devRef .tc b) = m ((c : Thread nD τ).loc b) :=
  (region5_keeps m ρ c b (fun e => h (List.mem_append_right _ (List.mem_singleton.mpr e)))).trans
    (W11_launch m ρ c b (fun hb => h (List.mem_append_left _ hb)))
abbrev touched13 : List (Ref sig .tc) := touched12 ++ written6
theorem W13_launch (b : Ref sig .tc) (h : b ∉ touched13) : W13 m ρ c (Proc.devRef .tc b) = m ((c : Thread nD τ).loc b) :=
  (stretch6_keeps _ b (fun hb => h (List.mem_append_right _ hb))).trans
    (W12_launch m ρ c b (fun hb => h (List.mem_append_left _ hb)))
abbrev touched14 : List (Ref sig .tc) := touched13 ++ [main_v92]
theorem W14_launch (b : Ref sig .tc) (h : b ∉ touched14) : W14 m ρ c (Proc.devRef .tc b) = m ((c : Thread nD τ).loc b) :=
  (region6_keeps m ρ c b (fun e => h (List.mem_append_right _ (List.mem_singleton.mpr e)))).trans
    (W13_launch m ρ c b (fun hb => h (List.mem_append_left _ hb)))
abbrev touched15 : List (Ref sig .tc) := touched14 ++ written7
theorem W15_launch (b : Ref sig .tc) (h : b ∉ touched15) : W15 m ρ c (Proc.devRef .tc b) = m ((c : Thread nD τ).loc b) :=
  (stretch7_keeps _ b (fun hb => h (List.mem_append_right _ hb))).trans
    (W14_launch m ρ c b (fun hb => h (List.mem_append_left _ hb)))

/-! ## The arguments, still as launched at the boundaries where they are read -/

theorem W0_arg0 : W0 m ρ c (Proc.devRef .tc main_arg0) = m ((c : Thread nD τ).loc main_arg0) := rfl
theorem W0_arg1 : W0 m ρ c (Proc.devRef .tc main_arg1) = m ((c : Thread nD τ).loc main_arg1) := rfl
theorem W0_arg2 : W0 m ρ c (Proc.devRef .tc main_arg2) = m ((c : Thread nD τ).loc main_arg2) := rfl
theorem W0_arg3 : W0 m ρ c (Proc.devRef .tc main_arg3) = m ((c : Thread nD τ).loc main_arg3) := rfl
theorem W0_arg6 : W0 m ρ c (Proc.devRef .tc main_arg6) = m ((c : Thread nD τ).loc main_arg6) := rfl
theorem W0_arg7 : W0 m ρ c (Proc.devRef .tc main_arg7) = m ((c : Thread nD τ).loc main_arg7) := rfl
theorem W0_arg8 : W0 m ρ c (Proc.devRef .tc main_arg8) = m ((c : Thread nD τ).loc main_arg8) := rfl
theorem W2_arg0 : W2 m ρ c (Proc.devRef .tc main_arg0) = m ((c : Thread nD τ).loc main_arg0) := W2_launch m ρ c main_arg0 (by decide)
theorem W2_arg1 : W2 m ρ c (Proc.devRef .tc main_arg1) = m ((c : Thread nD τ).loc main_arg1) := W2_launch m ρ c main_arg1 (by decide)
theorem W2_arg4 : W2 m ρ c (Proc.devRef .tc main_arg4) = m ((c : Thread nD τ).loc main_arg4) := W2_launch m ρ c main_arg4 (by decide)
theorem W2_arg5 : W2 m ρ c (Proc.devRef .tc main_arg5) = m ((c : Thread nD τ).loc main_arg5) := W2_launch m ρ c main_arg5 (by decide)
theorem W2_arg9 : W2 m ρ c (Proc.devRef .tc main_arg9) = m ((c : Thread nD τ).loc main_arg9) := W2_launch m ρ c main_arg9 (by decide)
theorem W2_arg10 : W2 m ρ c (Proc.devRef .tc main_arg10) = m ((c : Thread nD τ).loc main_arg10) := W2_launch m ρ c main_arg10 (by decide)
theorem W2_arg11 : W2 m ρ c (Proc.devRef .tc main_arg11) = m ((c : Thread nD τ).loc main_arg11) := W2_launch m ρ c main_arg11 (by decide)
theorem W4_arg2 : W4 m ρ c (Proc.devRef .tc main_arg2) = m ((c : Thread nD τ).loc main_arg2) := W4_launch m ρ c main_arg2 (by decide)
theorem W4_arg3 : W4 m ρ c (Proc.devRef .tc main_arg3) = m ((c : Thread nD τ).loc main_arg3) := W4_launch m ρ c main_arg3 (by decide)
theorem W4_arg12 : W4 m ρ c (Proc.devRef .tc main_arg12) = m ((c : Thread nD τ).loc main_arg12) := W4_launch m ρ c main_arg12 (by decide)
theorem W4_arg13 : W4 m ρ c (Proc.devRef .tc main_arg13) = m ((c : Thread nD τ).loc main_arg13) := W4_launch m ρ c main_arg13 (by decide)
theorem W4_arg14 : W4 m ρ c (Proc.devRef .tc main_arg14) = m ((c : Thread nD τ).loc main_arg14) := W4_launch m ρ c main_arg14 (by decide)
theorem W6_arg4 : W6 m ρ c (Proc.devRef .tc main_arg4) = m ((c : Thread nD τ).loc main_arg4) := W6_launch m ρ c main_arg4 (by decide)
theorem W6_arg5 : W6 m ρ c (Proc.devRef .tc main_arg5) = m ((c : Thread nD τ).loc main_arg5) := W6_launch m ρ c main_arg5 (by decide)
theorem W6_arg15 : W6 m ρ c (Proc.devRef .tc main_arg15) = m ((c : Thread nD τ).loc main_arg15) := W6_launch m ρ c main_arg15 (by decide)
theorem W6_arg16 : W6 m ρ c (Proc.devRef .tc main_arg16) = m ((c : Thread nD τ).loc main_arg16) := W6_launch m ρ c main_arg16 (by decide)
theorem W6_arg17 : W6 m ρ c (Proc.devRef .tc main_arg17) = m ((c : Thread nD τ).loc main_arg17) := W6_launch m ρ c main_arg17 (by decide)
theorem W8_arg18 : W8 m ρ c (Proc.devRef .tc main_arg18) = m ((c : Thread nD τ).loc main_arg18) := W8_launch m ρ c main_arg18 (by decide)
theorem W8_arg19 : W8 m ρ c (Proc.devRef .tc main_arg19) = m ((c : Thread nD τ).loc main_arg19) := W8_launch m ρ c main_arg19 (by decide)
theorem W8_arg20 : W8 m ρ c (Proc.devRef .tc main_arg20) = m ((c : Thread nD τ).loc main_arg20) := W8_launch m ρ c main_arg20 (by decide)
theorem W8_arg21 : W8 m ρ c (Proc.devRef .tc main_arg21) = m ((c : Thread nD τ).loc main_arg21) := W8_launch m ρ c main_arg21 (by decide)
theorem W10_arg22 : W10 m ρ c (Proc.devRef .tc main_arg22) = m ((c : Thread nD τ).loc main_arg22) := W10_launch m ρ c main_arg22 (by decide)
theorem W10_arg23 : W10 m ρ c (Proc.devRef .tc main_arg23) = m ((c : Thread nD τ).loc main_arg23) := W10_launch m ρ c main_arg23 (by decide)
theorem W10_arg24 : W10 m ρ c (Proc.devRef .tc main_arg24) = m ((c : Thread nD τ).loc main_arg24) := W10_launch m ρ c main_arg24 (by decide)
theorem W10_arg25 : W10 m ρ c (Proc.devRef .tc main_arg25) = m ((c : Thread nD τ).loc main_arg25) := W10_launch m ρ c main_arg25 (by decide)
theorem W12_arg26 : W12 m ρ c (Proc.devRef .tc main_arg26) = m ((c : Thread nD τ).loc main_arg26) := W12_launch m ρ c main_arg26 (by decide)
theorem W12_arg27 : W12 m ρ c (Proc.devRef .tc main_arg27) = m ((c : Thread nD τ).loc main_arg27) := W12_launch m ρ c main_arg27 (by decide)
theorem W12_arg28 : W12 m ρ c (Proc.devRef .tc main_arg28) = m ((c : Thread nD τ).loc main_arg28) := W12_launch m ρ c main_arg28 (by decide)
theorem W12_arg29 : W12 m ρ c (Proc.devRef .tc main_arg29) = m ((c : Thread nD τ).loc main_arg29) := W12_launch m ρ c main_arg29 (by decide)
theorem W14_arg26 : W14 m ρ c (Proc.devRef .tc main_arg26) = m ((c : Thread nD τ).loc main_arg26) := W14_launch m ρ c main_arg26 (by decide)
theorem W14_arg27 : W14 m ρ c (Proc.devRef .tc main_arg27) = m ((c : Thread nD τ).loc main_arg27) := W14_launch m ρ c main_arg27 (by decide)
theorem W14_arg28 : W14 m ρ c (Proc.devRef .tc main_arg28) = m ((c : Thread nD τ).loc main_arg28) := W14_launch m ρ c main_arg28 (by decide)
theorem W14_arg29 : W14 m ρ c (Proc.devRef .tc main_arg29) = m ((c : Thread nD τ).loc main_arg29) := W14_launch m ρ c main_arg29 (by decide)

/-! ## The hidden layers, named by the region that writes them -/

/-- Region 0's output array at its exit: the first hidden layer of the 50000-row side. -/
abbrev HM := (dat0 (V1 m ρ) c).arrAt 5 cfg0.N
/-- Region 1's output array at its exit: the first hidden layer of the 100000-row side. -/
abbrev HC := (dat1 (V3 m ρ) c).arrAt 5 cfg1.N
/-- Region 2's output array at its exit: the second hidden layer of the 50000-row side. -/
abbrev HM2 := (dat2 (V5 m ρ) c).arrAt 5 cfg2.N
/-- Region 3's output array at its exit: the second hidden layer of the 100000-row side. -/
abbrev HC2 := (dat3 (V7 m ρ) c).arrAt 5 cfg3.N

theorem W2_v20 : W2 m ρ c (Proc.devRef .tc main_v20) = HM m ρ c := W2_arr m ρ c 5
theorem W4_v41 : W4 m ρ c (Proc.devRef .tc main_v41) = HC m ρ c := W4_arr m ρ c 5
theorem W6_v62 : W6 m ρ c (Proc.devRef .tc main_v62) = HM2 m ρ c := W6_arr m ρ c 5
theorem W8_v83 : W8 m ρ c (Proc.devRef .tc main_v83) = HC2 m ρ c := W8_arr m ρ c 5
theorem W14_v92 : W14 m ρ c (Proc.devRef .tc main_v92) = (dat6 (V13 m ρ) c).arrAt 5 cfg6.N := W14_arr m ρ c 5
theorem W16_v96 : W16 m ρ c (Proc.devRef .tc main_v96) = (dat7 (V15 m ρ) c).arrAt 5 cfg7.N := W16_arr m ρ c 5

/-! ## What each region finds in its five input windows -/

-- region 0
theorem entry0_v18 : V1 m ρ c main_v18 = agg0 (m ((c : Thread nD τ).loc main_arg0)) (m ((c : Thread nD τ).loc main_arg2)) (m ((c : Thread nD τ).loc main_arg3)) :=
  (stretch0_v18 (W0 m ρ c)).trans (by rw [W0_arg0 m ρ c, W0_arg2 m ρ c, W0_arg3 m ρ c])
theorem entry0_arg1 : V1 m ρ c main_arg1 = m ((c : Thread nD τ).loc main_arg1) := W1_launch m ρ c main_arg1 (by decide)
theorem entry0_arg6 : V1 m ρ c main_arg6 = m ((c : Thread nD τ).loc main_arg6) := W1_launch m ρ c main_arg6 (by decide)
theorem entry0_arg8 : V1 m ρ c main_arg8 = m ((c : Thread nD τ).loc main_arg8) := W1_launch m ρ c main_arg8 (by decide)
theorem entry0_v19 : V1 m ρ c main_v19 = shapeCast S1x128 (m ((c : Thread nD τ).loc main_arg7)) shapeCasts_S128_S1x128 :=
  (stretch0_v19 (W0 m ρ c)).trans (by rw [W0_arg7 m ρ c])
-- region 1
theorem entry1_v39 : V3 m ρ c main_v39 = agg1 (m ((c : Thread nD τ).loc main_arg1)) (m ((c : Thread nD τ).loc main_arg4)) (m ((c : Thread nD τ).loc main_arg5)) :=
  (stretch1_v39 (W2 m ρ c)).trans (by rw [W2_arg1 m ρ c, W2_arg4 m ρ c, W2_arg5 m ρ c])
theorem entry1_arg0 : V3 m ρ c main_arg0 = m ((c : Thread nD τ).loc main_arg0) := W3_launch m ρ c main_arg0 (by decide)
theorem entry1_arg9 : V3 m ρ c main_arg9 = m ((c : Thread nD τ).loc main_arg9) := W3_launch m ρ c main_arg9 (by decide)
theorem entry1_arg11 : V3 m ρ c main_arg11 = m ((c : Thread nD τ).loc main_arg11) := W3_launch m ρ c main_arg11 (by decide)
theorem entry1_v40 : V3 m ρ c main_v40 = shapeCast S1x128 (m ((c : Thread nD τ).loc main_arg10)) shapeCasts_S128_S1x128 :=
  (stretch1_v40 (W2 m ρ c)).trans (by rw [W2_arg10 m ρ c])
-- region 2
theorem entry2_v60 : V5 m ρ c main_v60 = agg2 (HC m ρ c) (m ((c : Thread nD τ).loc main_arg2)) (m ((c : Thread nD τ).loc main_arg3)) :=
  (stretch2_v60 (W4 m ρ c)).trans (by rw [W4_v41 m ρ c, W4_arg2 m ρ c, W4_arg3 m ρ c])
theorem entry2_v20 : V5 m ρ c main_v20 = HM m ρ c :=
  (stretch2_keeps _ main_v20 (by decide)).trans ((region1_keeps m ρ c main_v20 (by decide)).trans ((stretch1_keeps _ main_v20 (by decide)).trans (W2_v20 m ρ c)))
theorem entry2_arg12 : V5 m ρ c main_arg12 = m ((c : Thread nD τ).loc main_arg12) := W5_launch m ρ c main_arg12 (by decide)
theorem entry2_arg14 : V5 m ρ c main_arg14 = m ((c : Thread nD τ).loc main_arg14) := W5_launch m ρ c main_arg14 (by decide)
theorem entry2_v61 : V5 m ρ c main_v61 = shapeCast S1x128 (m ((c : Thread nD τ).loc main_arg13)) shapeCasts_S128_S1x128 :=
  (stretch2_v61 (W4 m ρ c)).trans (by rw [W4_arg13 m ρ c])
-- region 3
theorem W6_v20 : W6 m ρ c (Proc.devRef .tc main_v20) = HM m ρ c := (region2_keeps m ρ c main_v20 (by decide)).trans (entry2_v20 m ρ c)
theorem entry3_v81 : V7 m ρ c main_v81 = agg3 (HM m ρ c) (m ((c : Thread nD τ).loc main_arg4)) (m ((c : Thread nD τ).loc main_arg5)) :=
  (stretch3_v81 (W6 m ρ c)).trans (by rw [W6_v20 m ρ c, W6_arg4 m ρ c, W6_arg5 m ρ c])
theorem entry3_v41 : V7 m ρ c main_v41 = HC m ρ c :=
  (stretch3_keeps _ main_v41 (by decide)).trans ((region2_keeps m ρ c main_v41 (by decide)).trans ((stretch2_keeps _ main_v41 (by decide)).trans (W4_v41 m ρ c)))
theorem entry3_arg15 : V7 m ρ c main_arg15 = m ((c : Thread nD τ).loc main_arg15) := W7_launch m ρ c main_arg15 (by decide)
theorem entry3_arg17 : V7 m ρ c main_arg17 = m ((c : Thread nD τ).loc main_arg17) := W7_launch m ρ c main_arg17 (by decide)
theorem entry3_v82 : V7 m ρ c main_v82 = shapeCast S1x128 (m ((c : Thread nD τ).loc main_arg16)) shapeCasts_S128_S1x128 :=
  (stretch3_v82 (W6 m ρ c)).trans (by rw [W6_arg16 m ρ c])
-- region 4
theorem entry4_v83 : V9 m ρ c main_v83 = HC2 m ρ c :=
  (stretch4_keeps _ main_v83 (by decide)).trans (W8_v83 m ρ c)
theorem entry4_arg18 : V9 m ρ c main_arg18 = m ((c : Thread nD τ).loc main_arg18) := W9_launch m ρ c main_arg18 (by decide)
theorem entry4_arg20 : V9 m ρ c main_arg20 = m ((c : Thread nD τ).loc main_arg20) := W9_launch m ρ c main_arg20 (by decide)
theorem entry4_v84 : V9 m ρ c main_v84 = shapeCast S1x64 (m ((c : Thread nD τ).loc main_arg19)) shapeCasts_S64_S1x64 :=
  (stretch4_v84 (W8 m ρ c)).trans (by rw [W8_arg19 m ρ c])
theorem entry4_v85 : V9 m ρ c main_v85 = shapeCast S1x2 (m ((c : Thread nD τ).loc main_arg21)) shapeCasts_S2_S1x2 :=
  (stretch4_v85 (W8 m ρ c)).trans (by rw [W8_arg21 m ρ c])
-- region 5
theorem entry5_v62 : V11 m ρ c main_v62 = HM2 m ρ c :=
  (stretch5_keeps _ main_v62 (by decide)).trans ((region4_keeps m ρ c main_v62 (by decide)).trans ((stretch4_keeps _ main_v62 (by decide)).trans ((region3_keeps m ρ c main_v62 (by decide)).trans ((stretch3_keeps _ main_v62 (by decide)).trans (W6_v62 m ρ c)))))
theorem entry5_arg22 : V11 m ρ c main_arg22 = m ((c : Thread nD τ).loc main_arg22) := W11_launch m ρ c main_arg22 (by decide)
theorem entry5_arg24 : V11 m ρ c main_arg24 = m ((c : Thread nD τ).loc main_arg24) := W11_launch m ρ c main_arg24 (by decide)
theorem entry5_v87 : V11 m ρ c main_v87 = shapeCast S1x64 (m ((c : Thread nD τ).loc main_arg23)) shapeCasts_S64_S1x64 :=
  (stretch5_v87 (W10 m ρ c)).trans (by rw [W10_arg23 m ρ c])
theorem entry5_v88 : V11 m ρ c main_v88 = shapeCast S1x2 (m ((c : Thread nD τ).loc main_arg25)) shapeCasts_S2_S1x2 :=
  (stretch5_v88 (W10 m ρ c)).trans (by rw [W10_arg25 m ρ c])
-- region 6
theorem entry6_v83 : V13 m ρ c main_v83 = HC2 m ρ c :=
  (stretch6_keeps _ main_v83 (by decide)).trans ((region5_keeps m ρ c main_v83 (by decide)).trans ((stretch5_keeps _ main_v83 (by decide)).trans ((region4_keeps m ρ c main_v83 (by decide)).trans (entry4_v83 m ρ c))))
theorem entry6_arg26 : V13 m ρ c main_arg26 = m ((c : Thread nD τ).loc main_arg26) := W13_launch m ρ c main_arg26 (by decide)
theorem entry6_arg28 : V13 m ρ c main_arg28 = m ((c : Thread nD τ).loc main_arg28) := W13_launch m ρ c main_arg28 (by decide)
theorem entry6_v90 : V13 m ρ c main_v90 = shapeCast S1x64 (m ((c : Thread nD τ).loc main_arg27)) shapeCasts_S64_S1x64 :=
  (stretch6_v90 (W12 m ρ c)).trans (by rw [W12_arg27 m ρ c])
theorem entry6_v91 : V13 m ρ c main_v91 = shapeCast S1x1 (m ((c : Thread nD τ).loc main_arg29)) shapeCasts_S1_S1x1 :=
  (stretch6_v91 (W12 m ρ c)).trans (by rw [W12_arg29 m ρ c])
-- region 7
theorem entry7_v62 : V15 m ρ c main_v62 = HM2 m ρ c :=
  (stretch7_keeps _ main_v62 (by decide)).trans ((region6_keeps m ρ c main_v62 (by decide)).trans ((stretch6_keeps _ main_v62 (by decide)).trans ((region5_keeps m ρ c main_v62 (by decide)).trans (entry5_v62 m ρ c))))
theorem entry7_arg26 : V15 m ρ c main_arg26 = m ((c : Thread nD τ).loc main_arg26) := W15_launch m ρ c main_arg26 (by decide)
theorem entry7_arg28 : V15 m ρ c main_arg28 = m ((c : Thread nD τ).loc main_arg28) := W15_launch m ρ c main_arg28 (by decide)
theorem entry7_v94 : V15 m ρ c main_v94 = shapeCast S1x64 (m ((c : Thread nD τ).loc main_arg27)) shapeCasts_S64_S1x64 :=
  (stretch7_v94 (W14 m ρ c)).trans (by rw [W14_arg27 m ρ c])
theorem entry7_v95 : V15 m ρ c main_v95 = shapeCast S1x1 (m ((c : Thread nD τ).loc main_arg29)) shapeCasts_S1_S1x1 :=
  (stretch7_v95 (W14 m ρ c)).trans (by rw [W14_arg29 m ρ c])

/-! ## The six results at the last boundary -/

theorem at_v83 : W17 m ρ c (Proc.devRef .tc main_v83) = HC2 m ρ c :=
  (stretch8_keeps _ main_v83 (by decide)).trans ((region7_keeps m ρ c main_v83 (by decide)).trans ((stretch7_keeps _ main_v83 (by decide)).trans ((region6_keeps m ρ c main_v83 (by decide)).trans (entry6_v83 m ρ c))))
theorem at_v62 : W17 m ρ c (Proc.devRef .tc main_v62) = HM2 m ρ c :=
  (stretch8_keeps _ main_v62 (by decide)).trans ((region7_keeps m ρ c main_v62 (by decide)).trans (entry7_v62 m ρ c))
theorem at_v86 : W17 m ρ c (Proc.devRef .tc main_v86) = (dat4 (V9 m ρ) c).arrAt 5 cfg4.N :=
  (stretch8_keeps _ main_v86 (by decide)).trans ((region7_keeps m ρ c main_v86 (by decide)).trans ((stretch7_keeps _ main_v86 (by decide)).trans ((region6_keeps m ρ c main_v86 (by decide)).trans ((stretch6_keeps _ main_v86 (by decide)).trans ((region5_keeps m ρ c main_v86 (by decide)).trans ((stretch5_keeps _ main_v86 (by decide)).trans (W10_arr m ρ c 5)))))))
theorem at_v89 : W17 m ρ c (Proc.devRef .tc main_v89) = (dat5 (V11 m ρ) c).arrAt 5 cfg5.N :=
  (stretch8_keeps _ main_v89 (by decide)).trans ((region7_keeps m ρ c main_v89 (by decide)).trans ((stretch7_keeps _ main_v89 (by decide)).trans ((region6_keeps m ρ c main_v89 (by decide)).trans ((stretch6_keeps _ main_v89 (by decide)).trans (W12_arr m ρ c 5)))))
theorem at_v93 : W17 m ρ c (Proc.devRef .tc main_v93) = shapeCast S100000 ((dat6 (V13 m ρ) c).arrAt 5 cfg6.N) shapeCasts_S100000x1_S100000 :=
  (stretch8_keeps _ main_v93 (by decide)).trans ((region7_keeps m ρ c main_v93 (by decide)).trans ((stretch7_v93 (W14 m ρ c)).trans (by rw [W14_v92 m ρ c])))
theorem at_v97 : W17 m ρ c (Proc.devRef .tc main_v97) = shapeCast S50000 ((dat7 (V15 m ρ) c).arrAt 5 cfg7.N) shapeCasts_S50000x1_S50000 :=
  (stretch8_v97 (W16 m ρ c)).trans (by rw [W16_v96 m ρ c])

end Run

end Cert.KernelIdeal.Fold
-- ==== Proof.Net.lean ====
/-
  The network both programs compute, as one closed form.

  Two kinds of node (100000 cards, 50000 merchants) joined by 10^6 edges in each direction. A mean
  aggregation sends every target node the average of its in-neighbours' rows (zero for a node with none;
  the count is taken to be at least one). A hidden layer is  max(mean · Wl + b + self · Wr, 0).  Two such
  layers per node kind, the second reading the other kind's first; then two-layer heads on the second
  hidden layers: a two-column classifier per kind and a shared one-column scorer passed through the
  logistic function. Every array of the network is an exact function of the thirty argument arrays, on the
  extended reals, and its definition mentions no program; only the last two definitions do, which read
  the thirty arrays off either program's memory.
-/
import proofs.«180647_j29807073034770_1_alg».proof.Proof.Sage0
import proofs.«180647_j29807073034770_1_alg».proof.Proof.Sage1
import proofs.«180647_j29807073034770_1_alg».proof.Proof.Sage2
import proofs.«180647_j29807073034770_1_alg».proof.Proof.Sage3
import proofs.«180647_j29807073034770_1_alg».proof.Proof.Mlp4
import proofs.«180647_j29807073034770_1_alg».proof.Proof.Mlp5
import proofs.«180647_j29807073034770_1_alg».proof.Proof.Mlp6
import proofs.«180647_j29807073034770_1_alg».proof.Proof.Mlp7
import proofs.«180647_j29807073034770_1_alg».proof.Proof.Fold

noncomputable section

namespace Cert.Net

open Idealize.ShloMosaic Cert.KernelIdeal Cert.KernelIdeal.Gen

/-- The thirty argument arrays. -/
structure Args where
  /-- card features -/
  a0 : FVec Ideal S100000x64 .f32
  /-- merchant features -/
  a1 : FVec Ideal S50000x64 .f32
  /-- card→merchant edge sources -/
  a2 : IVec S1000000 32
  /-- card→merchant edge targets -/
  a3 : IVec S1000000 32
  /-- merchant→card edge sources -/
  a4 : IVec S1000000 32
  /-- merchant→card edge targets -/
  a5 : IVec S1000000 32
  /-- layer 0, card→merchant: neighbour weight -/
  a6 : FVec Ideal S64x128 .f32
  /-- its bias -/
  a7 : FVec Ideal S128 .f32
  /-- its self weight -/
  a8 : FVec Ideal S64x128 .f32
  /-- layer 0, merchant→card: neighbour weight -/
  a9 : FVec Ideal S64x128 .f32
  /-- its bias -/
  a10 : FVec Ideal S128 .f32
  /-- its self weight -/
  a11 : FVec Ideal S64x128 .f32
  /-- layer 1, card→merchant: neighbour weight -/
  a12 : FVec Ideal S128x128 .f32
  /-- its bias -/
  a13 : FVec Ideal S128 .f32
  /-- its self weight -/
  a14 : FVec Ideal S128x128 .f32
  /-- layer 1, merchant→card: neighbour weight -/
  a15 : FVec Ideal S128x128 .f32
  /-- its bias -/
  a16 : FVec Ideal S128 .f32
  /-- its self weight -/
  a17 : FVec Ideal S128x128 .f32
  /-- card classifier: first weight -/
  a18 : FVec Ideal S128x64 .f32
  /-- first bias -/
  a19 : FVec Ideal S64 .f32
  /-- second weight -/
  a20 : FVec Ideal S64x2 .f32
  /-- second bias -/
  a21 : FVec Ideal S2 .f32
  /-- merchant classifier: first weight -/
  a22 : FVec Ideal S128x64 .f32
  /-- first bias -/
  a23 : FVec Ideal S64 .f32
  /-- second weight -/
  a24 : FVec Ideal S64x2 .f32
  /-- second bias -/
  a25 : FVec Ideal S2 .f32
  /-- risk scorer: first weight -/
  a26 : FVec Ideal S128x64 .f32
  /-- first bias -/
  a27 : FVec Ideal S64 .f32
  /-- second weight -/
  a28 : FVec Ideal S64x1 .f32
  /-- second bias -/
  a29 : FVec Ideal S1 .f32

variable (A : Args)

/-- A bias row: the vector laid out as a one-row matrix. -/
abbrev row128 (b : FVec Ideal S128 .f32) : FVec Ideal S1x128 .f32 := shapeCast S1x128 b shapeCasts_S128_S1x128
abbrev row64 (b : FVec Ideal S64 .f32) : FVec Ideal S1x64 .f32 := shapeCast S1x64 b shapeCasts_S64_S1x64
abbrev row2 (b : FVec Ideal S2 .f32) : FVec Ideal S1x2 .f32 := shapeCast S1x2 b shapeCasts_S2_S1x2
abbrev row1 (b : FVec Ideal S1 .f32) : FVec Ideal S1x1 .f32 := shapeCast S1x1 b shapeCasts_S1_S1x1

/-- First hidden layer of the merchants: the mean of their in-neighbour cards' features, and their own. -/
def hm := Sage0.layer (Fold.agg0 A.a0 A.a2 A.a3) A.a1 A.a6 (row128 A.a7) A.a8
/-- First hidden layer of the cards: the mean of their in-neighbour merchants' features, and their own. -/
def hc := Sage1.layer (Fold.agg1 A.a1 A.a4 A.a5) A.a0 A.a9 (row128 A.a10) A.a11
/-- Second hidden layer of the merchants: the mean of the cards' first layer over the same edges, and the merchants' own first layer. -/
def hm2 := Sage2.layer (Fold.agg2 (hc A) A.a2 A.a3) (hm A) A.a12 (row128 A.a13) A.a14
/-- Second hidden layer of the cards. -/
def hc2 := Sage3.layer (Fold.agg3 (hm A) A.a4 A.a5) (hc A) A.a15 (row128 A.a16) A.a17
/-- The cards' two-column classifier on their second hidden layer. -/
def predc := Mlp4.layer (hc2 A) A.a18 (row64 A.a19) A.a20 (row2 A.a21)
/-- The merchants' two-column classifier. -/
def predm := Mlp5.layer (hm2 A) A.a22 (row64 A.a23) A.a24 (row2 A.a25)
/-- The shared scorer on the cards, one column, through the logistic function. -/
def riskc := Mlp6.layer (hc2 A) A.a26 (row64 A.a27) A.a28 (row1 A.a29)
/-- The shared scorer on the merchants. -/
def riskm := Mlp7.layer (hm2 A) A.a26 (row64 A.a27) A.a28 (row1 A.a29)

/-- The argument arrays as the idealized kernel's memory holds them on core `c`. -/
def kArgs (m : (ℓ : Loc Cert.KernelIdeal.nD Cert.KernelIdeal.τ Cert.KernelIdeal.sig) → Buf (Elt Ideal) ℓ) (c : Dev Cert.KernelIdeal.nD) : Args where
  a0 := m ((c.tc : Thread Cert.KernelIdeal.nD Cert.KernelIdeal.τ).loc Cert.KernelIdeal.main_arg0)
  a1 := m ((c.tc : Thread Cert.KernelIdeal.nD Cert.KernelIdeal.τ).loc Cert.KernelIdeal.main_arg1)
  a2 := m ((c.tc : Thread Cert.KernelIdeal.nD Cert.KernelIdeal.τ).loc Cert.KernelIdeal.main_arg2)
  a3 := m ((c.tc : Thread Cert.KernelIdeal.nD Cert.KernelIdeal.τ).loc Cert.KernelIdeal.main_arg3)
  a4 := m ((c.tc : Thread Cert.KernelIdeal.nD Cert.KernelIdeal.τ).loc Cert.KernelIdeal.main_arg4)
  a5 := m ((c.tc : Thread Cert.KernelIdeal.nD Cert.KernelIdeal.τ).loc Cert.KernelIdeal.main_arg5)
  a6 := m ((c.tc : Thread Cert.KernelIdeal.nD Cert.KernelIdeal.τ).loc Cert.KernelIdeal.main_arg6)
  a7 := m ((c.tc : Thread Cert.KernelIdeal.nD Cert.KernelIdeal.τ).loc Cert.KernelIdeal.main_arg7)
  a8 := m ((c.tc : Thread Cert.KernelIdeal.nD Cert.KernelIdeal.τ).loc Cert.KernelIdeal.main_arg8)
  a9 := m ((c.tc : Thread Cert.KernelIdeal.nD Cert.KernelIdeal.τ).loc Cert.KernelIdeal.main_arg9)
  a10 := m ((c.tc : Thread Cert.KernelIdeal.nD Cert.KernelIdeal.τ).loc Cert.KernelIdeal.main_arg10)
  a11 := m ((c.tc : Thread Cert.KernelIdeal.nD Cert.KernelIdeal.τ).loc Cert.KernelIdeal.main_arg11)
  a12 := m ((c.tc : Thread Cert.KernelIdeal.nD Cert.KernelIdeal.τ).loc Cert.KernelIdeal.main_arg12)
  a13 := m ((c.tc : Thread Cert.KernelIdeal.nD Cert.KernelIdeal.τ).loc Cert.KernelIdeal.main_arg13)
  a14 := m ((c.tc : Thread Cert.KernelIdeal.nD Cert.KernelIdeal.τ).loc Cert.KernelIdeal.main_arg14)
  a15 := m ((c.tc : Thread Cert.KernelIdeal.nD Cert.KernelIdeal.τ).loc Cert.KernelIdeal.main_arg15)
  a16 := m ((c.tc : Thread Cert.KernelIdeal.nD Cert.KernelIdeal.τ).loc Cert.KernelIdeal.main_arg16)
  a17 := m ((c.tc : Thread Cert.KernelIdeal.nD Cert.KernelIdeal.τ).loc Cert.KernelIdeal.main_arg17)
  a18 := m ((c.tc : Thread Cert.KernelIdeal.nD Cert.KernelIdeal.τ).loc Cert.KernelIdeal.main_arg18)
  a19 := m ((c.tc : Thread Cert.KernelIdeal.nD Cert.KernelIdeal.τ).loc Cert.KernelIdeal.main_arg19)
  a20 := m ((c.tc : Thread Cert.KernelIdeal.nD Cert.KernelIdeal.τ).loc Cert.KernelIdeal.main_arg20)
  a21 := m ((c.tc : Thread Cert.KernelIdeal.nD Cert.KernelIdeal.τ).loc Cert.KernelIdeal.main_arg21)
  a22 := m ((c.tc : Thread Cert.KernelIdeal.nD Cert.KernelIdeal.τ).loc Cert.KernelIdeal.main_arg22)
  a23 := m ((c.tc : Thread Cert.KernelIdeal.nD Cert.KernelIdeal.τ).loc Cert.KernelIdeal.main_arg23)
  a24 := m ((c.tc : Thread Cert.KernelIdeal.nD Cert.KernelIdeal.τ).loc Cert.KernelIdeal.main_arg24)
  a25 := m ((c.tc : Thread Cert.KernelIdeal.nD Cert.KernelIdeal.τ).loc Cert.KernelIdeal.main_arg25)
  a26 := m ((c.tc : Thread Cert.KernelIdeal.nD Cert.KernelIdeal.τ).loc Cert.KernelIdeal.main_arg26)
  a27 := m ((c.tc : Thread Cert.KernelIdeal.nD Cert.KernelIdeal.τ).loc Cert.KernelIdeal.main_arg27)
  a28 := m ((c.tc : Thread Cert.KernelIdeal.nD Cert.KernelIdeal.τ).loc Cert.KernelIdeal.main_arg28)
  a29 := m ((c.tc : Thread Cert.KernelIdeal.nD Cert.KernelIdeal.τ).loc Cert.KernelIdeal.main_arg29)

/-- The argument arrays as the idealized reference's memory holds them on core `c`. -/
def rArgs (m' : (ℓ : Loc Cert.ReferenceIdeal.nD Cert.ReferenceIdeal.τ Cert.ReferenceIdeal.sig) → Buf (Elt Ideal) ℓ) (c : Dev Cert.ReferenceIdeal.nD) : Args where
  a0 := m' ((c.tc : Thread Cert.ReferenceIdeal.nD Cert.ReferenceIdeal.τ).loc Cert.ReferenceIdeal.main_arg0)
  a1 := m' ((c.tc : Thread Cert.ReferenceIdeal.nD Cert.ReferenceIdeal.τ).loc Cert.ReferenceIdeal.main_arg1)
  a2 := m' ((c.tc : Thread Cert.ReferenceIdeal.nD Cert.ReferenceIdeal.τ).loc Cert.ReferenceIdeal.main_arg2)
  a3 := m' ((c.tc : Thread Cert.ReferenceIdeal.nD Cert.ReferenceIdeal.τ).loc Cert.ReferenceIdeal.main_arg3)
  a4 := m' ((c.tc : Thread Cert.ReferenceIdeal.nD Cert.ReferenceIdeal.τ).loc Cert.ReferenceIdeal.main_arg4)
  a5 := m' ((c.tc : Thread Cert.ReferenceIdeal.nD Cert.ReferenceIdeal.τ).loc Cert.ReferenceIdeal.main_arg5)
  a6 := m' ((c.tc : Thread Cert.ReferenceIdeal.nD Cert.ReferenceIdeal.τ).loc Cert.ReferenceIdeal.main_arg6)
  a7 := m' ((c.tc : Thread Cert.ReferenceIdeal.nD Cert.ReferenceIdeal.τ).loc Cert.ReferenceIdeal.main_arg7)
  a8 := m' ((c.tc : Thread Cert.ReferenceIdeal.nD Cert.ReferenceIdeal.τ).loc Cert.ReferenceIdeal.main_arg8)
  a9 := m' ((c.tc : Thread Cert.ReferenceIdeal.nD Cert.ReferenceIdeal.τ).loc Cert.ReferenceIdeal.main_arg9)
  a10 := m' ((c.tc : Thread Cert.ReferenceIdeal.nD Cert.ReferenceIdeal.τ).loc Cert.ReferenceIdeal.main_arg10)
  a11 := m' ((c.tc : Thread Cert.ReferenceIdeal.nD Cert.ReferenceIdeal.τ).loc Cert.ReferenceIdeal.main_arg11)
  a12 := m' ((c.tc : Thread Cert.ReferenceIdeal.nD Cert.ReferenceIdeal.τ).loc Cert.ReferenceIdeal.main_arg12)
  a13 := m' ((c.tc : Thread Cert.ReferenceIdeal.nD Cert.ReferenceIdeal.τ).loc Cert.ReferenceIdeal.main_arg13)
  a14 := m' ((c.tc : Thread Cert.ReferenceIdeal.nD Cert.ReferenceIdeal.τ).loc Cert.ReferenceIdeal.main_arg14)
  a15 := m' ((c.tc : Thread Cert.ReferenceIdeal.nD Cert.ReferenceIdeal.τ).loc Cert.ReferenceIdeal.main_arg15)
  a16 := m' ((c.tc : Thread Cert.ReferenceIdeal.nD Cert.ReferenceIdeal.τ).loc Cert.ReferenceIdeal.main_arg16)
  a17 := m' ((c.tc : Thread Cert.ReferenceIdeal.nD Cert.ReferenceIdeal.τ).loc Cert.ReferenceIdeal.main_arg17)
  a18 := m' ((c.tc : Thread Cert.ReferenceIdeal.nD Cert.ReferenceIdeal.τ).loc Cert.ReferenceIdeal.main_arg18)
  a19 := m' ((c.tc : Thread Cert.ReferenceIdeal.nD Cert.ReferenceIdeal.τ).loc Cert.ReferenceIdeal.main_arg19)
  a20 := m' ((c.tc : Thread Cert.ReferenceIdeal.nD Cert.ReferenceIdeal.τ).loc Cert.ReferenceIdeal.main_arg20)
  a21 := m' ((c.tc : Thread Cert.ReferenceIdeal.nD Cert.ReferenceIdeal.τ).loc Cert.ReferenceIdeal.main_arg21)
  a22 := m' ((c.tc : Thread Cert.ReferenceIdeal.nD Cert.ReferenceIdeal.τ).loc Cert.ReferenceIdeal.main_arg22)
  a23 := m' ((c.tc : Thread Cert.ReferenceIdeal.nD Cert.ReferenceIdeal.τ).loc Cert.ReferenceIdeal.main_arg23)
  a24 := m' ((c.tc : Thread Cert.ReferenceIdeal.nD Cert.ReferenceIdeal.τ).loc Cert.ReferenceIdeal.main_arg24)
  a25 := m' ((c.tc : Thread Cert.ReferenceIdeal.nD Cert.ReferenceIdeal.τ).loc Cert.ReferenceIdeal.main_arg25)
  a26 := m' ((c.tc : Thread Cert.ReferenceIdeal.nD Cert.ReferenceIdeal.τ).loc Cert.ReferenceIdeal.main_arg26)
  a27 := m' ((c.tc : Thread Cert.ReferenceIdeal.nD Cert.ReferenceIdeal.τ).loc Cert.ReferenceIdeal.main_arg27)
  a28 := m' ((c.tc : Thread Cert.ReferenceIdeal.nD Cert.ReferenceIdeal.τ).loc Cert.ReferenceIdeal.main_arg28)
  a29 := m' ((c.tc : Thread Cert.ReferenceIdeal.nD Cert.ReferenceIdeal.τ).loc Cert.ReferenceIdeal.main_arg29)

end Cert.Net

end
-- ==== Proof.KRun.lean ====
/-
  What the idealized kernel's run leaves in EVERY buffer that outlives a region.

  @main is seventeen segments: nine stretches of host operations and, between them, eight row-tiled
  regions (four dense layers, four two-layer heads). The contents of the TensorCore's buffers at the boundary after the last segment are
  a fold through those segments from the launch memory: a host stretch applies its operations, a
  tiled region replaces its output array by what its write-backs leave and keeps everything else.
  Here the run is stated with that fold as its post-condition for every buffer at once, so that the
  six result arrays can be read off it as well as the thirty argument arrays.
-/
import proofs.«180647_j29807073034770_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in its final state every
    buffer that is not scoped to a region holds the last boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W17 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h => h)

/-- A buffer of @main that no region scopes, read in the final state: the last boundary's contents. -/
theorem final_at {r : PUnit × MemSt nD τ sig (Elt F)}
    (h : ∀ c : Dev nD, ∀ b ∈ Pipeline.ucRefs τ sig, r.2.mem (((c : Thread nD τ)).1, b) = W17 m ρ c b)
    (c : Dev nD) (b : Ref sig .tc) (hb : ¬ (Proc.devRef .tc b : DevRef τ sig).isScoped) :
    r.2.mem (((c : Thread nD τ)).1, Proc.devRef .tc b) = W17 m ρ c (Proc.devRef .tc b) :=
  h c _ (mem_uc b hb)

end Cert.KernelIdeal.KRun

end
-- ==== Proof.KNet.lean ====
/-
  The idealized kernel's six result arrays are the network's closed form.

  Each row-tiled region (a dense layer, or a two-layer head) leaves in its output array its function of
  the arrays it found on entry;
  what it found is either an argument array as launched, a bias laid out as a row, a mean aggregation
  computed by the host stretch just before it, or an earlier region's output. Substituting from the first
  region to the last gives every result array as a function of the thirty argument arrays alone.
-/
import proofs.«180647_j29807073034770_1_alg».proof.Proof.Net
import proofs.«180647_j29807073034770_1_alg».proof.Proof.KRun

noncomputable section

namespace Cert.KNet

open Idealize.ShloMosaic Idealize.ShloMosaic.TcCoe Idealize.SL.Sem
open Cert.KernelIdeal Cert.KernelIdeal.Gen Cert.KernelIdeal.Fold

variable (m : (ℓ : Loc nD τ sig) → Buf (Elt Ideal) ℓ) (ρ : Dev nD → PrngReg) (c : Dev nD)

/-- The merchants' first hidden layer: the first tiled layer on the first aggregation. -/
theorem hm_eq : HM m ρ c = Net.hm (Net.kArgs m c) := by
  refine (Sage0.array (V1 m ρ) c).trans ?_
  rw [entry0_v18 m ρ c, entry0_arg1 m ρ c, entry0_arg6 m ρ c, entry0_v19 m ρ c, entry0_arg8 m ρ c]
  rfl

/-- The cards' first hidden layer. -/
theorem hc_eq : HC m ρ c = Net.hc (Net.kArgs m c) := by
  refine (Sage1.array (V3 m ρ) c).trans ?_
  rw [entry1_v39 m ρ c, entry1_arg0 m ρ c, entry1_arg9 m ρ c, entry1_v40 m ρ c, entry1_arg11 m ρ c]
  rfl

/-- The merchants' second hidden layer reads the cards' first through the aggregation and the merchants' first directly. -/
theorem hm2_eq : HM2 m ρ c = Net.hm2 (Net.kArgs m c) := by
  refine (Sage2.array (V5 m ρ) c).trans ?_
  rw [entry2_v60 m ρ c, entry2_v20 m ρ c, entry2_arg12 m ρ c, entry2_v61 m ρ c, entry2_arg14 m ρ c, hc_eq m ρ c, hm_eq m ρ c]
  rfl

/-- The cards' second hidden layer. -/
theorem hc2_eq : HC2 m ρ c = Net.hc2 (Net.kArgs m c) := by
  refine (Sage3.array (V7 m ρ) c).trans ?_
  rw [entry3_v81 m ρ c, entry3_v41 m ρ c, entry3_arg15 m ρ c, entry3_v82 m ρ c, entry3_arg17 m ρ c, hm_eq m ρ c, hc_eq m ρ c]
  rfl

/-! ## The six results at the last boundary -/

theorem out_hc2 : W17 m ρ c (Proc.devRef .tc main_v83) = Net.hc2 (Net.kArgs m c) :=
  (at_v83 m ρ c).trans (hc2_eq m ρ c)

theorem out_hm2 : W17 m ρ c (Proc.devRef .tc main_v62) = Net.hm2 (Net.kArgs m c) :=
  (at_v62 m ρ c).trans (hm2_eq m ρ c)

theorem out_predc : W17 m ρ c (Proc.devRef .tc main_v86) = Net.predc (Net.kArgs m c) := by
  refine (at_v86 m ρ c).trans ((Mlp4.array (V9 m ρ) c).trans ?_)
  rw [entry4_v83 m ρ c, entry4_arg18 m ρ c, entry4_v84 m ρ c, entry4_arg20 m ρ c, entry4_v85 m ρ c, hc2_eq m ρ c]
  rfl

theorem out_predm : W17 m ρ c (Proc.devRef .tc main_v89) = Net.predm (Net.kArgs m c) := by
  refine (at_v89 m ρ c).trans ((Mlp5.array (V11 m ρ) c).trans ?_)
  rw [entry5_v62 m ρ c, entry5_arg22 m ρ c, entry5_v87 m ρ c, entry5_arg24 m ρ c, entry5_v88 m ρ c, hm2_eq m ρ c]
  rfl

/-- The cards' score: the one-column head's array, laid out as a vector by the host stretch after it. -/
theorem out_riskc : W17 m ρ c (Proc.devRef .tc main_v93)
    = shapeCast S100000 (Net.riskc (Net.kArgs m c)) shapeCasts_S100000x1_S100000 := by
  refine (at_v93 m ρ c).trans (congrArg (fun x => shapeCast S100000 x shapeCasts_S100000x1_S100000) ?_)
  refine (Mlp6.array (V13 m ρ) c).trans ?_
  rw [entry6_v83 m ρ c, entry6_arg26 m ρ c, entry6_v90 m ρ c, entry6_arg28 m ρ c, entry6_v91 m ρ c, hc2_eq m ρ c]
  rfl

/-- The merchants' score. -/
theorem out_riskm : W17 m ρ c (Proc.devRef .tc main_v97)
    = shapeCast S50000 (Net.riskm (Net.kArgs m c)) shapeCasts_S50000x1_S50000 := by
  refine (at_v97 m ρ c).trans (congrArg (fun x => shapeCast S50000 x shapeCasts_S50000x1_S50000) ?_)
  refine (Mlp7.array (V15 m ρ) c).trans ?_
  rw [entry7_v62 m ρ c, entry7_arg26 m ρ c, entry7_v94 m ρ c, entry7_arg28 m ρ c, entry7_v95 m ρ c, hm2_eq m ρ c]
  rfl

end Cert.KNet

end
-- ==== Proof.RefNet.lean ====
import proofs.«180647_j29807073034770_1_alg».proof.Proof.Net
import proofs.«180647_j29807073034770_1_alg».proof.Proof.Gen.ReferenceIdeal
import proofs.«180647_j29807073034770_1_alg».proof.Proof.Gen.ReferenceIdeal.Run

/-! # The reference computes the network

Each value the reference returns is, as printed, one closed term of the thirty argument arrays: the mean aggregations
spelt out as gather, scatter-add and divide; every layer as dot products, a broadcast bias and a maximum with zero. Read
from the inside out it is the network of `Cert.Net`: an aggregation chain is the named aggregation of the kernel side
(the same operations on the same dimension records, written in the other program's vocabulary), and a layer's spelling
is that layer's closed form. Nothing is computed: the chains stay folded and only spellings are exchanged. -/

noncomputable section

namespace Cert.RefNet

open Idealize.ShloMosaic

/-! ## The reference's aggregation chains are the named aggregations -/

section Agg
open Cert.ReferenceIdeal Cert.ReferenceIdeal.Gen

theorem agg0_ref (x : FVec Ideal S100000x64 .f32) (src dst : IVec S1000000 32) :
  Host.divf (F := Ideal)
    (Host.scatterAdd scatter_S50000x64_S1000000x1_S1000000x64_1_0_0_1
      (broadcastInDim S50000x64 ![] bcast_S_S50000x64 (constant (F := Ideal) S_ .f32 0x00000000#32))
      (broadcastInDim S1000000x1 ![0] bcast_S1000000_S1000000x1_0 dst)
      (Host.gather gather_S100000x64_S1000000x1_S1000000x64_1_0_n_n_0_1_164 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S50000x64 ![0, 1] bcast_S50000x1_S50000x64_0_1
      (broadcastInDim S50000x1 ![0] bcast_S50000_S50000x1_0
        (maximumf
          (Host.scatterAdd scatter_S50000_S1000000x1_S1000000_n_0_0_1
            (broadcastInDim S50000 ![] bcast_S_S50000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S50000 ![] bcast_S_S50000 (constant (F := Ideal) S_ .f32 0x3F800000#32)))))
      = Cert.KernelIdeal.Fold.agg0 x src dst := rfl
theorem agg1_ref (x : FVec Ideal S50000x64 .f32) (src dst : IVec S1000000 32) :
  Host.divf (F := Ideal)
    (Host.scatterAdd scatter_S100000x64_S1000000x1_S1000000x64_1_0_0_1
      (broadcastInDim S100000x64 ![] bcast_S_S100000x64 (constant (F := Ideal) S_ .f32 0x00000000#32))
      (broadcastInDim S1000000x1 ![0] bcast_S1000000_S1000000x1_0 dst)
      (Host.gather gather_S50000x64_S1000000x1_S1000000x64_1_0_n_n_0_1_164 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))))
    (broadcastInDim S100000x64 ![0, 1] bcast_S100000x1_S100000x64_0_1
      (broadcastInDim S100000x1 ![0] bcast_S100000_S100000x1_0
        (maximumf
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S100000 ![] bcast_S_S100000 (constant (F := Ideal) S_ .f32 0x3F800000#32)))))
      = Cert.KernelIdeal.Fold.agg1 x src dst := rfl
theorem agg2_ref (x : FVec Ideal S100000x128 .f32) (src dst : IVec S1000000 32) :
  Host.divf (F := Ideal)
    (Host.scatterAdd scatter_S50000x128_S1000000x1_S1000000x128_1_0_0_1
      (broadcastInDim S50000x128 ![] bcast_S_S50000x128 (constant (F := Ideal) S_ .f32 0x00000000#32))
      (broadcastInDim S1000000x1 ![0] bcast_S1000000_S1000000x1_0 dst)
      (Host.gather gather_S100000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 100000#32))) src))))
    (broadcastInDim S50000x128 ![0, 1] bcast_S50000x1_S50000x128_0_1
      (broadcastInDim S50000x1 ![0] bcast_S50000_S50000x1_0
        (maximumf
          (Host.scatterAdd scatter_S50000_S1000000x1_S1000000_n_0_0_1
            (broadcastInDim S50000 ![] bcast_S_S50000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S50000 ![] bcast_S_S50000 (constant (F := Ideal) S_ .f32 0x3F800000#32)))))
      = Cert.KernelIdeal.Fold.agg2 x src dst := rfl
theorem agg3_ref (x : FVec Ideal S50000x128 .f32) (src dst : IVec S1000000 32) :
  Host.divf (F := Ideal)
    (Host.scatterAdd scatter_S100000x128_S1000000x1_S1000000x128_1_0_0_1
      (broadcastInDim S100000x128 ![] bcast_S_S100000x128 (constant (F := Ideal) S_ .f32 0x00000000#32))
      (broadcastInDim S1000000x1 ![0] bcast_S1000000_S1000000x1_0 dst)
      (Host.gather gather_S50000x128_S1000000x1_S1000000x128_1_0_n_n_0_1_1128 x
        (broadcastInDim S1000000x1 ![0] bcast_S1000000_S1000000x1_0
          (select (cmpi .slt src (broadcastInDim S1000000 ![] bcast_S_S1000000 (constantI S_ 32 0#32)))
            (addi src (broadcastInDim S1000000 ![] bcast_S_S1000000 (constantI S_ 32 50000#32))) src))))
    (broadcastInDim S100000x128 ![0, 1] bcast_S100000x1_S100000x128_0_1
      (broadcastInDim S100000x1 ![0] bcast_S100000_S100000x1_0
        (maximumf
          (Host.scatterAdd scatter_S100000_S1000000x1_S1000000_n_0_0_1
            (broadcastInDim S100000 ![] bcast_S_S100000 (constant (F := Ideal) S_ .f32 0x00000000#32))
            (broadcastInDim S1000000x1 ![0] bcast_S1000000_S1000000x1_0 dst)
            (broadcastInDim S1000000 ![] bcast_S_S1000000 (constant (F := Ideal) S_ .f32 0x3F800000#32)))
          (broadcastInDim S100000 ![] bcast_S_S100000 (constant (F := Ideal) S_ .f32 0x3F800000#32)))))
      = Cert.KernelIdeal.Fold.agg3 x src dst := rfl

end Agg

/-! ## The six results -/

open Cert.KernelIdeal Cert.KernelIdeal.Gen

variable (m' : (ℓ : Loc Cert.ReferenceIdeal.nD Cert.ReferenceIdeal.τ Cert.ReferenceIdeal.sig) → Buf (Elt Ideal) ℓ) (c : Dev Cert.ReferenceIdeal.nD)

/-- The cards' second hidden layer: the outer layer over the aggregation of the merchants' first layer and over the
    cards' own first layer, each of those a layer over an aggregation of features. -/
theorem out0 : Cert.ReferenceIdeal.Value.res_main_v103 m' c = Cert.Net.hc2 (Cert.Net.rArgs m' c) := by
  unfold Cert.ReferenceIdeal.Value.res_main_v103
  rw [Sage3.host _ _ _ _ _ shapeCasts_S128_S1x128, Sage1.host _ _ _ _ _ shapeCasts_S128_S1x128,
    Sage0.host _ _ _ _ _ shapeCasts_S128_S1x128, agg3_ref, agg1_ref, agg0_ref]
  rfl

/-- The merchants' second hidden layer, likewise. -/
theorem out1 : Cert.ReferenceIdeal.Value.res_main_v77 m' c = Cert.Net.hm2 (Cert.Net.rArgs m' c) := by
  unfold Cert.ReferenceIdeal.Value.res_main_v77
  rw [Sage2.host _ _ _ _ _ shapeCasts_S128_S1x128, Sage1.host _ _ _ _ _ shapeCasts_S128_S1x128,
    Sage0.host _ _ _ _ _ shapeCasts_S128_S1x128, agg2_ref, agg1_ref, agg0_ref]
  rfl

/-- The cards' classifier: a two-layer head on their second hidden layer, whose spelling inside this term is
    letter for letter the term of `out0`. -/
theorem out2 : Cert.ReferenceIdeal.Value.res_main_v112 m' c = Cert.Net.predc (Cert.Net.rArgs m' c) := by
  have h := out0 m' c
  unfold Cert.ReferenceIdeal.Value.res_main_v103 at h
  unfold Cert.ReferenceIdeal.Value.res_main_v112
  rw [Mlp4.host _ _ _ _ _ shapeCasts_S64_S1x64 shapeCasts_S2_S1x2, h]
  rfl

/-- The merchants' classifier, on the term of `out1`. -/
theorem out3 : Cert.ReferenceIdeal.Value.res_main_v121 m' c = Cert.Net.predm (Cert.Net.rArgs m' c) := by
  have h := out1 m' c
  unfold Cert.ReferenceIdeal.Value.res_main_v77 at h
  unfold Cert.ReferenceIdeal.Value.res_main_v121
  rw [Mlp5.host _ _ _ _ _ shapeCasts_S64_S1x64 shapeCasts_S2_S1x2, h]
  rfl

/-- The cards' risk score: the one-column head through the logistic function, then laid out as a vector. -/
theorem out4 : Cert.ReferenceIdeal.Value.res_main_v137 m' c
    = shapeCast Cert.KernelIdeal.S100000 (Cert.Net.riskc (Cert.Net.rArgs m' c)) Cert.KernelIdeal.Gen.shapeCasts_S100000x1_S100000 := by
  have h := out0 m' c
  unfold Cert.ReferenceIdeal.Value.res_main_v103 at h
  unfold Cert.ReferenceIdeal.Value.res_main_v137
  rw [Mlp6.host _ _ _ _ _ shapeCasts_S64_S1x64 shapeCasts_S1_S1x1, h]
  rfl

/-- The merchants' risk score. -/
theorem out5 : Cert.ReferenceIdeal.Value.res_main_v153 m' c
    = shapeCast Cert.KernelIdeal.S50000 (Cert.Net.riskm (Cert.Net.rArgs m' c)) Cert.KernelIdeal.Gen.shapeCasts_S50000x1_S50000 := by
  have h := out1 m' c
  unfold Cert.ReferenceIdeal.Value.res_main_v77 at h
  unfold Cert.ReferenceIdeal.Value.res_main_v153
  rw [Mlp7.host _ _ _ _ _ shapeCasts_S64_S1x64 shapeCasts_S1_S1x1, h]
  rfl

end Cert.RefNet

end
-- ==== Proof.lean ====
/-
  A two-layer mean-aggregation network on a bipartite graph with four small heads, computed by eight
  row-tiled regions (four dense layers, four two-layer heads) among host-side gathers, scatter-adds and divisions, against the same network
  written as whole-array operations.

  Read on the extended reals the two programs compute one function of their thirty arguments: a tile's
  rows are rows of the whole matrix product, a change of float format is the identity, the tiled
  kernel's logistic is the quotient the reference spells out, and the aggregation between the layers is
  the same chain of host operations on both sides. No algebraic law beyond that is used, and the
  finiteness of the inputs is never opened.

  The three frames: the word-level and the idealized kernel run to completion leaving their arguments as
  launched (the tiled regions' launch, staging and write-back); the reference's run is read back one host
  operation at a time. The idealization rewrote nothing, so there is nothing to preserve.
-/
import proofs.«180647_j29807073034770_1_alg».proof.Defs
import proofs.«180647_j29807073034770_1_alg».proof.Proof.Gen.Kernel
import proofs.«180647_j29807073034770_1_alg».proof.Proof.Gen.Kernel.Frame
import proofs.«180647_j29807073034770_1_alg».proof.Proof.Gen.KernelIdeal
import proofs.«180647_j29807073034770_1_alg».proof.Proof.Gen.KernelIdeal.Frame
import proofs.«180647_j29807073034770_1_alg».proof.Proof.Gen.ReferenceIdeal
import proofs.«180647_j29807073034770_1_alg».proof.Proof.Gen.ReferenceIdeal.Run
import proofs.«180647_j29807073034770_1_alg».proof.Proof.Gen.Pre_finite_inputs
import proofs.«180647_j29807073034770_1_alg».proof.Proof.KNet
import proofs.«180647_j29807073034770_1_alg».proof.Proof.RefNet
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its six results forgotten. -/
theorem frame_referenceIdeal : Cert.frame_ReferenceIdeal := fun m ρ _ =>
  (θ_run Cert.ReferenceIdeal.defs _ _).mono (fun _ h c => (h c).2.2.2.2.2.2) (Cert.ReferenceIdeal.Value.run (F := Ideal) m ρ)

theorem preserves : Cert.preserves_Kernel_KernelIdeal := trivial

/-- Memories that agree on the thirty arguments give the same argument arrays. -/
theorem args_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) :
    Cert.Net.rArgs m' c = Cert.Net.kArgs m c := by
  obtain ⟨h0, h1, h2, h3, h4, h5, h6, h7, h8, h9, h10, h11, h12, h13, h14, h15, h16, h17, h18, h19, h20, h21, h22, h23, h24, h25, h26, h27, h28, h29⟩ := h
  unfold Cert.Net.rArgs Cert.Net.kArgs
  rw [h0, h1, h2, h3, h4, h5, h6, h7, h8, h9, h10, h11, h12, h13, h14, h15, h16, h17, h18, h19, h20, h21, h22, h23, h24, h25, h26, h27, h28, h29]

/-- Both programs end with the network's closed form of the arguments in their six result arrays. -/
theorem algebraic : Cert.algebraic_KernelIdeal_ReferenceIdeal := by
  intro m ρ m' ρ' _ hagree
  have hA : ∀ c, Cert.Net.rArgs m' c = Cert.Net.kArgs m c := fun c => args_agree m m' c (hagree c)
  refine ⟨fun c => Cert.Net.hc2 (Cert.Net.kArgs m c), fun c => Cert.Net.hm2 (Cert.Net.kArgs m c),
    fun c => Cert.Net.predc (Cert.Net.kArgs m c), fun c => Cert.Net.predm (Cert.Net.kArgs m c),
    fun c => shapeCast Cert.KernelIdeal.S100000 (Cert.Net.riskc (Cert.Net.kArgs m c)) Cert.KernelIdeal.Gen.shapeCasts_S100000x1_S100000,
    fun c => shapeCast Cert.KernelIdeal.S50000 (Cert.Net.riskm (Cert.Net.kArgs m c)) Cert.KernelIdeal.Gen.shapeCasts_S50000x1_S50000, ?_, ?_⟩
  · exact (θ_run Cert.KernelIdeal.defs _ _).mono (fun r h c =>
      ⟨(Cert.KernelIdeal.KRun.final_at m ρ h c Cert.KernelIdeal.main_v83 (by decide)).trans (Cert.KNet.out_hc2 m ρ c),
       (Cert.KernelIdeal.KRun.final_at m ρ h c Cert.KernelIdeal.main_v62 (by decide)).trans (Cert.KNet.out_hm2 m ρ c),
       (Cert.KernelIdeal.KRun.final_at m ρ h c Cert.KernelIdeal.main_v86 (by decide)).trans (Cert.KNet.out_predc m ρ c),
       (Cert.KernelIdeal.KRun.final_at m ρ h c Cert.KernelIdeal.main_v89 (by decide)).trans (Cert.KNet.out_predm m ρ c),
       (Cert.KernelIdeal.KRun.final_at m ρ h c Cert.KernelIdeal.main_v93 (by decide)).trans (Cert.KNet.out_riskc m ρ c),
       (Cert.KernelIdeal.KRun.final_at m ρ h c Cert.KernelIdeal.main_v97 (by decide)).trans (Cert.KNet.out_riskm m ρ c),
       (Cert.KernelIdeal.KRun.final_at m ρ h c Cert.KernelIdeal.main_arg0 (by decide)).trans (Cert.KernelIdeal.Gen.W17_main_arg0 m ρ c),
       (Cert.KernelIdeal.KRun.final_at m ρ h c Cert.KernelIdeal.main_arg1 (by decide)).trans (Cert.KernelIdeal.Gen.W17_main_arg1 m ρ c),
       (Cert.KernelIdeal.KRun.final_at m ρ h c Cert.KernelIdeal.main_arg2 (by decide)).trans (Cert.KernelIdeal.Gen.W17_main_arg2 m ρ c),
       (Cert.KernelIdeal.KRun.final_at m ρ h c Cert.KernelIdeal.main_arg3 (by decide)).trans (Cert.KernelIdeal.Gen.W17_main_arg3 m ρ c),
       (Cert.KernelIdeal.KRun.final_at m ρ h c Cert.KernelIdeal.main_arg4 (by decide)).trans (Cert.KernelIdeal.Gen.W17_main_arg4 m ρ c),
       (Cert.KernelIdeal.KRun.final_at m ρ h c Cert.KernelIdeal.main_arg5 (by decide)).trans (Cert.KernelIdeal.Gen.W17_main_arg5 m ρ c),
       (Cert.KernelIdeal.KRun.final_at m ρ h c Cert.KernelIdeal.main_arg6 (by decide)).trans (Cert.KernelIdeal.Gen.W17_main_arg6 m ρ c),
       (Cert.KernelIdeal.KRun.final_at m ρ h c Cert.KernelIdeal.main_arg7 (by decide)).trans (Cert.KernelIdeal.Gen.W17_main_arg7 m ρ c),
       (Cert.KernelIdeal.KRun.final_at m ρ h c Cert.KernelIdeal.main_arg8 (by decide)).trans (Cert.KernelIdeal.Gen.W17_main_arg8 m ρ c),
       (Cert.KernelIdeal.KRun.final_at m ρ h c Cert.KernelIdeal.main_arg9 (by decide)).trans (Cert.KernelIdeal.Gen.W17_main_arg9 m ρ c),
       (Cert.KernelIdeal.KRun.final_at m ρ h c Cert.KernelIdeal.main_arg10 (by decide)).trans (Cert.KernelIdeal.Gen.W17_main_arg10 m ρ c),
       (Cert.KernelIdeal.KRun.final_at m ρ h c Cert.KernelIdeal.main_arg11 (by decide)).trans (Cert.KernelIdeal.Gen.W17_main_arg11 m ρ c),
       (Cert.KernelIdeal.KRun.final_at m ρ h c Cert.KernelIdeal.main_arg12 (by decide)).trans (Cert.KernelIdeal.Gen.W17_main_arg12 m ρ c),
       (Cert.KernelIdeal.KRun.final_at m ρ h c Cert.KernelIdeal.main_arg13 (by decide)).trans (Cert.KernelIdeal.Gen.W17_main_arg13 m ρ c),
       (Cert.KernelIdeal.KRun.final_at m ρ h c Cert.KernelIdeal.main_arg14 (by decide)).trans (Cert.KernelIdeal.Gen.W17_main_arg14 m ρ c),
       (Cert.KernelIdeal.KRun.final_at m ρ h c Cert.KernelIdeal.main_arg15 (by decide)).trans (Cert.KernelIdeal.Gen.W17_main_arg15 m ρ c),
       (Cert.KernelIdeal.KRun.final_at m ρ h c Cert.KernelIdeal.main_arg16 (by decide)).trans (Cert.KernelIdeal.Gen.W17_main_arg16 m ρ c),
       (Cert.KernelIdeal.KRun.final_at m ρ h c Cert.KernelIdeal.main_arg17 (by decide)).trans (Cert.KernelIdeal.Gen.W17_main_arg17 m ρ c),
       (Cert.KernelIdeal.KRun.final_at m ρ h c Cert.KernelIdeal.main_arg18 (by decide)).trans (Cert.KernelIdeal.Gen.W17_main_arg18 m ρ c),
       (Cert.KernelIdeal.KRun.final_at m ρ h c Cert.KernelIdeal.main_arg19 (by decide)).trans (Cert.KernelIdeal.Gen.W17_main_arg19 m ρ c),
       (Cert.KernelIdeal.KRun.final_at m ρ h c Cert.KernelIdeal.main_arg20 (by decide)).trans (Cert.KernelIdeal.Gen.W17_main_arg20 m ρ c),
       (Cert.KernelIdeal.KRun.final_at m ρ h c Cert.KernelIdeal.main_arg21 (by decide)).trans (Cert.KernelIdeal.Gen.W17_main_arg21 m ρ c),
       (Cert.KernelIdeal.KRun.final_at m ρ h c Cert.KernelIdeal.main_arg22 (by decide)).trans (Cert.KernelIdeal.Gen.W17_main_arg22 m ρ c),
       (Cert.KernelIdeal.KRun.final_at m ρ h c Cert.KernelIdeal.main_arg23 (by decide)).trans (Cert.KernelIdeal.Gen.W17_main_arg23 m ρ c),
       (Cert.KernelIdeal.KRun.final_at m ρ h c Cert.KernelIdeal.main_arg24 (by decide)).trans (Cert.KernelIdeal.Gen.W17_main_arg24 m ρ c),
       (Cert.KernelIdeal.KRun.final_at m ρ h c Cert.KernelIdeal.main_arg25 (by decide)).trans (Cert.KernelIdeal.Gen.W17_main_arg25 m ρ c),
       (Cert.KernelIdeal.KRun.final_at m ρ h c Cert.KernelIdeal.main_arg26 (by decide)).trans (Cert.KernelIdeal.Gen.W17_main_arg26 m ρ c),
       (Cert.KernelIdeal.KRun.final_at m ρ h c Cert.KernelIdeal.main_arg27 (by decide)).trans (Cert.KernelIdeal.Gen.W17_main_arg27 m ρ c),
       (Cert.KernelIdeal.KRun.final_at m ρ h c Cert.KernelIdeal.main_arg28 (by decide)).trans (Cert.KernelIdeal.Gen.W17_main_arg28 m ρ c),
       (Cert.KernelIdeal.KRun.final_at m ρ h c Cert.KernelIdeal.main_arg29 (by decide)).trans (Cert.KernelIdeal.Gen.W17_main_arg29 m ρ c)⟩)
      (Cert.KernelIdeal.KRun.run_final (F := Ideal) m ρ)
  · exact (θ_run Cert.ReferenceIdeal.defs _ _).mono (fun r h c =>
      ⟨(h c).1.trans ((Cert.RefNet.out0 m' c).trans (congrArg Cert.Net.hc2 (hA c))),
       (h c).2.1.trans ((Cert.RefNet.out1 m' c).trans (congrArg Cert.Net.hm2 (hA c))),
       (h c).2.2.1.trans ((Cert.RefNet.out2 m' c).trans (congrArg Cert.Net.predc (hA c))),
       (h c).2.2.2.1.trans ((Cert.RefNet.out3 m' c).trans (congrArg Cert.Net.predm (hA c))),
       (h c).2.2.2.2.1.trans ((Cert.RefNet.out4 m' c).trans
         (congrArg (fun A => shapeCast Cert.KernelIdeal.S100000 (Cert.Net.riskc A) Cert.KernelIdeal.Gen.shapeCasts_S100000x1_S100000) (hA c))),
       (h c).2.2.2.2.2.1.trans ((Cert.RefNet.out5 m' c).trans
         (congrArg (fun A => shapeCast Cert.KernelIdeal.S50000 (Cert.Net.riskm A) Cert.KernelIdeal.Gen.shapeCasts_S50000x1_S50000) (hA c))),
       (h c).2.2.2.2.2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
